-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x6 : Shape := ⟨2, ![64, 6]⟩
abbrev S6 : Shape := ⟨1, ![6]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S6 .f32) (main_v13 : IVec S_ 1) (main_v16 : IVec S64x6 1) : IVec S_ 1 :=
  let main_c_5 : IVec S_ 1 := constantI S_ 1 1#1
  let main_v17 : IVec S_ 1 := (fun x v => Host.reduce IntOp.andi x v reducesTo_S64x6_S_d0_1 h_S_) main_v16 main_c_5
  let main_v18 : IVec S_ 1 := andi main_v13 main_v17
  let main_v19 : FVec F S6 .f32 := Host.absf main_arg5
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S100000x64 .f32) (main_arg1 : IVec S2x3200000 32) (main_arg2 : FVec F S64x64 .f32) (main_arg3 : FVec F S64 .f32) (main_arg4 : FVec F S64x6 .f32) (main_arg5 : FVec F S6 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x6 .f32 := Host.absf main_arg4
  let main_cst_4 : FVec F S_ .f32 := constant S_ .f32 0x7F800000#32
  let main_v15 : FVec F S64x6 .f32 := broadcastInDim S64x6 ![] bcast_S_S64x6 main_cst_4
  let main_v16 : IVec S64x6 1 := cmpf .olt main_v14 main_v15
  fn_part1 (F := F) main_arg5 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x6 : Shape := ⟨2, ![64, 6]⟩
abbrev S6 : Shape := ⟨1, ![6]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S10000x64 : Shape := ⟨2, ![10000, 64]⟩
abbrev S3300000x64 : Shape := ⟨2, ![3300000, 64]⟩
abbrev S1x64 : Shape := ⟨2, ![1, 64]⟩
abbrev S100000x6 : Shape := ⟨2, ![100000, 6]⟩
abbrev S10000x6 : Shape := ⟨2, ![10000, 6]⟩
abbrev S3300000x6 : Shape := ⟨2, ![3300000, 6]⟩
abbrev S1x6 : Shape := ⟨2, ![1, 6]⟩

abbrev nBuf : Space → Nat
  | .hbm => 85
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x6, .f32⟩
  | .hbm, ⟨5, _⟩ => ⟨S6, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x6, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x6, .f32⟩
  | .hbm, ⟨75, _⟩ => ⟨S3300000x1, .f32⟩
  | .hbm, ⟨76, _⟩ => ⟨S3300000x6, .f32⟩
  | .hbm, ⟨77, _⟩ => ⟨S3300000x6, .f32⟩
  | .hbm, ⟨78, _⟩ => ⟨S_, .f32⟩
  | .hbm, ⟨79, _⟩ => ⟨S100000x6, .f32⟩
  | .hbm, ⟨80, _⟩ => ⟨S3300000x1, .i32⟩
  | .hbm, ⟨81, _⟩ => ⟨S100000x6, .f32⟩
  | .hbm, ⟨82, _⟩ => ⟨S1x6, .f32⟩
  | .hbm, ⟨83, _⟩ => ⟨S1x6, .f32⟩
  | .hbm, ⟨84, _⟩ => ⟨S6, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x6, .f32⟩
  | .local _ .vmem, ⟨13, _⟩ => ⟨S10000x6, .f32⟩
  | .local _ .vmem, ⟨14, _⟩ => ⟨S10000x6, .f32⟩
  | .local _ .vmem, ⟨15, _⟩ => ⟨S10000x6, .f32⟩
  | .local _ .vmem, ⟨16, _⟩ => ⟨S10000x6, .f32⟩
  | .local _ .vmem, ⟨17, _⟩ => ⟨S1x6, .f32⟩
  | .local _ .vmem, ⟨18, _⟩ => ⟨S1x6, .f32⟩
  | .local _ .vmem, ⟨19, _⟩ => ⟨S1x6, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x6 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x6 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x6 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x6_S64x6_0_0 : ∀ a, (![0, 0] : Fin 2 → Nat) a + S64x6.size a ≤ S64x6.size a
  h_S64x6 : 0 < S64x6.numel
  inb_S10000x6_S10000x6_0_0 : ∀ a, (![0, 0] : Fin 2 → Nat) a + S10000x6.size a ≤ S10000x6.size a
  h_S10000x6 : 0 < S10000x6.numel
  bcast_S3300000x1_S3300000x6_0_1 : S3300000x1.BroadcastsInDim S3300000x6 (![0, 1] : Fin 2 → Fin S3300000x6.rank)
  bcast_S_S100000x6 : S_.BroadcastsInDim S100000x6 (![] : Fin 0 → Fin S100000x6.rank)
  shapeCasts_S6_S1x6 : S6.ShapeCasts S1x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  shapeCasts_S10000x6_S10000x6 : S10000x6.ShapeCasts S10000x6
  reduces_S10000x6_S6 : S10000x6.Reduces [0] S6
  shapeCasts_S1x6_S6 : S1x6.ShapeCasts S6
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x64_S10000x64_1_0_0_1_n_n_wf : DotDims.WF S10000x64 S64x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x6_S10000x6_1_0_0_1_n_n_wf : DotDims.WF S10000x64 S64x6 S10000x6 [1] [0] [0] [1] [] []
  gather_S100000x6_S3300000x1_S3300000x6_1_0_n_n_0_1_16_wf : GatherDims.WF S100000x6 S3300000x1 S3300000x6 [1] [0] [] [0] [] 1 ![1, 6]
  scatter_S100000x6_S3300000x1_S3300000x6_1_0_0_1_wf : ScatterDims.WF S100000x6 S3300000x1 S3300000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x6.size a ≤ S64x6.size a
  hwx2_1 : ∀ i : grid2.Coords, EltTy.bits .f32 = 32 ∨ (Rect.block (s := S64x6) S64x6.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x6.size a ≤ S100000x6.size a
  hwx2_2 : ∀ i : grid2.Coords, EltTy.bits .f32 = 32 ∨ (Rect.block (s := S100000x6) S10000x6.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x6.size a ≤ S100000x6.size a
  hwx3_0 : ∀ i : grid3.Coords, EltTy.bits .f32 = 32 ∨ (Rect.block (s := S100000x6) S10000x6.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x6.size a ≤ S1x6.size a
  hwx3_1 : ∀ i : grid3.Coords, EltTy.bits .f32 = 32 ∨ (Rect.block (s := S1x6) S1x6.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x6.size a ≤ S1x6.size a
  hwx3_2 : ∀ i : grid3.Coords, EltTy.bits .f32 = 32 ∨ (Rect.block (s := S1x6) S1x6.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x6_S10000x6_1_0_0_1_n_n : DotDims S10000x64 S64x6 S10000x6 where
  lhsContracting := [1]
  rhsContracting := [0]
  lhsNonContracting := [0]
  rhsNonContracting := [1]
  lhsBatch := []
  rhsBatch := []
  wf := dot_S10000x64_S64x6_S10000x6_1_0_0_1_n_n_wf
def gather_S100000x6_S3300000x1_S3300000x6_1_0_n_n_0_1_16 : GatherDims S100000x6 S3300000x1 S3300000x6 where
  offsetDims := [1]
  collapsedSliceDims := [0]
  operandBatchingDims := []
  startIndicesBatchingDims := []
  startIndexMap := [0]
  indexVectorDim := 1
  sliceSizes := ![1, 6]
  wf := gather_S100000x6_S3300000x1_S3300000x6_1_0_n_n_0_1_16_wf
def scatter_S100000x6_S3300000x1_S3300000x6_1_0_0_1 : ScatterDims S100000x6 S3300000x1 S3300000x6 where
  updateWindowDims := [1]
  insertedWindowDims := [0]
  scatterDimsToOperandDims := [0]
  indexVectorDim := 1
  wf := scatter_S100000x6_S3300000x1_S3300000x6_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x6.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x6.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x6.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x6.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x6 : Shape := ⟨2, ![64, 6]⟩
abbrev S6 : Shape := ⟨1, ![6]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x6 : Shape := ⟨2, ![100000, 6]⟩
abbrev S3300000x6 : Shape := ⟨2, ![3300000, 6]⟩
abbrev S1x6 : Shape := ⟨2, ![1, 6]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x6, .f32⟩
  | .hbm, ⟨5, _⟩ => ⟨S6, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x6, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x6, .f32⟩
  | .hbm, ⟨79, _⟩ => ⟨S3300000x1, .f32⟩
  | .hbm, ⟨80, _⟩ => ⟨S3300000x6, .f32⟩
  | .hbm, ⟨81, _⟩ => ⟨S3300000x6, .f32⟩
  | .hbm, ⟨82, _⟩ => ⟨S_, .f32⟩
  | .hbm, ⟨83, _⟩ => ⟨S100000x6, .f32⟩
  | .hbm, ⟨84, _⟩ => ⟨S3300000x1, .i32⟩
  | .hbm, ⟨85, _⟩ => ⟨S100000x6, .f32⟩
  | .hbm, ⟨86, _⟩ => ⟨S1x6, .f32⟩
  | .hbm, ⟨87, _⟩ => ⟨S100000x6, .f32⟩
  | .hbm, ⟨88, _⟩ => ⟨S100000x6, .f32⟩
  | .hbm, ⟨89, _⟩ => ⟨S_, .f32⟩
  | .hbm, ⟨90, _⟩ => ⟨S6, .f32⟩
  | .hbm, ⟨91, _⟩ => ⟨S_, .f32⟩
  | .hbm, ⟨92, _⟩ => ⟨S6, .f32⟩
  | .hbm, ⟨93, _⟩ => ⟨S6, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x6_0_1 : S3300000x1.BroadcastsInDim S3300000x6 (![0, 1] : Fin 2 → Fin S3300000x6.rank)
  bcast_S_S100000x6 : S_.BroadcastsInDim S100000x6 (![] : Fin 0 → Fin S100000x6.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  reducesTo_S100000x6_S6_d0 : S100000x6.ReducesTo [0] S6
  h_S_ : 0 < S_.numel
  bcast_S_S6 : S_.BroadcastsInDim S6 (![] : Fin 0 → Fin S6.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x6_S100000x6_1_0_0_1_n_n_wf : DotDims.WF S100000x64 S64x6 S100000x6 [1] [0] [0] [1] [] []
  gather_S100000x6_S3300000x1_S3300000x6_1_0_n_n_0_1_16_wf : GatherDims.WF S100000x6 S3300000x1 S3300000x6 [1] [0] [] [0] [] 1 ![1, 6]
  scatter_S100000x6_S3300000x1_S3300000x6_1_0_0_1_wf : ScatterDims.WF S100000x6 S3300000x1 S3300000x6 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x6_S100000x6_1_0_0_1_n_n : DotDims S100000x64 S64x6 S100000x6 where
  lhsContracting := [1]
  rhsContracting := [0]
  lhsNonContracting := [0]
  rhsNonContracting := [1]
  lhsBatch := []
  rhsBatch := []
  wf := dot_S100000x64_S64x6_S100000x6_1_0_0_1_n_n_wf
def gather_S100000x6_S3300000x1_S3300000x6_1_0_n_n_0_1_16 : GatherDims S100000x6 S3300000x1 S3300000x6 where
  offsetDims := [1]
  collapsedSliceDims := [0]
  operandBatchingDims := []
  startIndicesBatchingDims := []
  startIndexMap := [0]
  indexVectorDim := 1
  sliceSizes := ![1, 6]
  wf := gather_S100000x6_S3300000x1_S3300000x6_1_0_n_n_0_1_16_wf
def scatter_S100000x6_S3300000x1_S3300000x6_1_0_0_1 : ScatterDims S100000x6 S3300000x1 S3300000x6 where
  updateWindowDims := [1]
  insertedWindowDims := [0]
  scatterDimsToOperandDims := [0]
  indexVectorDim := 1
  wf := scatter_S100000x6_S3300000x1_S3300000x6_1_0_0_1_wf

class Facts : Prop extends Facts₀ where

variable [Facts]
-- ==== Proof.WordProjectRegion.lean ====
/-
  Region 0: the first dense layer, `h = x · W1`, ten blocks of 10000 rows.
  Each grid point loads a block of 10000 rows of `x` and the whole of `W1`, multiplies them into a zero accumulator and stores the 10000 × 64 product.
  Stated at the contents `V` the region finds in the core's buffers: the blocks the two input windows show the body at
  a grid point, what the body's one store leaves in the output window's buffer as a function of those two blocks, the
  body's specification, and the data the pipeline's correctness theorem asks for (each window's buffer after every
  point; the invariant between points, here only the buffers and registers the body never names).
-/
import proofs.«115260_j9131100472028_1_alg».proof.Proof.Gen.Kernel.Launch
import proofs.«115260_j9131100472028_1_alg».proof.Proof.Gen.Kernel.Skeleton
import proofs.«115260_j9131100472028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `10000 t … 10000 t + 9999` of its array (all of it, for the
    window whose index does not move), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds the point's block when the body starts, for any proof data over `V`'s array
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's window is fetched at the first point only; its index never moves, so its buffer holds the
    same block — the whole array — at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each operand's buffer read whole, the result's buffer written whole -/

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x64 := Rect.unit (s := S10000x64) ![0, 0] S10000x64.size inb_S10000x64_S10000x64_0_0

/-- What the result window's buffer holds after the body, from the two operand blocks: one store, of the body's
    value of the two loads, over the whole buffer. -/
def out0_2 (x0 : Vec F S10000x64 .f32) (x1 : Vec F S64x64 .f32) : Vec F S10000x64 .f32 :=
  View.canon [⟨r0_2, k0_pay1 (View.ld x0 r0_0) (View.ld x1 r0_1)⟩]

/-- The one store covers the buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's specification -/

set_option maxHeartbeats 1000000 in
/-- On whole buffers, the operands' at contents `x0`, `x1` and the result's at anything, the body runs to its end
    leaving the operands' buffers as they were and the result's at `out0_2 x0 x1`. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each operand's buffer still at its block and the
    result's at `out0_2` of the two blocks; between points only what the body never names; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the pipeline calls the body with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the operands' buffers hold their blocks, so the body's specification applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordBiasReluRegion.lean ====
/-
  Region 1: the first layer's bias and rectifier, `h1 = max(msg + b1, 0)`, ten blocks of 10000 rows.
  Each grid point loads a block of 10000 rows of the aggregated messages and the bias as a 1 × 64 row, adds the row to every row of the block, takes the maximum with zero and stores the 10000 × 64 result.
  Stated at the contents `V` the region finds in the core's buffers: the blocks the two input windows show the body at
  a grid point, what the body's one store leaves in the output window's buffer as a function of those two blocks, the
  body's specification, and the data the pipeline's correctness theorem asks for (each window's buffer after every
  point; the invariant between points, here only the buffers and registers the body never names).
-/
import proofs.«115260_j9131100472028_1_alg».proof.Proof.Gen.Kernel.Launch
import proofs.«115260_j9131100472028_1_alg».proof.Proof.Gen.Kernel.Skeleton
import proofs.«115260_j9131100472028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `10000 t … 10000 t + 9999` of its array (all of it, for the
    window whose index does not move), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's buffer holds the point's block when the body starts, for any proof data over `V`'s array
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's window is fetched at the first point only; its index never moves, so its buffer holds the
    same block — the whole array — at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each operand's buffer read whole, the result's buffer written whole -/

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S10000x64 := Rect.unit (s := S10000x64) ![0, 0] S10000x64.size inb_S10000x64_S10000x64_0_0

/-- What the result window's buffer holds after the body, from the two operand blocks: one store, of the body's
    value of the two loads, over the whole buffer. -/
def out1_2 (x0 : Vec F S10000x64 .f32) (x1 : Vec F S1x64 .f32) : Vec F S10000x64 .f32 :=
  View.canon [⟨r1_2, k1_pay1 (View.ld x0 r1_0) (View.ld x1 r1_1)⟩]

/-- The one store covers the buffer. -/
theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

/-! ## The body's specification -/

set_option maxHeartbeats 1000000 in
/-- On whole buffers, the operands' at contents `x0`, `x1` and the result's at anything, the body runs to its end
    leaving the operands' buffers as they were and the result's at `out1_2 x0 x1`. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` each operand's buffer still at its block and the
    result's at `out1_2` of the two blocks; between points only what the body never names; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the pipeline calls the body with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the operands' buffers hold their blocks, so the body's specification applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordClassifyRegion.lean ====
/-
  Region 2: the second dense layer, `h2 = h1 · W2`, ten blocks of 10000 rows.
  Each grid point loads a block of 10000 rows of `h1` and the whole of `W2`, multiplies them into a zero accumulator and stores the 10000 × 6 product.
  Stated at the contents `V` the region finds in the core's buffers: the blocks the two input windows show the body at
  a grid point, what the body's one store leaves in the output window's buffer as a function of those two blocks, the
  body's specification, and the data the pipeline's correctness theorem asks for (each window's buffer after every
  point; the invariant between points, here only the buffers and registers the body never names).
-/
import proofs.«115260_j9131100472028_1_alg».proof.Proof.Gen.Kernel.Launch
import proofs.«115260_j9131100472028_1_alg».proof.Proof.Gen.Kernel.Skeleton
import proofs.«115260_j9131100472028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `10000 t … 10000 t + 9999` of its array (all of it, for the
    window whose index does not move), read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's buffer holds the point's block when the body starts, for any proof data over `V`'s array
    whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second operand's window is fetched at the first point only; its index never moves, so its buffer holds the
    same block — the whole array — at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each operand's buffer read whole, the result's buffer written whole -/

abbrev r2_0 : Rect S10000x64 := Rect.unit (s := S10000x64) ![0, 0] S10000x64.size inb_S10000x64_S10000x64_0_0
abbrev r2_1 : Rect S64x6 := Rect.unit (s := S64x6) ![0, 0] S64x6.size inb_S64x6_S64x6_0_0
abbrev r2_2 : Rect S10000x6 := Rect.unit (s := S10000x6) ![0, 0] S10000x6.size inb_S10000x6_S10000x6_0_0

/-- What the result window's buffer holds after the body, from the two operand blocks: one store, of the body's
    value of the two loads, over the whole buffer. -/
def out2_2 (x0 : Vec F S10000x64 .f32) (x1 : Vec F S64x6 .f32) : Vec F S10000x6 .f32 :=
  View.canon [⟨r2_2, k2_pay1 (View.ld x0 r2_0) (View.ld x1 r2_1)⟩]

/-- The one store covers the buffer. -/
theorem cover2_2 (p0 : Vec F S10000x6 .f32) (y : S10000x6.Idx) :
    ∃ pc ∈ ([⟨r2_2, p0⟩] : List (View.Piece (Elt F) S10000x6 .f32)), y ∈ pc.1.set :=
  View.cover_of_tiled [⟨r2_2, p0⟩] S10000x6.size (by rfl) y

/-! ## The body's specification -/

set_option maxHeartbeats 1000000 in
/-- On whole buffers, the operands' at contents `x0`, `x1` and the result's at anything, the body runs to its end
    leaving the operands' buffers as they were and the result's at `out2_2 x0 x1`. -/
theorem sound_kernel2 (c : Dev nD) (E : Set ℕ) (i : grid2.Coords) (arg1 : Memref sig .tc .vmem S10000x64 .f32) (harg1 : arg1.IsWhole) (arg2 : Memref sig .tc .vmem S64x6 .f32) (harg2 : arg2.IsWhole)
    (arg3 : Memref sig .tc .vmem S10000x6 .f32) (harg3 : arg3.IsWhole)
    (x0 : Vec F S10000x64 .f32) (x1 : Vec F S64x6 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each operand's buffer still at its block and the
    result's at `out2_2` of the two blocks; between points only what the body never names; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the pipeline calls the body with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the operands' buffers hold their blocks, so the body's specification applies; the invariant and the
    core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.WordBoundaries.lean ====
/-
  The contents of the core's buffers at every boundary of @main — a stretch of host operations, a kernel region, a
  stretch, … — and each of the first three regions as a segment between two boundaries.
  A region changes only its result array, and what it leaves there is what its pipeline's write-backs leave
  (`Dat.arrAt … N`, from the region's proof data at the contents the region is entered with). The boundaries'
  contents are the generated fold through the host stretches with those four result arrays filled in, one region
  after the other: region 1 is entered with what region 0 left in `main_v30` pushed through the second stretch, and
  so on. The fourth region's proof data is a parameter here (`d3`).
-/
import proofs.«115260_j9131100472028_1_alg».proof.Proof.WordProjectRegion
import proofs.«115260_j9131100472028_1_alg».proof.Proof.WordBiasReluRegion
import proofs.«115260_j9131100472028_1_alg».proof.Proof.WordClassifyRegion
import proofs.«115260_j9131100472028_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each region is entered with, and what it leaves -/

/-- Region 0 is entered with the launch contents pushed through the first three host stretches. -/
abbrev X0 : (c : Dev nD) → (b : Ref sig .tc) → Buf (Elt F) ((c : Thread nD τ).loc b) := fun c b => Gen.V3 m c b
/-- The buffers when region 0 is left: its arrays at what its pipeline leaves, every other buffer untouched. -/
def W4 (c : Dev nD) : Valuation τ sig (Elt F) :=
  Pipeline.withArrays spec0 c (Gen.V3 m c) fun w => (dat0 (X0 m) c).arrAt w cfg0.N
/-- The regions' results so far: region 0's. -/
def outs4 : Gen.Outs (F := F) := fun _ r c => W4 m c (Proc.devRef .tc r)

/-- Region 1 is entered with that pushed through the fourth host stretch (the first message passing). -/
abbrev X1 : (c : Dev nD) → (b : Ref sig .tc) → Buf (Elt F) ((c : Thread nD τ).loc b) := fun c b => Gen.V5 m (outs4 m) c b
def W6 (c : Dev nD) : Valuation τ sig (Elt F) :=
  Pipeline.withArrays spec1 c (Gen.V5 m (outs4 m) c) fun w => (dat1 (X1 m) c).arrAt w cfg1.N
def outs6 : Gen.Outs (F := F) := fun J r c => if J = 6 then W6 m c (Proc.devRef .tc r) else outs4 m J r c

/-- Region 2 is entered with what region 1 left. -/
abbrev X2 : (c : Dev nD) → (b : Ref sig .tc) → Buf (Elt F) ((c : Thread nD τ).loc b) := fun c b => Gen.V6 m (outs6 m) c b
def W7 (c : Dev nD) : Valuation τ sig (Elt F) :=
  Pipeline.withArrays spec2 c (Gen.V6 m (outs6 m) c) fun w => (dat2 (X2 m) c).arrAt w cfg2.N
def outs7 : Gen.Outs (F := F) := fun J r c => if J = 7 then W7 m c (Proc.devRef .tc r) else outs6 m J r c

/-- Region 3 is entered with what region 2 left pushed through the fifth host stretch (the second message passing). -/
abbrev X3 : (c : Dev nD) → (b : Ref sig .tc) → Buf (Elt F) ((c : Thread nD τ).loc b) := fun c b => Gen.V8 m (outs7 m) c b

variable (d3 : (c : Dev nD) → Dat τ (Elt F) Unit ℕ (UR sig nD τ) ℕ cfg3 c)

def W9 (c : Dev nD) : Valuation τ sig (Elt F) :=
  Pipeline.withArrays spec3 c (Gen.V8 m (outs7 m) c) fun w => (d3 c).arrAt w cfg3.N
/-- What the four regions leave in their result arrays, as the generated fold reads it. -/
def outs : Gen.Outs (F := F) := fun J r c => if J = 9 then W9 m d3 c (Proc.devRef .tc r) else outs7 m J r c

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (X0 m) c
  | ⟨1, _⟩ => fun c => dat1 (X1 m) c
  | ⟨2, _⟩ => fun c => dat2 (X2 m) c
  | ⟨3, _⟩ => fun c => d3 c

/-- No core owes another anything: no level is assigned. -/
abbrev Lz : GSem nD τ sig → Finset Unit := fun _ => ∅
abbrev lvz : GSem nD τ sig → Unit → ℕ := fun _ _ => 0
/-- Beside the buffers, through every segment: the generator register at some state, and the core owing nothing. -/
abbrev Rr (c : Dev nD) : sProp 𝕄 := iprop((∃ r, prngReg c r) ∗ ∃ W, owes (c : Thread nD τ) (0 : CellTallies nD τ sig Unit) W)

/-! ## What the final family of results reads at each stage -/

theorem outs_at4 (r : Ref sig .tc) (c : Dev nD) : outs m d3 4 r c = W4 m c (Proc.devRef .tc r) := by
  unfold outs outs7 outs6 outs4
  rw [if_neg (by decide), if_neg (by decide), if_neg (by decide)]
theorem outs_at6 (r : Ref sig .tc) (c : Dev nD) : outs m d3 6 r c = W6 m c (Proc.devRef .tc r) := by
  unfold outs outs7 outs6
  rw [if_neg (by decide), if_neg (by decide), if_pos rfl]
theorem outs_at7 (r : Ref sig .tc) (c : Dev nD) : outs m d3 7 r c = W7 m c (Proc.devRef .tc r) := by
  unfold outs outs7
  rw [if_neg (by decide), if_pos rfl]
theorem outs_at9 (r : Ref sig .tc) (c : Dev nD) : outs m d3 9 r c = W9 m d3 c (Proc.devRef .tc r) := by
  unfold outs
  rw [if_pos rfl]

/-! ## The first three regions as segments -/

/-- Region 0's arrays at its exit are the next boundary's contents: the operands' as the region found them (an input
    window is never written back), the result's at what the write-backs leave. -/
theorem hF0 (c : Dev nD) (w : Fin cfg0.W) : (dat0 (X0 m) c).arrAt w cfg0.N = Gen.V4 m (outs m d3) c (Pipeline.arrRef spec0 w) := by
  match w with
  | ⟨0, _⟩ => exact ((dat0 (X0 m) c).arrAt_in 0 rfl _).trans ((A_eq0 (X0 m) c 0).trans (Gen.V4_of m (outs m d3) c main_arg0 (by decide)).symm)
  | ⟨1, _⟩ => exact ((dat0 (X0 m) c).arrAt_in 1 rfl _).trans ((A_eq0 (X0 m) c 1).trans (Gen.V4_of m (outs m d3) c main_arg2 (by decide)).symm)
  | ⟨2, _⟩ =>
    have hself : Gen.V4 m (outs m d3) c (Proc.devRef .tc main_v30) = outs m d3 4 main_v30 c := Function.update_self _ _ _
    have hread : W4 m c (Proc.devRef .tc main_v30) = (dat0 (X0 m) c).arrAt 2 cfg0.N := by
      unfold W4; exact Pipeline.withArrays_arr spec0 launch0.win.arr_inj c _ _ 2
    exact hread.symm.trans ((outs_at4 m d3 main_v30 c).symm.trans hself.symm)

/-- Every other buffer is as the region found it. -/
theorem hrest0 (c : Dev nD) : ∀ b, b ∉ Finset.univ.image (Pipeline.arrRef spec0) → Gen.V4 m (outs m d3) c b = Gen.V3 m c b :=
  fun b hb => Gen.V4_of m (outs m d3) c b (by
    simp only [List.mem_singleton]; rintro rfl
    exact hb (Finset.mem_image.mpr ⟨2, Finset.mem_univ _, rfl⟩))

set_option backward.isDefEq.respectTransparency.types false in
/-- Region 0 between two boundaries' contents of the core's unscoped buffers: at its entry its three arrays are split
    out of those buffers and at its exit put back at what the pipeline leaves; the generator register goes into the
    invariant and comes out; the core owes nothing; the kernel has no semaphore of its own. -/
def reg0 : RegionSeg (pcfgs (F := F)) Gen.adm (pdats m d3) () defs₀ Variants.none Lz lvz 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ Lz lvz 0 fun _ _ => rfl
  pre c := iprop(StableHlo.held (c : Thread nD τ) (Pipeline.ucRefs τ sig) (Gen.V3 m c) ∗ Rr c)
  post c := iprop(StableHlo.held (c : Thread nD τ) (Pipeline.ucRefs τ sig) (Gen.V4 m (outs m d3) c) ∗ Rr c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := F)) Gen.adm (pdats m d3) launch0.win launch0.arr_whole c
      ((pdats m d3 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m d3) ((pdats m d3 0 c).share_full fun _ => rfl)
      (X0 m c) (fun b => Gen.V4 m (outs m d3) c b) ((pdats m d3 0 c).arrAt · cfg0.N) (hF0 m d3 c) (hrest0 m d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays at its exit are the next boundary's contents: the operands' as the region found them (an input
    window is never written back), the result's at what the write-backs leave. -/
theorem hF1 (c : Dev nD) (w : Fin cfg1.W) : (dat1 (X1 m) c).arrAt w cfg1.N = Gen.V6 m (outs m d3) c (Pipeline.arrRef spec1 w) := by
  match w with
  | ⟨0, _⟩ => exact ((dat1 (X1 m) c).arrAt_in 0 rfl _).trans ((A_eq1 (X1 m) c 0).trans (Gen.V6_of m (outs m d3) c main_v43 (by decide)).symm)
  | ⟨1, _⟩ => exact ((dat1 (X1 m) c).arrAt_in 1 rfl _).trans ((A_eq1 (X1 m) c 1).trans (Gen.V6_of m (outs m d3) c main_v44 (by decide)).symm)
  | ⟨2, _⟩ =>
    have hself : Gen.V6 m (outs m d3) c (Proc.devRef .tc main_v45) = outs m d3 6 main_v45 c := Function.update_self _ _ _
    have hread : W6 m c (Proc.devRef .tc main_v45) = (dat1 (X1 m) c).arrAt 2 cfg1.N := by
      unfold W6; exact Pipeline.withArrays_arr spec1 launch1.win.arr_inj c _ _ 2
    exact hread.symm.trans ((outs_at6 m d3 main_v45 c).symm.trans hself.symm)

/-- Every other buffer is as the region found it. -/
theorem hrest1 (c : Dev nD) : ∀ b, b ∉ Finset.univ.image (Pipeline.arrRef spec1) → Gen.V6 m (outs m d3) c b = Gen.V5 m (outs4 m) c b :=
  fun b hb => Gen.V6_of m (outs m d3) c b (by
    simp only [List.mem_singleton]; rintro rfl
    exact hb (Finset.mem_image.mpr ⟨2, Finset.mem_univ _, rfl⟩))

set_option backward.isDefEq.respectTransparency.types false in
/-- Region 1 between two boundaries' contents of the core's unscoped buffers: at its entry its three arrays are split
    out of those buffers and at its exit put back at what the pipeline leaves; the generator register goes into the
    invariant and comes out; the core owes nothing; the kernel has no semaphore of its own. -/
def reg1 : RegionSeg (pcfgs (F := F)) Gen.adm (pdats m d3) () defs₀ Variants.none Lz lvz 1 where
  win := launch1.win.to₀
  block_pos := launch1.block_pos
  stage_whole := launch1.stage_whole
  K := PEmpty
  osem k := k.elim
  ho := Pipeline.OwnSemFacts.none _
  hbody c := (body_obligation1 (X1 m) c).loose
  hwaits := Pipeline.hwaits_of_owed_zero _ _ _ _ Lz lvz 1 fun _ _ => rfl
  pre c := iprop(StableHlo.held (c : Thread nD τ) (Pipeline.ucRefs τ sig) (Gen.V5 m (outs4 m) c) ∗ Rr c)
  post c := iprop(StableHlo.held (c : Thread nD τ) (Pipeline.ucRefs τ sig) (Gen.V6 m (outs m d3) c) ∗ Rr c)
  X c := iprop(∃ r, prngReg c r)
  Y c := iprop(∃ r, prngReg c r)
  Z c := Pipeline.unscopedRest (Ix := Unit) (Name := ℕ) (U := UR sig nD τ) (Lvl := ℕ) spec1 c (X1 m c)
  hentry c := by
    rw [Pipeline.ownSems0_none]
    have hsplit := Pipeline.arrays_of_unscopedBufs (p := 1) (pcfgs (F := F)) Gen.adm (pdats m d3) launch1.win launch1.arr_whole c
      ((pdats m d3 1 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m d3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m d3) ((pdats m d3 1 c).share_full fun _ => rfl)
      (X1 m c) (fun b => Gen.V6 m (outs m d3) c b) ((pdats m d3 1 c).arrAt · cfg1.N) (hF1 m d3 c) (hrest1 m d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays at its exit are the next boundary's contents: the operands' as the region found them (an input
    window is never written back), the result's at what the write-backs leave. -/
theorem hF2 (c : Dev nD) (w : Fin cfg2.W) : (dat2 (X2 m) c).arrAt w cfg2.N = Gen.V7 m (outs m d3) c (Pipeline.arrRef spec2 w) := by
  match w with
  | ⟨0, _⟩ => exact ((dat2 (X2 m) c).arrAt_in 0 rfl _).trans ((A_eq2 (X2 m) c 0).trans (Gen.V7_of m (outs m d3) c main_v45 (by decide)).symm)
  | ⟨1, _⟩ => exact ((dat2 (X2 m) c).arrAt_in 1 rfl _).trans ((A_eq2 (X2 m) c 1).trans (Gen.V7_of m (outs m d3) c main_arg4 (by decide)).symm)
  | ⟨2, _⟩ =>
    have hself : Gen.V7 m (outs m d3) c (Proc.devRef .tc main_v46) = outs m d3 7 main_v46 c := Function.update_self _ _ _
    have hread : W7 m c (Proc.devRef .tc main_v46) = (dat2 (X2 m) c).arrAt 2 cfg2.N := by
      unfold W7; exact Pipeline.withArrays_arr spec2 launch2.win.arr_inj c _ _ 2
    exact hread.symm.trans ((outs_at7 m d3 main_v46 c).symm.trans hself.symm)

/-- Every other buffer is as the region found it. -/
theorem hrest2 (c : Dev nD) : ∀ b, b ∉ Finset.univ.image (Pipeline.arrRef spec2) → Gen.V7 m (outs m d3) c b = Gen.V6 m (outs6 m) c b :=
  fun b hb => Gen.V7_of m (outs m d3) c b (by
    simp only [List.mem_singleton]; rintro rfl
    exact hb (Finset.mem_image.mpr ⟨2, Finset.mem_univ _, rfl⟩))

set_option backward.isDefEq.respectTransparency.types false in
/-- Region 2 between two boundaries' contents of the core's unscoped buffers: at its entry its three arrays are split
    out of those buffers and at its exit put back at what the pipeline leaves; the generator register goes into the
    invariant and comes out; the core owes nothing; the kernel has no semaphore of its own. -/
def reg2 : RegionSeg (pcfgs (F := F)) Gen.adm (pdats m d3) () defs₀ Variants.none Lz lvz 2 where
  win := launch2.win.to₀
  block_pos := launch2.block_pos
  stage_whole := launch2.stage_whole
  K := PEmpty
  osem k := k.elim
  ho := Pipeline.OwnSemFacts.none _
  hbody c := (body_obligation2 (X2 m) c).loose
  hwaits := Pipeline.hwaits_of_owed_zero _ _ _ _ Lz lvz 2 fun _ _ => rfl
  pre c := iprop(StableHlo.held (c : Thread nD τ) (Pipeline.ucRefs τ sig) (Gen.V6 m (outs6 m) c) ∗ Rr c)
  post c := iprop(StableHlo.held (c : Thread nD τ) (Pipeline.ucRefs τ sig) (Gen.V7 m (outs m d3) c) ∗ Rr c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none]
    have hsplit := Pipeline.arrays_of_unscopedBufs (p := 2) (pcfgs (F := F)) Gen.adm (pdats m d3) launch2.win launch2.arr_whole c
      ((pdats m d3 2 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m d3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m d3) ((pdats m d3 2 c).share_full fun _ => rfl)
      (X2 m c) (fun b => Gen.V7 m (outs m d3) c b) ((pdats m d3 2 c).arrAt · cfg2.N) (hF2 m d3 c) (hrest2 m d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WordStagedResults.lean ====
/-
  The families of region results built one region at a time agree with the final family wherever a boundary reads them.
  A boundary's contents depend on the family only through the results of the regions before it: the contents after the
  fourth item through region 0's, after the fifth through regions 0 and 1's, after the seventh through regions 0, 1
  and 2's. So each region's entry contents, stated when only the earlier regions' results were known, are the final
  family's contents at that boundary.
-/
import proofs.«115260_j9131100472028_1_alg».proof.Proof.WordBoundaries

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

theorem outs6_at4 (r : Ref sig .tc) (c : Dev nD) : outs6 m 4 r c = W4 m c (Proc.devRef .tc r) := by
  unfold outs6 outs4
  rw [if_neg (by decide)]
theorem outs6_at6 (r : Ref sig .tc) (c : Dev nD) : outs6 m 6 r c = W6 m c (Proc.devRef .tc r) := by
  unfold outs6
  rw [if_pos rfl]
theorem outs7_at4 (r : Ref sig .tc) (c : Dev nD) : outs7 m 4 r c = W4 m c (Proc.devRef .tc r) := by
  unfold outs7 outs6 outs4
  rw [if_neg (by decide), if_neg (by decide)]
theorem outs7_at6 (r : Ref sig .tc) (c : Dev nD) : outs7 m 6 r c = W6 m c (Proc.devRef .tc r) := by
  unfold outs7 outs6
  rw [if_neg (by decide), if_pos rfl]
theorem outs7_at7 (r : Ref sig .tc) (c : Dev nD) : outs7 m 7 r c = W7 m c (Proc.devRef .tc r) := by
  unfold outs7
  rw [if_pos rfl]

/-- The buffers after the fourth item depend on the family of results only through the first region's. -/
theorem V5_congr (o o' : Gen.Outs (F := F)) (c : Dev nD) (h4 : o 4 main_v30 c = o' 4 main_v30 c) :
    Gen.V5 m o c = Gen.V5 m o' c := by
  show StableHlo.after hostOps1 (Function.update (Gen.V3 m c) (Proc.devRef .tc main_v30) (o 4 main_v30 c)) = _
  rw [h4]

/-- After the fifth, through the first two regions'. -/
theorem V6_congr (o o' : Gen.Outs (F := F)) (c : Dev nD) (h4 : o 4 main_v30 c = o' 4 main_v30 c)
    (h6 : o 6 main_v45 c = o' 6 main_v45 c) : Gen.V6 m o c = Gen.V6 m o' c := by
  show Function.update (Gen.V5 m o c) (Proc.devRef .tc main_v45) (o 6 main_v45 c) = _
  rw [V5_congr m o o' c h4, h6]

/-- After the seventh, through the first three regions'. -/
theorem V8_congr (o o' : Gen.Outs (F := F)) (c : Dev nD) (h4 : o 4 main_v30 c = o' 4 main_v30 c)
    (h6 : o 6 main_v45 c = o' 6 main_v45 c) (h7 : o 7 main_v46 c = o' 7 main_v46 c) :
    Gen.V8 m o c = Gen.V8 m o' c := by
  show StableHlo.after hostOps3 (Function.update (Gen.V6 m o c) (Proc.devRef .tc main_v46) (o 7 main_v46 c)) = _
  rw [V6_congr m o o' c h4 h6, h7]

variable (d3 : (c : Dev nD) → Dat τ (Elt F) Unit ℕ (UR sig nD τ) ℕ cfg3 c)

/-- The contents the second region is entered with, at the final family. -/
theorem V5_staged (c : Dev nD) : Gen.V5 m (outs4 m) c = Gen.V5 m (outs m d3) c :=
  V5_congr m (outs4 m) (outs m d3) c (outs_at4 m d3 main_v30 c).symm

/-- The contents the third region is entered with. -/
theorem V6_staged (c : Dev nD) : Gen.V6 m (outs6 m) c = Gen.V6 m (outs m d3) c :=
  V6_congr m (outs6 m) (outs m d3) c
    ((outs6_at4 m main_v30 c).trans (outs_at4 m d3 main_v30 c).symm)
    ((outs6_at6 m main_v45 c).trans (outs_at6 m d3 main_v45 c).symm)

/-- The contents the fourth region is entered with. -/
theorem V8_staged (c : Dev nD) : Gen.V8 m (outs7 m) c = Gen.V8 m (outs m d3) c :=
  V8_congr m (outs7 m) (outs m d3) c
    ((outs7_at4 m main_v30 c).trans (outs_at4 m d3 main_v30 c).symm)
    ((outs7_at6 m main_v45 c).trans (outs_at6 m d3 main_v45 c).symm)
    ((outs7_at7 m main_v46 c).trans (outs_at7 m d3 main_v46 c).symm)

theorem X1_eq (c : Dev nD) (b : Ref sig .tc) : X1 m c b = Gen.V5 m (outs m d3) c b :=
  congrFun (V5_staged m d3 c) (Proc.devRef .tc b)
theorem X2_eq (c : Dev nD) (b : Ref sig .tc) : X2 m c b = Gen.V6 m (outs m d3) c b :=
  congrFun (V6_staged m d3 c) (Proc.devRef .tc b)
theorem X3_eq (c : Dev nD) (b : Ref sig .tc) : X3 m c b = Gen.V8 m (outs m d3) c b :=
  congrFun (V8_staged m d3 c) (Proc.devRef .tc b)

end Cert.Kernel.Hand

end
-- ==== Proof.WordMeanRegion.lean ====
import proofs.«115260_j9131100472028_1_alg».proof.Proof.Gen.Kernel.Launch
import proofs.«115260_j9131100472028_1_alg».proof.Proof.Gen.Kernel.Skeleton
import proofs.«115260_j9131100472028_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The mean region: the kernel half of its frame

The fourth kernel averages the rows of its input over the ten grid points. Its one scratch buffer, a [1,6]
accumulator, is cleared at the first point, receives at every point the column sums of that point's [10000,6] block,
and at the last point is scaled and biased into the [1,6] output block; at every other point the output block is left
alone. Three control cases: the first point, a middle point, the last point. -/

/-! ## The two conditionals of the body -/

/-- The first conditional of the body, over the grid coordinates: "this is point 0". -/
abbrev isFirst (i : grid3.Coords) : Prop :=
  (Scalar.cmpi .ne (Scalar.extui (Scalar.cmpi .eq (BitVec.ofNat 32 (i 0).val) 0#32)) 0#32) = 1#1
/-- The second conditional: "this is point 9". -/
abbrev isLast (i : grid3.Coords) : Prop := k3_cond2 i = 1#1

/-- Over the ten points the first conditional holds exactly at position 0, -/
theorem isFirst_iff : ∀ t : Fin cfg3.N, isFirst (grid3.coords t) ↔ t.val = 0 :=
  (by decide +kernel : ∀ t : Fin grid3.N, isFirst (grid3.coords t) ↔ t.val = 0)
/-- and the second exactly at position 9. -/
theorem isLast_iff : ∀ t : Fin cfg3.N, isLast (grid3.coords t) ↔ t.val = 9 :=
  (by decide +kernel : ∀ t : Fin grid3.N, isLast (grid3.coords t) ↔ t.val = 9)

/-! ## Where the windows are idle -/

/-- The two input windows are never idle. -/
theorem live3_0 : ∀ t : Fin cfg3.N, cfg3.idle 0 (grid3.coords t) = false := by decide +kernel
theorem live3_1 : ∀ t : Fin cfg3.N, cfg3.idle 1 (grid3.coords t) = false := by decide +kernel
/-- Off the last point the output window is idle -/
theorem idle3_2 : ∀ t : Fin cfg3.N, ¬isLast (grid3.coords t) → cfg3.idle 2 (grid3.coords t) = true := by decide +kernel
/-- and is not written back; -/
theorem noFlush3_2 : ∀ t : Fin cfg3.N, ¬isLast (grid3.coords t) → (cfg3.win 2).flush t = false := by decide +kernel
/-- at the last point it is live. -/
theorem live3_2 : ∀ t : Fin cfg3.N, isLast (grid3.coords t) → cfg3.idle 2 (grid3.coords t) = false := by decide +kernel

/-! ## Whole-buffer loads and stores

Every access of the body goes through the rectangle at offset zero that spans its buffer: a load through it reads the
contents, a store through it leaves its payload. -/

/-- The zero offsets, however spelt. -/
theorem zeros2 : (![0, 0] : Fin 2 → Nat) = fun _ => 0 := funext fun a => by fin_cases a <;> rfl

/-- The accumulator as a memref: the kernel's own whole VMEM buffer. -/
abbrev accM : Memref sig .tc .vmem S1x6 .f32 := Memref.whole cc3_scratch0

/-! ## The body's triple, case by case -/

set_option maxHeartbeats 1000000 in
/-- A MIDDLE point (neither conditional holds): the accumulator, found at xs, is left at xs plus the column sums of
    the input block x0; the bias and the output block are untouched. -/
theorem runMid (c : Dev nD) (i : grid3.Coords)
    (arg1 : Memref sig .tc .vmem S10000x6 .f32) (harg1 : arg1.IsWhole)
    (arg2 : Memref sig .tc .vmem S1x6 .f32) (harg2 : arg2.IsWhole)
    (arg3 : Memref sig .tc .vmem S1x6 .f32) (harg3 : arg3.IsWhole)
    (arg4 : Memref sig .tc .vmem S1x6 .f32) (harg4 : arg4.IsWhole)
    (hc0 : ¬isFirst i) (hc1 : ¬isLast i)
    (x0 : Vec F S10000x6 .f32) (x1 : Vec F S1x6 .f32) (x2 : Vec F S1x6 .f32) (xs : Vec F S1x6 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare x2
            ∗ owns (c : Thread nD τ) arg4 fullShare (k3_pay2 xs x0)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons.mpr (Or.inl rfl),
    View.mem_set_unit_zero (S := S1x6) zeros2 inb_S1x6_S1x6_0_0 y⟩)).trans ?_
  refine (View.canon_cons_unit_zero (S := S1x6) zeros2 inb_S1x6_S1x6_0_0 _ _).trans ?_
  exact congrArg₂ (k3_pay2 (F := F))
      (View.ld_unit_zero (S := S1x6) zeros2 inb_S1x6_S1x6_0_0 (View.read (Elt F) arg4.view fs))
      (View.ld_unit_zero (S := S10000x6) zeros2 inb_S10000x6_S10000x6_0_0 (View.read (Elt F) arg1.view f0))

set_option maxHeartbeats 1000000 in
/-- The FIRST point (the first conditional holds, the second does not): the accumulator, found at anything, is cleared
    and then left at the column sums of the input block x0 added to the cleared value. -/
theorem runFirst (c : Dev nD) (i : grid3.Coords)
    (arg1 : Memref sig .tc .vmem S10000x6 .f32) (harg1 : arg1.IsWhole)
    (arg2 : Memref sig .tc .vmem S1x6 .f32) (harg2 : arg2.IsWhole)
    (arg3 : Memref sig .tc .vmem S1x6 .f32) (harg3 : arg3.IsWhole)
    (arg4 : Memref sig .tc .vmem S1x6 .f32) (harg4 : arg4.IsWhole)
    (hc0 : isFirst i) (hc1 : ¬isLast i)
    (x0 : Vec F S10000x6 .f32) (x1 : Vec F S1x6 .f32) (x2 : Vec F S1x6 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k3_pay2 (k3_pay1 (F := F)) x0)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons.mpr (Or.inl rfl),
    View.mem_set_unit_zero (S := S1x6) zeros2 inb_S1x6_S1x6_0_0 y⟩)).trans ?_
  refine (View.canon_cons_unit_zero (S := S1x6) zeros2 inb_S1x6_S1x6_0_0 _ _).trans ?_
  sl_unfold_run_names
  exact congrArg₂ (k3_pay2 (F := F))
      (View.readCov_unit_zero (Val := Elt F) arg4.view zeros2 inb_S1x6_S1x6_0_0 (k3_pay1 (F := F)))
      (View.ld_unit_zero (S := S10000x6) zeros2 inb_S10000x6_S10000x6_0_0 (View.read (Elt F) arg1.view f0))

set_option maxHeartbeats 1000000 in
/-- The LAST point (the second conditional holds, the first does not): the accumulator, found at xs, is left at
    xs plus the column sums of x0, and the output block, found at anything, at that value scaled and biased by x1. -/
theorem runLast (c : Dev nD) (i : grid3.Coords)
    (arg1 : Memref sig .tc .vmem S10000x6 .f32) (harg1 : arg1.IsWhole)
    (arg2 : Memref sig .tc .vmem S1x6 .f32) (harg2 : arg2.IsWhole)
    (arg3 : Memref sig .tc .vmem S1x6 .f32) (harg3 : arg3.IsWhole)
    (arg4 : Memref sig .tc .vmem S1x6 .f32) (harg4 : arg4.IsWhole)
    (hc0 : ¬isFirst i) (hc1 : isLast i)
    (x0 : Vec F S10000x6 .f32) (x1 : Vec F S1x6 .f32) (xs : Vec F S1x6 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k3_pay3 (k3_pay2 xs x0) x1)
            ∗ owns (c : Thread nD τ) arg4 fullShare (k3_pay2 xs x0)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  have hacc : View.read (Elt F) arg4.view (arg4.view.writes (Elt F) fs
      [⟨Rect.unit ![0, 0] S1x6.size inb_S1x6_S1x6_0_0,
        k3_pay2 (View.readAt (Elt F) arg4.view (Rect.unit ![0, 0] S1x6.size inb_S1x6_S1x6_0_0).toLoadRect fs)
          (View.readAt (Elt F) arg1.view (Rect.unit ![0, 0] S10000x6.size inb_S10000x6_S10000x6_0_0).toLoadRect f0)⟩])
      = k3_pay2 (View.read (Elt F) arg4.view fs) (View.read (Elt F) arg1.view f0) := by
    refine (View.read_writes_eq_canon _ _ _ (fun y => ⟨_, List.mem_cons.mpr (Or.inl rfl),
      View.mem_set_unit_zero (S := S1x6) zeros2 inb_S1x6_S1x6_0_0 y⟩)).trans ?_
    refine (View.canon_cons_unit_zero (S := S1x6) zeros2 inb_S1x6_S1x6_0_0 _ _).trans ?_
    exact congrArg₂ (k3_pay2 (F := F))
      (View.ld_unit_zero (S := S1x6) zeros2 inb_S1x6_S1x6_0_0 (View.read (Elt F) arg4.view fs))
      (View.ld_unit_zero (S := S10000x6) zeros2 inb_S10000x6_S10000x6_0_0 (View.read (Elt F) arg1.view f0))
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons.mpr (Or.inl rfl),
      View.mem_set_unit_zero (S := S1x6) zeros2 inb_S1x6_S1x6_0_0 y⟩)).trans ?_
    refine (View.canon_cons_unit_zero (S := S1x6) zeros2 inb_S1x6_S1x6_0_0 _ _).trans ?_
    exact congrArg₂ (k3_pay3 (F := F))
        ((View.readCov_unit_zero (Val := Elt F) arg4.view zeros2 inb_S1x6_S1x6_0_0 _).trans
          (congrArg₂ (k3_pay2 (F := F))
            (View.ld_unit_zero (S := S1x6) zeros2 inb_S1x6_S1x6_0_0 (View.read (Elt F) arg4.view fs))
            (View.ld_unit_zero (S := S10000x6) zeros2 inb_S10000x6_S10000x6_0_0 (View.read (Elt F) arg1.view f0))))
        (View.ld_unit_zero (S := S1x6) zeros2 inb_S1x6_S1x6_0_0 (View.read (Elt F) arg2.view f1))
  iexists _; isplitr
  swap; · iexact HS
  ipureintro
  exact hacc

section Region
-- the TensorCore's buffer contents when the region is entered: everything below is stated at this parameter
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the accumulator holds after each point -/

/-- The accumulator after the body at position n: the cleared value plus the column sums of block 0 after the first
    point, and from then on what the point before left plus the column sums of this point's block. -/
def acc3 (c : Dev nD) : (n : ℕ) → n < cfg3.N → Vec F S1x6 .f32
  | 0, h => k3_pay2 (k3_pay1 (F := F)) (iblk3 V c 0 ⟨0, h⟩)
  | n + 1, h => k3_pay2 (acc3 c n (Nat.lt_of_succ_lt h)) (iblk3 V c 0 ⟨n + 1, h⟩)

theorem acc3_zero (c : Dev nD) (h : 0 < cfg3.N) :
    acc3 V c 0 h = k3_pay2 (k3_pay1 (F := F)) (iblk3 V c 0 ⟨0, h⟩) := rfl

theorem acc3_succ (c : Dev nD) (n : ℕ) (h : n + 1 < cfg3.N) :
    acc3 V c (n + 1) h = k3_pay2 (acc3 V c n (Nat.lt_of_succ_lt h)) (iblk3 V c 0 ⟨n + 1, h⟩) := rfl

/-- The same at a point of the grid: the first, -/
theorem acc3_first (c : Dev nD) (t : Fin cfg3.N) (h0 : t.val = 0) :
    acc3 V c t.val t.isLt = k3_pay2 (k3_pay1 (F := F)) (iblk3 V c 0 t) := by
  obtain ⟨n, hn⟩ := t
  cases n with
  | zero => rfl
  | succ n => exact absurd h0 (Nat.succ_ne_zero n)

/-- a later one. -/
theorem acc3_later (c : Dev nD) (t : Fin cfg3.N) (h0 : t.val ≠ 0) :
    acc3 V c t.val t.isLt
      = k3_pay2 (acc3 V c (t.val - 1) (Nat.lt_of_le_of_lt (Nat.sub_le _ _) t.isLt)) (iblk3 V c 0 t) := by
  obtain ⟨n, hn⟩ := t
  cases n with
  | zero => exact absurd rfl h0
  | succ n => rfl

/-! ## The invariant: the class's, with the accumulator's contents named once the first point has run -/

/-- The scoped buffers that are neither a staging buffer of this region nor the accumulator, at some contents each. -/
abbrev otherScoped (c : Dev nD) : sProp 𝕄 :=
  Pipeline.scopedRestBut (Ix := Unit) (Name := ℕ) (U := UR sig nD τ) (Lvl := ℕ) (Val := Elt F) spec3 c [cc3_scratch0]

/-- The class invariant with the accumulator split off as a memref owned at some contents. -/
theorem PhiA3_eq (c : Dev nD) :
    (Pipeline.ΦA spec3 c : sProp 𝕄)
      = iprop(((∃ d, owns (c : Thread nD τ) accM fullShare d) ∗ otherScoped (F := F) c) ∗ (∃ r, prngReg c r)) := by
  unfold Pipeline.ΦA otherScoped
  rw [Pipeline.scopedRest_split_of_list spec3 c [cc3_scratch0] (by decide) (by decide)]
  simp only [accM, owns_whole, bigSepL_singleton]; try rfl

/-- The invariant before position n: before the first point the class's; afterwards the same with the accumulator at
    what the point before left in it. -/
def PhiS (c : Dev nD) : (n : ℕ) → n ≤ cfg3.N → sProp 𝕄
  | 0, _ => Pipeline.ΦA spec3 c
  | n + 1, hn => iprop((owns (c : Thread nD τ) accM fullShare (acc3 V c n hn) ∗ otherScoped (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop((owns (c : Thread nD τ) accM fullShare (acc3 V c n hn) ∗ otherScoped (F := F) c) ∗ (∃ r, prngReg c r)) := rfl

theorem PhiS_pos (c : Dev nD) (n : ℕ) (h : n ≤ cfg3.N) (hz : n ≠ 0) :
    PhiS V c n h = iprop((owns (c : Thread nD τ) accM fullShare (acc3 V c (n - 1) (by omega)) ∗ otherScoped (F := F) c) ∗ (∃ r, prngReg c r)) := by
  cases n with
  | zero => exact absurd rfl hz
  | succ n => rfl

/-! ## The proof data -/

/-- The proof data of the mean pipeline on core c: the arrays as the region finds them; after the body at point t
    each input's buffer at its block and the output's at the scaled, biased accumulator of that point (consulted at the
    last point only: elsewhere the window is idle and not written back); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt) (iblk3 V c 1 t)
  Φ t := PhiS V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS_castSucc (c : Dev nD) (t : Fin cfg3.N) :
    (dat3 V c).Φ t.castSucc = PhiS V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay3 (acc3 V c t.val t.isLt) (iblk3 V c 1 t) := by dsimp only [dat3]

/-- Each input's current staging buffer holds its block at every point, fetched there or not (an unfetched window's
    block index has not moved). -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-! ## The body obligation, at a generic point -/

/-- Each window's current staging memref at point t, spelled as the pipeline passes it, and its wholeness. -/
abbrev mem3_0 (t : Fin cfg3.N) : Memref sig .tc .vmem S10000x6 .f32 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S1x6 .f32 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S1x6 .f32 := win3_2.stage (cfg3.slots t 2)
abbrev whole3_2 (t : Fin cfg3.N) : (mem3_2 t).IsWhole := hstage3_2 ((cfg3.slots t 2).cast nbuf3_2)

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (mem3_0 t) fullShare ((dat3 V c).before 0 t d))
    ∗ (∃ d, owns (c : Thread nD τ) (mem3_1 t) fullShare ((dat3 V c).before 1 t d))
    ∗ (∃ d, owns (c : Thread nD τ) (mem3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the position decides the case; the invariant hands the
    body the accumulator at what the point before left (at anything before the first point) and takes it back at this
    point's contents; off the last point the output's buffer is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS V c (t.val + 1) t.isLt from rfl, PhiS_succ]
  rw [show (dat3 V c).leavesExact 0 t = owns (c : Thread nD τ) (mem3_0 t) fullShare ((dat3 V c).after 0 t) from by
    unfold Dat.leavesExact; rw [live3_0 t], after3_0]
  rw [show (dat3 V c).leavesExact 1 t = owns (c : Thread nD τ) (mem3_1 t) fullShare ((dat3 V c).after 1 t) from by
    unfold Dat.leavesExact; rw [live3_1 t], after3_1]
  have hN : t.val < 10 := lt_of_lt_of_eq t.isLt (show cfg3.N = 10 from N_3)
  by_cases h0 : t.val = 0
  · -- the first point
    have h1 : ¬t.val = 9 := by omega
    rw [Dat.leavesExact_idle (dat3 V c) 2 t (idle3_2 t (fun h => h1 ((isLast_iff t).mp h))) (noFlush3_2 t (fun h => h1 ((isLast_iff t).mp h)))]
    rw [acc3_first V c t h0, PhiS_castSucc V c t, PhiS_zero V c _ _ h0, PhiA3_eq]
    iintro ⟨⟨⟨HS, Hrest⟩, Hg⟩, Ho, ⟨%d0, H0⟩, ⟨%d1, H1⟩, ⟨%d2, H2⟩⟩
    iapply (runFirst c (grid3.coords t) _ _ _ _ _ _ _ _ ((isFirst_iff t).mpr h0) (fun h => h1 ((isLast_iff t).mp h))
      (iblk3 V c 0 t) (iblk3 V c 1 t) _ Set.univ _)
    isplitl [H0]; · iexact H0
    isplitl [H1]; · iexact H1
    isplitl [H2]; · iexact H2
    isplitl [HS]; · iexact HS
    iintro ⟨H0, H1, H2, HS⟩
    isplitl [HS Hrest Hg]
    · isplitr [Hg]
      · isplitl [HS]; · iexact HS
        iexact Hrest
      iexact Hg
    isplitl [Ho]; · iexact Ho
    isplitl [H0]; · iexact H0
    isplitl [H1]; · iexact H1
    iexists _; iexact H2
  · by_cases h1 : t.val = 9
    · -- the last point
      rw [show (dat3 V c).leavesExact 2 t = owns (c : Thread nD τ) (mem3_2 t) fullShare ((dat3 V c).after 2 t) from by
        unfold Dat.leavesExact; rw [live3_2 t ((isLast_iff t).mpr h1)], after3_2]
      rw [acc3_later V c t h0, PhiS_castSucc V c t, PhiS_pos V c _ _ h0]
      iintro ⟨⟨⟨HS, Hrest⟩, Hg⟩, Ho, ⟨%d0, H0⟩, ⟨%d1, H1⟩, ⟨%d2, H2⟩⟩
      iapply (runLast c (grid3.coords t) _ _ _ _ _ _ _ _ (fun h => h0 ((isFirst_iff t).mp h)) ((isLast_iff t).mpr h1)
        (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitr [Hg]
        · isplitl [HS]; · iexact HS
          iexact Hrest
        iexact Hg
      isplitl [Ho]; · iexact Ho
      isplitl [H0]; · iexact H0
      isplitl [H1]; · iexact H1
      iexact H2
    · -- a middle point
      rw [Dat.leavesExact_idle (dat3 V c) 2 t (idle3_2 t (fun h => h1 ((isLast_iff t).mp h))) (noFlush3_2 t (fun h => h1 ((isLast_iff t).mp h)))]
      rw [acc3_later V c t h0, PhiS_castSucc V c t, PhiS_pos V c _ _ h0]
      iintro ⟨⟨⟨HS, Hrest⟩, Hg⟩, Ho, ⟨%d0, H0⟩, ⟨%d1, H1⟩, ⟨%d2, H2⟩⟩
      iapply (runMid c (grid3.coords t) _ _ _ _ _ _ _ _ (fun h => h0 ((isFirst_iff t).mp h)) (fun h => h1 ((isLast_iff t).mp h))
        (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitr [Hg]
        · isplitl [HS]; · iexact HS
          iexact Hrest
        iexact Hg
      isplitl [Ho]; · iexact Ho
      isplitl [H0]; · iexact H0
      isplitl [H1]; · iexact H1
      iexists _; iexact H2

/-- The body's obligation to the pipeline, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS, Hrest⟩, Hg⟩
  isplitr [Hg]
  · isplitl [HS]; · iexists _; iexact HS
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

/-! ## What a value proof reads -/

/-- The output block the last point writes back: the accumulator after all ten points, scaled, plus the bias block. -/
theorem after3_2_last (c : Dev nD) (t : Fin cfg3.N) (h9 : t.val = 9) :
    (dat3 V c).after 2 t = k3_pay3 (acc3 V c 9 (by have : cfg3.N = 10 := N_3; omega)) (iblk3 V c 1 t) := by
  obtain ⟨n, hn⟩ := t
  have h9' : n = 9 := h9
  subst h9'
  exact after3_2 V c _

end Region

end Cert.Kernel.Hand

end
-- ==== Proof.WordWholeRun.lean ====
/-
  The whole run of @main: the fourth region as a segment, the ten segments chained from the launch to the return, and
  what every final memory holds.
  Between two segments the core holds every unscoped buffer at the boundary's contents, its generator register at
  some state, and owes nothing. At the end every unscoped buffer — the six argument arrays and the result among them —
  holds the last boundary's contents: the launch contents pushed through the six host stretches with each region's
  result array at what its pipeline's write-backs leave. No stretch and no region writes an argument array.
-/
import proofs.«115260_j9131100472028_1_alg».proof.Proof.WordStagedResults
import proofs.«115260_j9131100472028_1_alg».proof.Proof.WordMeanRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fourth region's proof data, at the contents it is entered with. -/
abbrev D3 (c : Dev nD) : Dat τ (Elt F) Unit ℕ (UR sig nD τ) ℕ cfg3 c := dat3 (X3 m) c
/-- What the four regions leave, with the fourth region's proof data in place. -/
abbrev outsAll : Gen.Outs (F := F) := outs m (D3 m)
/-- The proof data family of the whole program. -/
abbrev pdatsAll : (p : Fin 4) → (c : Dev nD) → Dat τ (Elt F) Unit ℕ (UR sig nD τ) ℕ (cfgs p) c := pdats m (D3 m)

/-! ## The fourth region as a segment -/

theorem hF3 (c : Dev nD) (w : Fin cfg3.W) : (D3 m c).arrAt w cfg3.N = Gen.V9 m (outsAll m) c (Pipeline.arrRef spec3 w) := by
  match w with
  | ⟨0, _⟩ => exact ((D3 m c).arrAt_in 0 rfl _).trans ((A_eq3 (X3 m) c 0).trans ((X3_eq m (D3 m) c main_v59).trans (Gen.V9_of m (outsAll m) c main_v59 (by decide)).symm))
  | ⟨1, _⟩ => exact ((D3 m c).arrAt_in 1 rfl _).trans ((A_eq3 (X3 m) c 1).trans ((X3_eq m (D3 m) c main_v60).trans (Gen.V9_of m (outsAll m) c main_v60 (by decide)).symm))
  | ⟨2, _⟩ =>
    have hself : Gen.V9 m (outsAll m) c (Proc.devRef .tc main_v61) = outsAll m 9 main_v61 c := Function.update_self _ _ _
    have hread : W9 m (D3 m) c (Proc.devRef .tc main_v61) = (D3 m c).arrAt 2 cfg3.N := by
      unfold W9; exact Pipeline.withArrays_arr spec3 launch3.win.arr_inj c _ _ 2
    exact hread.symm.trans ((outs_at9 m (D3 m) main_v61 c).symm.trans hself.symm)

theorem hrest3 (c : Dev nD) : ∀ b, b ∉ Finset.univ.image (Pipeline.arrRef spec3) → Gen.V9 m (outsAll m) c b = Gen.V8 m (outs7 m) c b :=
  fun b hb => (Gen.V9_of m (outsAll m) c b (by
    simp only [List.mem_singleton]; rintro rfl
    exact hb (Finset.mem_image.mpr ⟨2, Finset.mem_univ _, rfl⟩))).trans (X3_eq m (D3 m) c b).symm

set_option backward.isDefEq.respectTransparency.types false in
/-- Region 3 between two boundaries' contents: as the first three, except that its invariant also names the carried
    scratch's contents after every point; before the first point and after the last that invariant is the plain one. -/
def reg3 : RegionSeg (pcfgs (F := F)) Gen.adm (pdatsAll m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (X3 m) c).loose
  hwaits := Pipeline.hwaits_of_owed_zero _ _ _ _ Lz lvz 3 fun _ _ => rfl
  pre c := iprop(StableHlo.held (c : Thread nD τ) (Pipeline.ucRefs τ sig) (Gen.V8 m (outs7 m) c) ∗ Rr c)
  post c := iprop(StableHlo.held (c : Thread nD τ) (Pipeline.ucRefs τ sig) (Gen.V9 m (outsAll m) c) ∗ Rr c)
  X c := iprop(∃ r, prngReg c r)
  Y c := iprop(∃ r, prngReg c r)
  Z c := Pipeline.unscopedRest (Ix := Unit) (Name := ℕ) (U := UR sig nD τ) (Lvl := ℕ) spec3 c (X3 m c)
  hentry c := by
    rw [Pipeline.ownSems0_none]
    have hsplit := Pipeline.arrays_of_unscopedBufs (p := 3) (pcfgs (F := F)) Gen.adm (pdatsAll m) launch3.win launch3.arr_whole c
      ((pdatsAll m 3 c).share_full fun _ => rfl) (X3 m c) fun w => A_eq3 (X3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (X3 m) c)
    unfold Pipeline.ΦA
    iintro ⟨Hp, -, Hr⟩
    isplitl [Hr]; · iexact Hr
    iexact Hp
  hout c := by
    refine (hout3 (X3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdatsAll m) ((pdatsAll m 3 c).share_full fun _ => rfl)
      (X3 m c) (fun b => Gen.V9 m (outsAll m) c b) ((pdatsAll m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its ten segments, and the launch -/

/-- The rest that rides beside the buffers through every host stretch. -/
abbrev Erest : Fin 5 → Dev nD → sProp 𝕄 := fun _ c => Rr c

/-- An unscoped buffer of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates, nothing faulting, and in every
    final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V10 m (outsAll m) c b) := by
  refine Pipeline.θ_run_regions_kit_dev (pcfgs (F := F)) Gen.adm (pdatsAll m) () cellOf_inj emb₁ defs₀ Variants.none Lz lvz m ρ main
    (Gen.segs m (outsAll m) Variants.none Lz lvz (Erest (F := F)) () (pdatsAll m) (reg0 m (D3 m)) (reg1 m (D3 m)) (reg2 m (D3 m)) (reg3 m))
    (fun c Q => by
      rewrite [main_chain c, Seg.run_eq_chain,
        show (Gen.segs m (outsAll m) Variants.none Lz lvz (Erest (F := F)) () (pdatsAll m) (reg0 m (D3 m)) (reg1 m (D3 m)) (reg2 m (D3 m)) (reg3 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (Gen.V10 m (outsAll m) c) ∗ ∃ r, prngReg c r))
    (hch := fun c => ⟨.rfl, .rfl, .rfl, .rfl, .rfl,
      -- region 1 is entered with the contents stated when only region 0's result was known: the same contents
      (by
        show iprop(StableHlo.held (c : Thread nD τ) (Pipeline.ucRefs τ sig) (Gen.V5 m (outsAll m) c) ∗ Rr c)
          ⊢ iprop(StableHlo.held (c : Thread nD τ) (Pipeline.ucRefs τ sig) (Gen.V5 m (outs4 m) c) ∗ Rr c)
        rw [V5_staged m (D3 m) c]),
      (by
        show iprop(StableHlo.held (c : Thread nD τ) (Pipeline.ucRefs τ sig) (Gen.V6 m (outsAll m) c) ∗ Rr c)
          ⊢ iprop(StableHlo.held (c : Thread nD τ) (Pipeline.ucRefs τ sig) (Gen.V6 m (outs6 m) c) ∗ Rr c)
        rw [V6_staged m (D3 m) c]),
      .rfl,
      (by
        show iprop(StableHlo.held (c : Thread nD τ) (Pipeline.ucRefs τ sig) (Gen.V8 m (outsAll m) c) ∗ Rr c)
          ⊢ iprop(StableHlo.held (c : Thread nD τ) (Pipeline.ucRefs τ sig) (Gen.V8 m (outs7 m) c) ∗ Rr c)
        rw [V8_staged m (D3 m) c]),
      .rfl,
      -- at the end the generator register stays with the buffers and the dues stand apart
      (show iprop(StableHlo.held (c : Thread nD τ) (Pipeline.ucRefs τ sig) (Gen.V10 m (outsAll m) c) ∗ Rr c)
          ⊢ iprop((StableHlo.held (c : Thread nD τ) (Pipeline.ucRefs τ sig) (Gen.V10 m (outsAll m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V10 m (outsAll m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V10 m (outsAll m) c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V10_main_arg0 m (outsAll m) c),
     (h c _ (mem_uc main_arg1 (by decide))).trans (Gen.V10_main_arg1 m (outsAll m) c),
     (h c _ (mem_uc main_arg2 (by decide))).trans (Gen.V10_main_arg2 m (outsAll m) c),
     (h c _ (mem_uc main_arg3 (by decide))).trans (Gen.V10_main_arg3 m (outsAll m) c),
     (h c _ (mem_uc main_arg4 (by decide))).trans (Gen.V10_main_arg4 m (outsAll m) c),
     (h c _ (mem_uc main_arg5 (by decide))).trans (Gen.V10_main_arg5 m (outsAll m) c)⟩) (run_all m ρ)

end Cert.Kernel.Hand

end
-- ==== Proof.ProjectRegion.lean ====
/-
  Region 0: the first dense layer, `h = x · W1`, ten blocks of 10000 rows.
  Each grid point loads a block of 10000 rows of `x` and the whole of `W1`, multiplies them into a zero accumulator and stores the 10000 × 64 product.
  Stated at the contents `V` the region finds in the core's buffers: the blocks the two input windows show the body at
  a grid point, what the body's one store leaves in the output window's buffer as a function of those two blocks, the
  body's specification, and the data the pipeline's correctness theorem asks for (each window's buffer after every
  point; the invariant between points, here only the buffers and registers the body never names).
-/
import proofs.«115260_j9131100472028_1_alg».proof.Proof.Gen.KernelIdeal.Launch
import proofs.«115260_j9131100472028_1_alg».proof.Proof.Gen.KernelIdeal.Skeleton
import proofs.«115260_j9131100472028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `10000 t … 10000 t + 9999` of its array (all of it, for the
    window whose index does not move), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds the point's block when the body starts, for any proof data over `V`'s array
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's window is fetched at the first point only; its index never moves, so its buffer holds the
    same block — the whole array — at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each operand's buffer read whole, the result's buffer written whole -/

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x64 := Rect.unit (s := S10000x64) ![0, 0] S10000x64.size inb_S10000x64_S10000x64_0_0

/-- What the result window's buffer holds after the body, from the two operand blocks: one store, of the body's
    value of the two loads, over the whole buffer. -/
def out0_2 (x0 : Vec F S10000x64 .f32) (x1 : Vec F S64x64 .f32) : Vec F S10000x64 .f32 :=
  View.canon [⟨r0_2, k0_pay1 (View.ld x0 r0_0) (View.ld x1 r0_1)⟩]

/-- The one store covers the buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's specification -/

set_option maxHeartbeats 1000000 in
/-- On whole buffers, the operands' at contents `x0`, `x1` and the result's at anything, the body runs to its end
    leaving the operands' buffers as they were and the result's at `out0_2 x0 x1`. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each operand's buffer still at its block and the
    result's at `out0_2` of the two blocks; between points only what the body never names; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the pipeline calls the body with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the operands' buffers hold their blocks, so the body's specification applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.BiasReluRegion.lean ====
/-
  Region 1: the first layer's bias and rectifier, `h1 = max(msg + b1, 0)`, ten blocks of 10000 rows.
  Each grid point loads a block of 10000 rows of the aggregated messages and the bias as a 1 × 64 row, adds the row to every row of the block, takes the maximum with zero and stores the 10000 × 64 result.
  Stated at the contents `V` the region finds in the core's buffers: the blocks the two input windows show the body at
  a grid point, what the body's one store leaves in the output window's buffer as a function of those two blocks, the
  body's specification, and the data the pipeline's correctness theorem asks for (each window's buffer after every
  point; the invariant between points, here only the buffers and registers the body never names).
-/
import proofs.«115260_j9131100472028_1_alg».proof.Proof.Gen.KernelIdeal.Launch
import proofs.«115260_j9131100472028_1_alg».proof.Proof.Gen.KernelIdeal.Skeleton
import proofs.«115260_j9131100472028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `10000 t … 10000 t + 9999` of its array (all of it, for the
    window whose index does not move), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's buffer holds the point's block when the body starts, for any proof data over `V`'s array
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's window is fetched at the first point only; its index never moves, so its buffer holds the
    same block — the whole array — at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each operand's buffer read whole, the result's buffer written whole -/

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S10000x64 := Rect.unit (s := S10000x64) ![0, 0] S10000x64.size inb_S10000x64_S10000x64_0_0

/-- What the result window's buffer holds after the body, from the two operand blocks: one store, of the body's
    value of the two loads, over the whole buffer. -/
def out1_2 (x0 : Vec F S10000x64 .f32) (x1 : Vec F S1x64 .f32) : Vec F S10000x64 .f32 :=
  View.canon [⟨r1_2, k1_pay1 (View.ld x0 r1_0) (View.ld x1 r1_1)⟩]

/-- The one store covers the buffer. -/
theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

/-! ## The body's specification -/

set_option maxHeartbeats 1000000 in
/-- On whole buffers, the operands' at contents `x0`, `x1` and the result's at anything, the body runs to its end
    leaving the operands' buffers as they were and the result's at `out1_2 x0 x1`. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` each operand's buffer still at its block and the
    result's at `out1_2` of the two blocks; between points only what the body never names; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the pipeline calls the body with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the operands' buffers hold their blocks, so the body's specification applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.ClassifyRegion.lean ====
/-
  Region 2: the second dense layer, `h2 = h1 · W2`, ten blocks of 10000 rows.
  Each grid point loads a block of 10000 rows of `h1` and the whole of `W2`, multiplies them into a zero accumulator and stores the 10000 × 6 product.
  Stated at the contents `V` the region finds in the core's buffers: the blocks the two input windows show the body at
  a grid point, what the body's one store leaves in the output window's buffer as a function of those two blocks, the
  body's specification, and the data the pipeline's correctness theorem asks for (each window's buffer after every
  point; the invariant between points, here only the buffers and registers the body never names).
-/
import proofs.«115260_j9131100472028_1_alg».proof.Proof.Gen.KernelIdeal.Launch
import proofs.«115260_j9131100472028_1_alg».proof.Proof.Gen.KernelIdeal.Skeleton
import proofs.«115260_j9131100472028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `10000 t … 10000 t + 9999` of its array (all of it, for the
    window whose index does not move), read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's buffer holds the point's block when the body starts, for any proof data over `V`'s array
    whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second operand's window is fetched at the first point only; its index never moves, so its buffer holds the
    same block — the whole array — at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each operand's buffer read whole, the result's buffer written whole -/

abbrev r2_0 : Rect S10000x64 := Rect.unit (s := S10000x64) ![0, 0] S10000x64.size inb_S10000x64_S10000x64_0_0
abbrev r2_1 : Rect S64x6 := Rect.unit (s := S64x6) ![0, 0] S64x6.size inb_S64x6_S64x6_0_0
abbrev r2_2 : Rect S10000x6 := Rect.unit (s := S10000x6) ![0, 0] S10000x6.size inb_S10000x6_S10000x6_0_0

/-- What the result window's buffer holds after the body, from the two operand blocks: one store, of the body's
    value of the two loads, over the whole buffer. -/
def out2_2 (x0 : Vec F S10000x64 .f32) (x1 : Vec F S64x6 .f32) : Vec F S10000x6 .f32 :=
  View.canon [⟨r2_2, k2_pay1 (View.ld x0 r2_0) (View.ld x1 r2_1)⟩]

/-- The one store covers the buffer. -/
theorem cover2_2 (p0 : Vec F S10000x6 .f32) (y : S10000x6.Idx) :
    ∃ pc ∈ ([⟨r2_2, p0⟩] : List (View.Piece (Elt F) S10000x6 .f32)), y ∈ pc.1.set :=
  View.cover_of_tiled [⟨r2_2, p0⟩] S10000x6.size (by rfl) y

/-! ## The body's specification -/

set_option maxHeartbeats 1000000 in
/-- On whole buffers, the operands' at contents `x0`, `x1` and the result's at anything, the body runs to its end
    leaving the operands' buffers as they were and the result's at `out2_2 x0 x1`. -/
theorem sound_kernel2 (c : Dev nD) (E : Set ℕ) (i : grid2.Coords) (arg1 : Memref sig .tc .vmem S10000x64 .f32) (harg1 : arg1.IsWhole) (arg2 : Memref sig .tc .vmem S64x6 .f32) (harg2 : arg2.IsWhole)
    (arg3 : Memref sig .tc .vmem S10000x6 .f32) (harg3 : arg3.IsWhole)
    (x0 : Vec F S10000x64 .f32) (x1 : Vec F S64x6 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each operand's buffer still at its block and the
    result's at `out2_2` of the two blocks; between points only what the body never names; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the pipeline calls the body with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the operands' buffers hold their blocks, so the body's specification applies; the invariant and the
    core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Boundaries.lean ====
/-
  The contents of the core's buffers at every boundary of @main — a stretch of host operations, a kernel region, a
  stretch, … — and each of the first three regions as a segment between two boundaries.
  A region changes only its result array, and what it leaves there is what its pipeline's write-backs leave
  (`Dat.arrAt … N`, from the region's proof data at the contents the region is entered with). The boundaries'
  contents are the generated fold through the host stretches with those four result arrays filled in, one region
  after the other: region 1 is entered with what region 0 left in `main_v30` pushed through the second stretch, and
  so on. The fourth region's proof data is a parameter here (`d3`).
-/
import proofs.«115260_j9131100472028_1_alg».proof.Proof.ProjectRegion
import proofs.«115260_j9131100472028_1_alg».proof.Proof.BiasReluRegion
import proofs.«115260_j9131100472028_1_alg».proof.Proof.ClassifyRegion
import proofs.«115260_j9131100472028_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What each region is entered with, and what it leaves -/

/-- Region 0 is entered with the launch contents pushed through the first three host stretches. -/
abbrev X0 : (c : Dev nD) → (b : Ref sig .tc) → Buf (Elt F) ((c : Thread nD τ).loc b) := fun c b => Gen.V3 m c b
/-- The buffers when region 0 is left: its arrays at what its pipeline leaves, every other buffer untouched. -/
def W4 (c : Dev nD) : Valuation τ sig (Elt F) :=
  Pipeline.withArrays spec0 c (Gen.V3 m c) fun w => (dat0 (X0 m) c).arrAt w cfg0.N
/-- The regions' results so far: region 0's. -/
def outs4 : Gen.Outs (F := F) := fun _ r c => W4 m c (Proc.devRef .tc r)

/-- Region 1 is entered with that pushed through the fourth host stretch (the first message passing). -/
abbrev X1 : (c : Dev nD) → (b : Ref sig .tc) → Buf (Elt F) ((c : Thread nD τ).loc b) := fun c b => Gen.V5 m (outs4 m) c b
def W6 (c : Dev nD) : Valuation τ sig (Elt F) :=
  Pipeline.withArrays spec1 c (Gen.V5 m (outs4 m) c) fun w => (dat1 (X1 m) c).arrAt w cfg1.N
def outs6 : Gen.Outs (F := F) := fun J r c => if J = 6 then W6 m c (Proc.devRef .tc r) else outs4 m J r c

/-- Region 2 is entered with what region 1 left. -/
abbrev X2 : (c : Dev nD) → (b : Ref sig .tc) → Buf (Elt F) ((c : Thread nD τ).loc b) := fun c b => Gen.V6 m (outs6 m) c b
def W7 (c : Dev nD) : Valuation τ sig (Elt F) :=
  Pipeline.withArrays spec2 c (Gen.V6 m (outs6 m) c) fun w => (dat2 (X2 m) c).arrAt w cfg2.N
def outs7 : Gen.Outs (F := F) := fun J r c => if J = 7 then W7 m c (Proc.devRef .tc r) else outs6 m J r c

/-- Region 3 is entered with what region 2 left pushed through the fifth host stretch (the second message passing). -/
abbrev X3 : (c : Dev nD) → (b : Ref sig .tc) → Buf (Elt F) ((c : Thread nD τ).loc b) := fun c b => Gen.V8 m (outs7 m) c b

variable (d3 : (c : Dev nD) → Dat τ (Elt F) Unit ℕ (UR sig nD τ) ℕ cfg3 c)

def W9 (c : Dev nD) : Valuation τ sig (Elt F) :=
  Pipeline.withArrays spec3 c (Gen.V8 m (outs7 m) c) fun w => (d3 c).arrAt w cfg3.N
/-- What the four regions leave in their result arrays, as the generated fold reads it. -/
def outs : Gen.Outs (F := F) := fun J r c => if J = 9 then W9 m d3 c (Proc.devRef .tc r) else outs7 m J r c

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (X0 m) c
  | ⟨1, _⟩ => fun c => dat1 (X1 m) c
  | ⟨2, _⟩ => fun c => dat2 (X2 m) c
  | ⟨3, _⟩ => fun c => d3 c

/-- No core owes another anything: no level is assigned. -/
abbrev Lz : GSem nD τ sig → Finset Unit := fun _ => ∅
abbrev lvz : GSem nD τ sig → Unit → ℕ := fun _ _ => 0
/-- Beside the buffers, through every segment: the generator register at some state, and the core owing nothing. -/
abbrev Rr (c : Dev nD) : sProp 𝕄 := iprop((∃ r, prngReg c r) ∗ ∃ W, owes (c : Thread nD τ) (0 : CellTallies nD τ sig Unit) W)

/-! ## What the final family of results reads at each stage -/

theorem outs_at4 (r : Ref sig .tc) (c : Dev nD) : outs m d3 4 r c = W4 m c (Proc.devRef .tc r) := by
  unfold outs outs7 outs6 outs4
  rw [if_neg (by decide), if_neg (by decide), if_neg (by decide)]
theorem outs_at6 (r : Ref sig .tc) (c : Dev nD) : outs m d3 6 r c = W6 m c (Proc.devRef .tc r) := by
  unfold outs outs7 outs6
  rw [if_neg (by decide), if_neg (by decide), if_pos rfl]
theorem outs_at7 (r : Ref sig .tc) (c : Dev nD) : outs m d3 7 r c = W7 m c (Proc.devRef .tc r) := by
  unfold outs outs7
  rw [if_neg (by decide), if_pos rfl]
theorem outs_at9 (r : Ref sig .tc) (c : Dev nD) : outs m d3 9 r c = W9 m d3 c (Proc.devRef .tc r) := by
  unfold outs
  rw [if_pos rfl]

/-! ## The first three regions as segments -/

/-- Region 0's arrays at its exit are the next boundary's contents: the operands' as the region found them (an input
    window is never written back), the result's at what the write-backs leave. -/
theorem hF0 (c : Dev nD) (w : Fin cfg0.W) : (dat0 (X0 m) c).arrAt w cfg0.N = Gen.V4 m (outs m d3) c (Pipeline.arrRef spec0 w) := by
  match w with
  | ⟨0, _⟩ => exact ((dat0 (X0 m) c).arrAt_in 0 rfl _).trans ((A_eq0 (X0 m) c 0).trans (Gen.V4_of m (outs m d3) c main_arg0 (by decide)).symm)
  | ⟨1, _⟩ => exact ((dat0 (X0 m) c).arrAt_in 1 rfl _).trans ((A_eq0 (X0 m) c 1).trans (Gen.V4_of m (outs m d3) c main_arg2 (by decide)).symm)
  | ⟨2, _⟩ =>
    have hself : Gen.V4 m (outs m d3) c (Proc.devRef .tc main_v30) = outs m d3 4 main_v30 c := Function.update_self _ _ _
    have hread : W4 m c (Proc.devRef .tc main_v30) = (dat0 (X0 m) c).arrAt 2 cfg0.N := by
      unfold W4; exact Pipeline.withArrays_arr spec0 launch0.win.arr_inj c _ _ 2
    exact hread.symm.trans ((outs_at4 m d3 main_v30 c).symm.trans hself.symm)

/-- Every other buffer is as the region found it. -/
theorem hrest0 (c : Dev nD) : ∀ b, b ∉ Finset.univ.image (Pipeline.arrRef spec0) → Gen.V4 m (outs m d3) c b = Gen.V3 m c b :=
  fun b hb => Gen.V4_of m (outs m d3) c b (by
    simp only [List.mem_singleton]; rintro rfl
    exact hb (Finset.mem_image.mpr ⟨2, Finset.mem_univ _, rfl⟩))

set_option backward.isDefEq.respectTransparency.types false in
/-- Region 0 between two boundaries' contents of the core's unscoped buffers: at its entry its three arrays are split
    out of those buffers and at its exit put back at what the pipeline leaves; the generator register goes into the
    invariant and comes out; the core owes nothing; the kernel has no semaphore of its own. -/
def reg0 : RegionSeg (pcfgs (F := F)) Gen.adm (pdats m d3) () defs₀ Variants.none Lz lvz 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ Lz lvz 0 fun _ _ => rfl
  pre c := iprop(StableHlo.held (c : Thread nD τ) (Pipeline.ucRefs τ sig) (Gen.V3 m c) ∗ Rr c)
  post c := iprop(StableHlo.held (c : Thread nD τ) (Pipeline.ucRefs τ sig) (Gen.V4 m (outs m d3) c) ∗ Rr c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := F)) Gen.adm (pdats m d3) launch0.win launch0.arr_whole c
      ((pdats m d3 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m d3) ((pdats m d3 0 c).share_full fun _ => rfl)
      (X0 m c) (fun b => Gen.V4 m (outs m d3) c b) ((pdats m d3 0 c).arrAt · cfg0.N) (hF0 m d3 c) (hrest0 m d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays at its exit are the next boundary's contents: the operands' as the region found them (an input
    window is never written back), the result's at what the write-backs leave. -/
theorem hF1 (c : Dev nD) (w : Fin cfg1.W) : (dat1 (X1 m) c).arrAt w cfg1.N = Gen.V6 m (outs m d3) c (Pipeline.arrRef spec1 w) := by
  match w with
  | ⟨0, _⟩ => exact ((dat1 (X1 m) c).arrAt_in 0 rfl _).trans ((A_eq1 (X1 m) c 0).trans (Gen.V6_of m (outs m d3) c main_v43 (by decide)).symm)
  | ⟨1, _⟩ => exact ((dat1 (X1 m) c).arrAt_in 1 rfl _).trans ((A_eq1 (X1 m) c 1).trans (Gen.V6_of m (outs m d3) c main_v44 (by decide)).symm)
  | ⟨2, _⟩ =>
    have hself : Gen.V6 m (outs m d3) c (Proc.devRef .tc main_v45) = outs m d3 6 main_v45 c := Function.update_self _ _ _
    have hread : W6 m c (Proc.devRef .tc main_v45) = (dat1 (X1 m) c).arrAt 2 cfg1.N := by
      unfold W6; exact Pipeline.withArrays_arr spec1 launch1.win.arr_inj c _ _ 2
    exact hread.symm.trans ((outs_at6 m d3 main_v45 c).symm.trans hself.symm)

/-- Every other buffer is as the region found it. -/
theorem hrest1 (c : Dev nD) : ∀ b, b ∉ Finset.univ.image (Pipeline.arrRef spec1) → Gen.V6 m (outs m d3) c b = Gen.V5 m (outs4 m) c b :=
  fun b hb => Gen.V6_of m (outs m d3) c b (by
    simp only [List.mem_singleton]; rintro rfl
    exact hb (Finset.mem_image.mpr ⟨2, Finset.mem_univ _, rfl⟩))

set_option backward.isDefEq.respectTransparency.types false in
/-- Region 1 between two boundaries' contents of the core's unscoped buffers: at its entry its three arrays are split
    out of those buffers and at its exit put back at what the pipeline leaves; the generator register goes into the
    invariant and comes out; the core owes nothing; the kernel has no semaphore of its own. -/
def reg1 : RegionSeg (pcfgs (F := F)) Gen.adm (pdats m d3) () defs₀ Variants.none Lz lvz 1 where
  win := launch1.win.to₀
  block_pos := launch1.block_pos
  stage_whole := launch1.stage_whole
  K := PEmpty
  osem k := k.elim
  ho := Pipeline.OwnSemFacts.none _
  hbody c := (body_obligation1 (X1 m) c).loose
  hwaits := Pipeline.hwaits_of_owed_zero _ _ _ _ Lz lvz 1 fun _ _ => rfl
  pre c := iprop(StableHlo.held (c : Thread nD τ) (Pipeline.ucRefs τ sig) (Gen.V5 m (outs4 m) c) ∗ Rr c)
  post c := iprop(StableHlo.held (c : Thread nD τ) (Pipeline.ucRefs τ sig) (Gen.V6 m (outs m d3) c) ∗ Rr c)
  X c := iprop(∃ r, prngReg c r)
  Y c := iprop(∃ r, prngReg c r)
  Z c := Pipeline.unscopedRest (Ix := Unit) (Name := ℕ) (U := UR sig nD τ) (Lvl := ℕ) spec1 c (X1 m c)
  hentry c := by
    rw [Pipeline.ownSems0_none]
    have hsplit := Pipeline.arrays_of_unscopedBufs (p := 1) (pcfgs (F := F)) Gen.adm (pdats m d3) launch1.win launch1.arr_whole c
      ((pdats m d3 1 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m d3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m d3) ((pdats m d3 1 c).share_full fun _ => rfl)
      (X1 m c) (fun b => Gen.V6 m (outs m d3) c b) ((pdats m d3 1 c).arrAt · cfg1.N) (hF1 m d3 c) (hrest1 m d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays at its exit are the next boundary's contents: the operands' as the region found them (an input
    window is never written back), the result's at what the write-backs leave. -/
theorem hF2 (c : Dev nD) (w : Fin cfg2.W) : (dat2 (X2 m) c).arrAt w cfg2.N = Gen.V7 m (outs m d3) c (Pipeline.arrRef spec2 w) := by
  match w with
  | ⟨0, _⟩ => exact ((dat2 (X2 m) c).arrAt_in 0 rfl _).trans ((A_eq2 (X2 m) c 0).trans (Gen.V7_of m (outs m d3) c main_v45 (by decide)).symm)
  | ⟨1, _⟩ => exact ((dat2 (X2 m) c).arrAt_in 1 rfl _).trans ((A_eq2 (X2 m) c 1).trans (Gen.V7_of m (outs m d3) c main_arg4 (by decide)).symm)
  | ⟨2, _⟩ =>
    have hself : Gen.V7 m (outs m d3) c (Proc.devRef .tc main_v46) = outs m d3 7 main_v46 c := Function.update_self _ _ _
    have hread : W7 m c (Proc.devRef .tc main_v46) = (dat2 (X2 m) c).arrAt 2 cfg2.N := by
      unfold W7; exact Pipeline.withArrays_arr spec2 launch2.win.arr_inj c _ _ 2
    exact hread.symm.trans ((outs_at7 m d3 main_v46 c).symm.trans hself.symm)

/-- Every other buffer is as the region found it. -/
theorem hrest2 (c : Dev nD) : ∀ b, b ∉ Finset.univ.image (Pipeline.arrRef spec2) → Gen.V7 m (outs m d3) c b = Gen.V6 m (outs6 m) c b :=
  fun b hb => Gen.V7_of m (outs m d3) c b (by
    simp only [List.mem_singleton]; rintro rfl
    exact hb (Finset.mem_image.mpr ⟨2, Finset.mem_univ _, rfl⟩))

set_option backward.isDefEq.respectTransparency.types false in
/-- Region 2 between two boundaries' contents of the core's unscoped buffers: at its entry its three arrays are split
    out of those buffers and at its exit put back at what the pipeline leaves; the generator register goes into the
    invariant and comes out; the core owes nothing; the kernel has no semaphore of its own. -/
def reg2 : RegionSeg (pcfgs (F := F)) Gen.adm (pdats m d3) () defs₀ Variants.none Lz lvz 2 where
  win := launch2.win.to₀
  block_pos := launch2.block_pos
  stage_whole := launch2.stage_whole
  K := PEmpty
  osem k := k.elim
  ho := Pipeline.OwnSemFacts.none _
  hbody c := (body_obligation2 (X2 m) c).loose
  hwaits := Pipeline.hwaits_of_owed_zero _ _ _ _ Lz lvz 2 fun _ _ => rfl
  pre c := iprop(StableHlo.held (c : Thread nD τ) (Pipeline.ucRefs τ sig) (Gen.V6 m (outs6 m) c) ∗ Rr c)
  post c := iprop(StableHlo.held (c : Thread nD τ) (Pipeline.ucRefs τ sig) (Gen.V7 m (outs m d3) c) ∗ Rr c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none]
    have hsplit := Pipeline.arrays_of_unscopedBufs (p := 2) (pcfgs (F := F)) Gen.adm (pdats m d3) launch2.win launch2.arr_whole c
      ((pdats m d3 2 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m d3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m d3) ((pdats m d3 2 c).share_full fun _ => rfl)
      (X2 m c) (fun b => Gen.V7 m (outs m d3) c b) ((pdats m d3 2 c).arrAt · cfg2.N) (hF2 m d3 c) (hrest2 m d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.StagedResults.lean ====
/-
  The families of region results built one region at a time agree with the final family wherever a boundary reads them.
  A boundary's contents depend on the family only through the results of the regions before it: the contents after the
  fourth item through region 0's, after the fifth through regions 0 and 1's, after the seventh through regions 0, 1
  and 2's. So each region's entry contents, stated when only the earlier regions' results were known, are the final
  family's contents at that boundary.
-/
import proofs.«115260_j9131100472028_1_alg».proof.Proof.Boundaries

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

variable (m : (ℓ : Loc nD τ sig) → Buf (Elt F) ℓ)

theorem outs6_at4 (r : Ref sig .tc) (c : Dev nD) : outs6 m 4 r c = W4 m c (Proc.devRef .tc r) := by
  unfold outs6 outs4
  rw [if_neg (by decide)]
theorem outs6_at6 (r : Ref sig .tc) (c : Dev nD) : outs6 m 6 r c = W6 m c (Proc.devRef .tc r) := by
  unfold outs6
  rw [if_pos rfl]
theorem outs7_at4 (r : Ref sig .tc) (c : Dev nD) : outs7 m 4 r c = W4 m c (Proc.devRef .tc r) := by
  unfold outs7 outs6 outs4
  rw [if_neg (by decide), if_neg (by decide)]
theorem outs7_at6 (r : Ref sig .tc) (c : Dev nD) : outs7 m 6 r c = W6 m c (Proc.devRef .tc r) := by
  unfold outs7 outs6
  rw [if_neg (by decide), if_pos rfl]
theorem outs7_at7 (r : Ref sig .tc) (c : Dev nD) : outs7 m 7 r c = W7 m c (Proc.devRef .tc r) := by
  unfold outs7
  rw [if_pos rfl]

/-- The buffers after the fourth item depend on the family of results only through the first region's. -/
theorem V5_congr (o o' : Gen.Outs (F := F)) (c : Dev nD) (h4 : o 4 main_v30 c = o' 4 main_v30 c) :
    Gen.V5 m o c = Gen.V5 m o' c := by
  show StableHlo.after hostOps1 (Function.update (Gen.V3 m c) (Proc.devRef .tc main_v30) (o 4 main_v30 c)) = _
  rw [h4]

/-- After the fifth, through the first two regions'. -/
theorem V6_congr (o o' : Gen.Outs (F := F)) (c : Dev nD) (h4 : o 4 main_v30 c = o' 4 main_v30 c)
    (h6 : o 6 main_v45 c = o' 6 main_v45 c) : Gen.V6 m o c = Gen.V6 m o' c := by
  show Function.update (Gen.V5 m o c) (Proc.devRef .tc main_v45) (o 6 main_v45 c) = _
  rw [V5_congr m o o' c h4, h6]

/-- After the seventh, through the first three regions'. -/
theorem V8_congr (o o' : Gen.Outs (F := F)) (c : Dev nD) (h4 : o 4 main_v30 c = o' 4 main_v30 c)
    (h6 : o 6 main_v45 c = o' 6 main_v45 c) (h7 : o 7 main_v46 c = o' 7 main_v46 c) :
    Gen.V8 m o c = Gen.V8 m o' c := by
  show StableHlo.after hostOps3 (Function.update (Gen.V6 m o c) (Proc.devRef .tc main_v46) (o 7 main_v46 c)) = _
  rw [V6_congr m o o' c h4 h6, h7]

variable (d3 : (c : Dev nD) → Dat τ (Elt F) Unit ℕ (UR sig nD τ) ℕ cfg3 c)

/-- The contents the second region is entered with, at the final family. -/
theorem V5_staged (c : Dev nD) : Gen.V5 m (outs4 m) c = Gen.V5 m (outs m d3) c :=
  V5_congr m (outs4 m) (outs m d3) c (outs_at4 m d3 main_v30 c).symm

/-- The contents the third region is entered with. -/
theorem V6_staged (c : Dev nD) : Gen.V6 m (outs6 m) c = Gen.V6 m (outs m d3) c :=
  V6_congr m (outs6 m) (outs m d3) c
    ((outs6_at4 m main_v30 c).trans (outs_at4 m d3 main_v30 c).symm)
    ((outs6_at6 m main_v45 c).trans (outs_at6 m d3 main_v45 c).symm)

/-- The contents the fourth region is entered with. -/
theorem V8_staged (c : Dev nD) : Gen.V8 m (outs7 m) c = Gen.V8 m (outs m d3) c :=
  V8_congr m (outs7 m) (outs m d3) c
    ((outs7_at4 m main_v30 c).trans (outs_at4 m d3 main_v30 c).symm)
    ((outs7_at6 m main_v45 c).trans (outs_at6 m d3 main_v45 c).symm)
    ((outs7_at7 m main_v46 c).trans (outs_at7 m d3 main_v46 c).symm)

theorem X1_eq (c : Dev nD) (b : Ref sig .tc) : X1 m c b = Gen.V5 m (outs m d3) c b :=
  congrFun (V5_staged m d3 c) (Proc.devRef .tc b)
theorem X2_eq (c : Dev nD) (b : Ref sig .tc) : X2 m c b = Gen.V6 m (outs m d3) c b :=
  congrFun (V6_staged m d3 c) (Proc.devRef .tc b)
theorem X3_eq (c : Dev nD) (b : Ref sig .tc) : X3 m c b = Gen.V8 m (outs m d3) c b :=
  congrFun (V8_staged m d3 c) (Proc.devRef .tc b)

end Cert.KernelIdeal.Hand

end
-- ==== Proof.MeanRegion.lean ====
import proofs.«115260_j9131100472028_1_alg».proof.Proof.Gen.KernelIdeal.Launch
import proofs.«115260_j9131100472028_1_alg».proof.Proof.Gen.KernelIdeal.Skeleton
import proofs.«115260_j9131100472028_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The mean region: the kernel half of its frame

The fourth kernel averages the rows of its input over the ten grid points. Its one scratch buffer, a [1,6]
accumulator, is cleared at the first point, receives at every point the column sums of that point's [10000,6] block,
and at the last point is scaled and biased into the [1,6] output block; at every other point the output block is left
alone. Three control cases: the first point, a middle point, the last point. -/

/-! ## The two conditionals of the body -/

/-- The first conditional of the body, over the grid coordinates: "this is point 0". -/
abbrev isFirst (i : grid3.Coords) : Prop :=
  (Scalar.cmpi .ne (Scalar.extui (Scalar.cmpi .eq (BitVec.ofNat 32 (i 0).val) 0#32)) 0#32) = 1#1
/-- The second conditional: "this is point 9". -/
abbrev isLast (i : grid3.Coords) : Prop := k3_cond2 i = 1#1

/-- Over the ten points the first conditional holds exactly at position 0, -/
theorem isFirst_iff : ∀ t : Fin cfg3.N, isFirst (grid3.coords t) ↔ t.val = 0 :=
  (by decide +kernel : ∀ t : Fin grid3.N, isFirst (grid3.coords t) ↔ t.val = 0)
/-- and the second exactly at position 9. -/
theorem isLast_iff : ∀ t : Fin cfg3.N, isLast (grid3.coords t) ↔ t.val = 9 :=
  (by decide +kernel : ∀ t : Fin grid3.N, isLast (grid3.coords t) ↔ t.val = 9)

/-! ## Where the windows are idle -/

/-- The two input windows are never idle. -/
theorem live3_0 : ∀ t : Fin cfg3.N, cfg3.idle 0 (grid3.coords t) = false := by decide +kernel
theorem live3_1 : ∀ t : Fin cfg3.N, cfg3.idle 1 (grid3.coords t) = false := by decide +kernel
/-- Off the last point the output window is idle -/
theorem idle3_2 : ∀ t : Fin cfg3.N, ¬isLast (grid3.coords t) → cfg3.idle 2 (grid3.coords t) = true := by decide +kernel
/-- and is not written back; -/
theorem noFlush3_2 : ∀ t : Fin cfg3.N, ¬isLast (grid3.coords t) → (cfg3.win 2).flush t = false := by decide +kernel
/-- at the last point it is live. -/
theorem live3_2 : ∀ t : Fin cfg3.N, isLast (grid3.coords t) → cfg3.idle 2 (grid3.coords t) = false := by decide +kernel

/-! ## Whole-buffer loads and stores

Every access of the body goes through the rectangle at offset zero that spans its buffer: a load through it reads the
contents, a store through it leaves its payload. -/

/-- The zero offsets, however spelt. -/
theorem zeros2 : (![0, 0] : Fin 2 → Nat) = fun _ => 0 := funext fun a => by fin_cases a <;> rfl

/-- The accumulator as a memref: the kernel's own whole VMEM buffer. -/
abbrev accM : Memref sig .tc .vmem S1x6 .f32 := Memref.whole cc3_scratch0

/-! ## The body's triple, case by case -/

set_option maxHeartbeats 1000000 in
/-- A MIDDLE point (neither conditional holds): the accumulator, found at xs, is left at xs plus the column sums of
    the input block x0; the bias and the output block are untouched. -/
theorem runMid (c : Dev nD) (i : grid3.Coords)
    (arg1 : Memref sig .tc .vmem S10000x6 .f32) (harg1 : arg1.IsWhole)
    (arg2 : Memref sig .tc .vmem S1x6 .f32) (harg2 : arg2.IsWhole)
    (arg3 : Memref sig .tc .vmem S1x6 .f32) (harg3 : arg3.IsWhole)
    (arg4 : Memref sig .tc .vmem S1x6 .f32) (harg4 : arg4.IsWhole)
    (hc0 : ¬isFirst i) (hc1 : ¬isLast i)
    (x0 : Vec F S10000x6 .f32) (x1 : Vec F S1x6 .f32) (x2 : Vec F S1x6 .f32) (xs : Vec F S1x6 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare x2
            ∗ owns (c : Thread nD τ) arg4 fullShare (k3_pay2 xs x0)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons.mpr (Or.inl rfl),
    View.mem_set_unit_zero (S := S1x6) zeros2 inb_S1x6_S1x6_0_0 y⟩)).trans ?_
  refine (View.canon_cons_unit_zero (S := S1x6) zeros2 inb_S1x6_S1x6_0_0 _ _).trans ?_
  exact congrArg₂ (k3_pay2 (F := F))
      (View.ld_unit_zero (S := S1x6) zeros2 inb_S1x6_S1x6_0_0 (View.read (Elt F) arg4.view fs))
      (View.ld_unit_zero (S := S10000x6) zeros2 inb_S10000x6_S10000x6_0_0 (View.read (Elt F) arg1.view f0))

set_option maxHeartbeats 1000000 in
/-- The FIRST point (the first conditional holds, the second does not): the accumulator, found at anything, is cleared
    and then left at the column sums of the input block x0 added to the cleared value. -/
theorem runFirst (c : Dev nD) (i : grid3.Coords)
    (arg1 : Memref sig .tc .vmem S10000x6 .f32) (harg1 : arg1.IsWhole)
    (arg2 : Memref sig .tc .vmem S1x6 .f32) (harg2 : arg2.IsWhole)
    (arg3 : Memref sig .tc .vmem S1x6 .f32) (harg3 : arg3.IsWhole)
    (arg4 : Memref sig .tc .vmem S1x6 .f32) (harg4 : arg4.IsWhole)
    (hc0 : isFirst i) (hc1 : ¬isLast i)
    (x0 : Vec F S10000x6 .f32) (x1 : Vec F S1x6 .f32) (x2 : Vec F S1x6 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k3_pay2 (k3_pay1 (F := F)) x0)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons.mpr (Or.inl rfl),
    View.mem_set_unit_zero (S := S1x6) zeros2 inb_S1x6_S1x6_0_0 y⟩)).trans ?_
  refine (View.canon_cons_unit_zero (S := S1x6) zeros2 inb_S1x6_S1x6_0_0 _ _).trans ?_
  sl_unfold_run_names
  exact congrArg₂ (k3_pay2 (F := F))
      (View.readCov_unit_zero (Val := Elt F) arg4.view zeros2 inb_S1x6_S1x6_0_0 (k3_pay1 (F := F)))
      (View.ld_unit_zero (S := S10000x6) zeros2 inb_S10000x6_S10000x6_0_0 (View.read (Elt F) arg1.view f0))

set_option maxHeartbeats 1000000 in
/-- The LAST point (the second conditional holds, the first does not): the accumulator, found at xs, is left at
    xs plus the column sums of x0, and the output block, found at anything, at that value scaled and biased by x1. -/
theorem runLast (c : Dev nD) (i : grid3.Coords)
    (arg1 : Memref sig .tc .vmem S10000x6 .f32) (harg1 : arg1.IsWhole)
    (arg2 : Memref sig .tc .vmem S1x6 .f32) (harg2 : arg2.IsWhole)
    (arg3 : Memref sig .tc .vmem S1x6 .f32) (harg3 : arg3.IsWhole)
    (arg4 : Memref sig .tc .vmem S1x6 .f32) (harg4 : arg4.IsWhole)
    (hc0 : ¬isFirst i) (hc1 : isLast i)
    (x0 : Vec F S10000x6 .f32) (x1 : Vec F S1x6 .f32) (xs : Vec F S1x6 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k3_pay3 (k3_pay2 xs x0) x1)
            ∗ owns (c : Thread nD τ) arg4 fullShare (k3_pay2 xs x0)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  have hacc : View.read (Elt F) arg4.view (arg4.view.writes (Elt F) fs
      [⟨Rect.unit ![0, 0] S1x6.size inb_S1x6_S1x6_0_0,
        k3_pay2 (View.readAt (Elt F) arg4.view (Rect.unit ![0, 0] S1x6.size inb_S1x6_S1x6_0_0).toLoadRect fs)
          (View.readAt (Elt F) arg1.view (Rect.unit ![0, 0] S10000x6.size inb_S10000x6_S10000x6_0_0).toLoadRect f0)⟩])
      = k3_pay2 (View.read (Elt F) arg4.view fs) (View.read (Elt F) arg1.view f0) := by
    refine (View.read_writes_eq_canon _ _ _ (fun y => ⟨_, List.mem_cons.mpr (Or.inl rfl),
      View.mem_set_unit_zero (S := S1x6) zeros2 inb_S1x6_S1x6_0_0 y⟩)).trans ?_
    refine (View.canon_cons_unit_zero (S := S1x6) zeros2 inb_S1x6_S1x6_0_0 _ _).trans ?_
    exact congrArg₂ (k3_pay2 (F := F))
      (View.ld_unit_zero (S := S1x6) zeros2 inb_S1x6_S1x6_0_0 (View.read (Elt F) arg4.view fs))
      (View.ld_unit_zero (S := S10000x6) zeros2 inb_S10000x6_S10000x6_0_0 (View.read (Elt F) arg1.view f0))
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons.mpr (Or.inl rfl),
      View.mem_set_unit_zero (S := S1x6) zeros2 inb_S1x6_S1x6_0_0 y⟩)).trans ?_
    refine (View.canon_cons_unit_zero (S := S1x6) zeros2 inb_S1x6_S1x6_0_0 _ _).trans ?_
    exact congrArg₂ (k3_pay3 (F := F))
        ((View.readCov_unit_zero (Val := Elt F) arg4.view zeros2 inb_S1x6_S1x6_0_0 _).trans
          (congrArg₂ (k3_pay2 (F := F))
            (View.ld_unit_zero (S := S1x6) zeros2 inb_S1x6_S1x6_0_0 (View.read (Elt F) arg4.view fs))
            (View.ld_unit_zero (S := S10000x6) zeros2 inb_S10000x6_S10000x6_0_0 (View.read (Elt F) arg1.view f0))))
        (View.ld_unit_zero (S := S1x6) zeros2 inb_S1x6_S1x6_0_0 (View.read (Elt F) arg2.view f1))
  iexists _; isplitr
  swap; · iexact HS
  ipureintro
  exact hacc

section Region
-- the TensorCore's buffer contents when the region is entered: everything below is stated at this parameter
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the accumulator holds after each point -/

/-- The accumulator after the body at position n: the cleared value plus the column sums of block 0 after the first
    point, and from then on what the point before left plus the column sums of this point's block. -/
def acc3 (c : Dev nD) : (n : ℕ) → n < cfg3.N → Vec F S1x6 .f32
  | 0, h => k3_pay2 (k3_pay1 (F := F)) (iblk3 V c 0 ⟨0, h⟩)
  | n + 1, h => k3_pay2 (acc3 c n (Nat.lt_of_succ_lt h)) (iblk3 V c 0 ⟨n + 1, h⟩)

theorem acc3_zero (c : Dev nD) (h : 0 < cfg3.N) :
    acc3 V c 0 h = k3_pay2 (k3_pay1 (F := F)) (iblk3 V c 0 ⟨0, h⟩) := rfl

theorem acc3_succ (c : Dev nD) (n : ℕ) (h : n + 1 < cfg3.N) :
    acc3 V c (n + 1) h = k3_pay2 (acc3 V c n (Nat.lt_of_succ_lt h)) (iblk3 V c 0 ⟨n + 1, h⟩) := rfl

/-- The same at a point of the grid: the first, -/
theorem acc3_first (c : Dev nD) (t : Fin cfg3.N) (h0 : t.val = 0) :
    acc3 V c t.val t.isLt = k3_pay2 (k3_pay1 (F := F)) (iblk3 V c 0 t) := by
  obtain ⟨n, hn⟩ := t
  cases n with
  | zero => rfl
  | succ n => exact absurd h0 (Nat.succ_ne_zero n)

/-- a later one. -/
theorem acc3_later (c : Dev nD) (t : Fin cfg3.N) (h0 : t.val ≠ 0) :
    acc3 V c t.val t.isLt
      = k3_pay2 (acc3 V c (t.val - 1) (Nat.lt_of_le_of_lt (Nat.sub_le _ _) t.isLt)) (iblk3 V c 0 t) := by
  obtain ⟨n, hn⟩ := t
  cases n with
  | zero => exact absurd rfl h0
  | succ n => rfl

/-! ## The invariant: the class's, with the accumulator's contents named once the first point has run -/

/-- The scoped buffers that are neither a staging buffer of this region nor the accumulator, at some contents each. -/
abbrev otherScoped (c : Dev nD) : sProp 𝕄 :=
  Pipeline.scopedRestBut (Ix := Unit) (Name := ℕ) (U := UR sig nD τ) (Lvl := ℕ) (Val := Elt F) spec3 c [cc3_scratch0]

/-- The class invariant with the accumulator split off as a memref owned at some contents. -/
theorem PhiA3_eq (c : Dev nD) :
    (Pipeline.ΦA spec3 c : sProp 𝕄)
      = iprop(((∃ d, owns (c : Thread nD τ) accM fullShare d) ∗ otherScoped (F := F) c) ∗ (∃ r, prngReg c r)) := by
  unfold Pipeline.ΦA otherScoped
  rw [Pipeline.scopedRest_split_of_list spec3 c [cc3_scratch0] (by decide) (by decide)]
  simp only [accM, owns_whole, bigSepL_singleton]; try rfl

/-- The invariant before position n: before the first point the class's; afterwards the same with the accumulator at
    what the point before left in it. -/
def PhiS (c : Dev nD) : (n : ℕ) → n ≤ cfg3.N → sProp 𝕄
  | 0, _ => Pipeline.ΦA spec3 c
  | n + 1, hn => iprop((owns (c : Thread nD τ) accM fullShare (acc3 V c n hn) ∗ otherScoped (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop((owns (c : Thread nD τ) accM fullShare (acc3 V c n hn) ∗ otherScoped (F := F) c) ∗ (∃ r, prngReg c r)) := rfl

theorem PhiS_pos (c : Dev nD) (n : ℕ) (h : n ≤ cfg3.N) (hz : n ≠ 0) :
    PhiS V c n h = iprop((owns (c : Thread nD τ) accM fullShare (acc3 V c (n - 1) (by omega)) ∗ otherScoped (F := F) c) ∗ (∃ r, prngReg c r)) := by
  cases n with
  | zero => exact absurd rfl hz
  | succ n => rfl

/-! ## The proof data -/

/-- The proof data of the mean pipeline on core c: the arrays as the region finds them; after the body at point t
    each input's buffer at its block and the output's at the scaled, biased accumulator of that point (consulted at the
    last point only: elsewhere the window is idle and not written back); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt) (iblk3 V c 1 t)
  Φ t := PhiS V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS_castSucc (c : Dev nD) (t : Fin cfg3.N) :
    (dat3 V c).Φ t.castSucc = PhiS V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay3 (acc3 V c t.val t.isLt) (iblk3 V c 1 t) := by dsimp only [dat3]

/-- Each input's current staging buffer holds its block at every point, fetched there or not (an unfetched window's
    block index has not moved). -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-! ## The body obligation, at a generic point -/

/-- Each window's current staging memref at point t, spelled as the pipeline passes it, and its wholeness. -/
abbrev mem3_0 (t : Fin cfg3.N) : Memref sig .tc .vmem S10000x6 .f32 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S1x6 .f32 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S1x6 .f32 := win3_2.stage (cfg3.slots t 2)
abbrev whole3_2 (t : Fin cfg3.N) : (mem3_2 t).IsWhole := hstage3_2 ((cfg3.slots t 2).cast nbuf3_2)

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (mem3_0 t) fullShare ((dat3 V c).before 0 t d))
    ∗ (∃ d, owns (c : Thread nD τ) (mem3_1 t) fullShare ((dat3 V c).before 1 t d))
    ∗ (∃ d, owns (c : Thread nD τ) (mem3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the position decides the case; the invariant hands the
    body the accumulator at what the point before left (at anything before the first point) and takes it back at this
    point's contents; off the last point the output's buffer is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS V c (t.val + 1) t.isLt from rfl, PhiS_succ]
  rw [show (dat3 V c).leavesExact 0 t = owns (c : Thread nD τ) (mem3_0 t) fullShare ((dat3 V c).after 0 t) from by
    unfold Dat.leavesExact; rw [live3_0 t], after3_0]
  rw [show (dat3 V c).leavesExact 1 t = owns (c : Thread nD τ) (mem3_1 t) fullShare ((dat3 V c).after 1 t) from by
    unfold Dat.leavesExact; rw [live3_1 t], after3_1]
  have hN : t.val < 10 := lt_of_lt_of_eq t.isLt (show cfg3.N = 10 from N_3)
  by_cases h0 : t.val = 0
  · -- the first point
    have h1 : ¬t.val = 9 := by omega
    rw [Dat.leavesExact_idle (dat3 V c) 2 t (idle3_2 t (fun h => h1 ((isLast_iff t).mp h))) (noFlush3_2 t (fun h => h1 ((isLast_iff t).mp h)))]
    rw [acc3_first V c t h0, PhiS_castSucc V c t, PhiS_zero V c _ _ h0, PhiA3_eq]
    iintro ⟨⟨⟨HS, Hrest⟩, Hg⟩, Ho, ⟨%d0, H0⟩, ⟨%d1, H1⟩, ⟨%d2, H2⟩⟩
    iapply (runFirst c (grid3.coords t) _ _ _ _ _ _ _ _ ((isFirst_iff t).mpr h0) (fun h => h1 ((isLast_iff t).mp h))
      (iblk3 V c 0 t) (iblk3 V c 1 t) _ Set.univ _)
    isplitl [H0]; · iexact H0
    isplitl [H1]; · iexact H1
    isplitl [H2]; · iexact H2
    isplitl [HS]; · iexact HS
    iintro ⟨H0, H1, H2, HS⟩
    isplitl [HS Hrest Hg]
    · isplitr [Hg]
      · isplitl [HS]; · iexact HS
        iexact Hrest
      iexact Hg
    isplitl [Ho]; · iexact Ho
    isplitl [H0]; · iexact H0
    isplitl [H1]; · iexact H1
    iexists _; iexact H2
  · by_cases h1 : t.val = 9
    · -- the last point
      rw [show (dat3 V c).leavesExact 2 t = owns (c : Thread nD τ) (mem3_2 t) fullShare ((dat3 V c).after 2 t) from by
        unfold Dat.leavesExact; rw [live3_2 t ((isLast_iff t).mpr h1)], after3_2]
      rw [acc3_later V c t h0, PhiS_castSucc V c t, PhiS_pos V c _ _ h0]
      iintro ⟨⟨⟨HS, Hrest⟩, Hg⟩, Ho, ⟨%d0, H0⟩, ⟨%d1, H1⟩, ⟨%d2, H2⟩⟩
      iapply (runLast c (grid3.coords t) _ _ _ _ _ _ _ _ (fun h => h0 ((isFirst_iff t).mp h)) ((isLast_iff t).mpr h1)
        (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitr [Hg]
        · isplitl [HS]; · iexact HS
          iexact Hrest
        iexact Hg
      isplitl [Ho]; · iexact Ho
      isplitl [H0]; · iexact H0
      isplitl [H1]; · iexact H1
      iexact H2
    · -- a middle point
      rw [Dat.leavesExact_idle (dat3 V c) 2 t (idle3_2 t (fun h => h1 ((isLast_iff t).mp h))) (noFlush3_2 t (fun h => h1 ((isLast_iff t).mp h)))]
      rw [acc3_later V c t h0, PhiS_castSucc V c t, PhiS_pos V c _ _ h0]
      iintro ⟨⟨⟨HS, Hrest⟩, Hg⟩, Ho, ⟨%d0, H0⟩, ⟨%d1, H1⟩, ⟨%d2, H2⟩⟩
      iapply (runMid c (grid3.coords t) _ _ _ _ _ _ _ _ (fun h => h0 ((isFirst_iff t).mp h)) (fun h => h1 ((isLast_iff t).mp h))
        (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitr [Hg]
        · isplitl [HS]; · iexact HS
          iexact Hrest
        iexact Hg
      isplitl [Ho]; · iexact Ho
      isplitl [H0]; · iexact H0
      isplitl [H1]; · iexact H1
      iexists _; iexact H2

/-- The body's obligation to the pipeline, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS, Hrest⟩, Hg⟩
  isplitr [Hg]
  · isplitl [HS]; · iexists _; iexact HS
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

/-! ## What a value proof reads -/

/-- The output block the last point writes back: the accumulator after all ten points, scaled, plus the bias block. -/
theorem after3_2_last (c : Dev nD) (t : Fin cfg3.N) (h9 : t.val = 9) :
    (dat3 V c).after 2 t = k3_pay3 (acc3 V c 9 (by have : cfg3.N = 10 := N_3; omega)) (iblk3 V c 1 t) := by
  obtain ⟨n, hn⟩ := t
  have h9' : n = 9 := h9
  subst h9'
  exact after3_2 V c _

end Region

end Cert.KernelIdeal.Hand

end
-- ==== Proof.WholeRun.lean ====
/-
  The whole run of @main: the fourth region as a segment, the ten segments chained from the launch to the return, and
  what every final memory holds.
  Between two segments the core holds every unscoped buffer at the boundary's contents, its generator register at
  some state, and owes nothing. At the end every unscoped buffer — the six argument arrays and the result among them —
  holds the last boundary's contents: the launch contents pushed through the six host stretches with each region's
  result array at what its pipeline's write-backs leave. No stretch and no region writes an argument array.
-/
import proofs.«115260_j9131100472028_1_alg».proof.Proof.StagedResults
import proofs.«115260_j9131100472028_1_alg».proof.Proof.MeanRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The fourth region's proof data, at the contents it is entered with. -/
abbrev D3 (c : Dev nD) : Dat τ (Elt F) Unit ℕ (UR sig nD τ) ℕ cfg3 c := dat3 (X3 m) c
/-- What the four regions leave, with the fourth region's proof data in place. -/
abbrev outsAll : Gen.Outs (F := F) := outs m (D3 m)
/-- The proof data family of the whole program. -/
abbrev pdatsAll : (p : Fin 4) → (c : Dev nD) → Dat τ (Elt F) Unit ℕ (UR sig nD τ) ℕ (cfgs p) c := pdats m (D3 m)

/-! ## The fourth region as a segment -/

theorem hF3 (c : Dev nD) (w : Fin cfg3.W) : (D3 m c).arrAt w cfg3.N = Gen.V9 m (outsAll m) c (Pipeline.arrRef spec3 w) := by
  match w with
  | ⟨0, _⟩ => exact ((D3 m c).arrAt_in 0 rfl _).trans ((A_eq3 (X3 m) c 0).trans ((X3_eq m (D3 m) c main_v59).trans (Gen.V9_of m (outsAll m) c main_v59 (by decide)).symm))
  | ⟨1, _⟩ => exact ((D3 m c).arrAt_in 1 rfl _).trans ((A_eq3 (X3 m) c 1).trans ((X3_eq m (D3 m) c main_v60).trans (Gen.V9_of m (outsAll m) c main_v60 (by decide)).symm))
  | ⟨2, _⟩ =>
    have hself : Gen.V9 m (outsAll m) c (Proc.devRef .tc main_v61) = outsAll m 9 main_v61 c := Function.update_self _ _ _
    have hread : W9 m (D3 m) c (Proc.devRef .tc main_v61) = (D3 m c).arrAt 2 cfg3.N := by
      unfold W9; exact Pipeline.withArrays_arr spec3 launch3.win.arr_inj c _ _ 2
    exact hread.symm.trans ((outs_at9 m (D3 m) main_v61 c).symm.trans hself.symm)

theorem hrest3 (c : Dev nD) : ∀ b, b ∉ Finset.univ.image (Pipeline.arrRef spec3) → Gen.V9 m (outsAll m) c b = Gen.V8 m (outs7 m) c b :=
  fun b hb => (Gen.V9_of m (outsAll m) c b (by
    simp only [List.mem_singleton]; rintro rfl
    exact hb (Finset.mem_image.mpr ⟨2, Finset.mem_univ _, rfl⟩))).trans (X3_eq m (D3 m) c b).symm

set_option backward.isDefEq.respectTransparency.types false in
/-- Region 3 between two boundaries' contents: as the first three, except that its invariant also names the carried
    scratch's contents after every point; before the first point and after the last that invariant is the plain one. -/
def reg3 : RegionSeg (pcfgs (F := F)) Gen.adm (pdatsAll m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (X3 m) c).loose
  hwaits := Pipeline.hwaits_of_owed_zero _ _ _ _ Lz lvz 3 fun _ _ => rfl
  pre c := iprop(StableHlo.held (c : Thread nD τ) (Pipeline.ucRefs τ sig) (Gen.V8 m (outs7 m) c) ∗ Rr c)
  post c := iprop(StableHlo.held (c : Thread nD τ) (Pipeline.ucRefs τ sig) (Gen.V9 m (outsAll m) c) ∗ Rr c)
  X c := iprop(∃ r, prngReg c r)
  Y c := iprop(∃ r, prngReg c r)
  Z c := Pipeline.unscopedRest (Ix := Unit) (Name := ℕ) (U := UR sig nD τ) (Lvl := ℕ) spec3 c (X3 m c)
  hentry c := by
    rw [Pipeline.ownSems0_none]
    have hsplit := Pipeline.arrays_of_unscopedBufs (p := 3) (pcfgs (F := F)) Gen.adm (pdatsAll m) launch3.win launch3.arr_whole c
      ((pdatsAll m 3 c).share_full fun _ => rfl) (X3 m c) fun w => A_eq3 (X3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (X3 m) c)
    unfold Pipeline.ΦA
    iintro ⟨Hp, -, Hr⟩
    isplitl [Hr]; · iexact Hr
    iexact Hp
  hout c := by
    refine (hout3 (X3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdatsAll m) ((pdatsAll m 3 c).share_full fun _ => rfl)
      (X3 m c) (fun b => Gen.V9 m (outsAll m) c b) ((pdatsAll m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its ten segments, and the launch -/

/-- The rest that rides beside the buffers through every host stretch. -/
abbrev Erest : Fin 5 → Dev nD → sProp 𝕄 := fun _ c => Rr c

/-- An unscoped buffer of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates, nothing faulting, and in every
    final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V10 m (outsAll m) c b) := by
  refine Pipeline.θ_run_regions_kit_dev (pcfgs (F := F)) Gen.adm (pdatsAll m) () cellOf_inj emb₁ defs₀ Variants.none Lz lvz m ρ main
    (Gen.segs m (outsAll m) Variants.none Lz lvz (Erest (F := F)) () (pdatsAll m) (reg0 m (D3 m)) (reg1 m (D3 m)) (reg2 m (D3 m)) (reg3 m))
    (fun c Q => by
      rewrite [main_chain c, Seg.run_eq_chain,
        show (Gen.segs m (outsAll m) Variants.none Lz lvz (Erest (F := F)) () (pdatsAll m) (reg0 m (D3 m)) (reg1 m (D3 m)) (reg2 m (D3 m)) (reg3 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (Gen.V10 m (outsAll m) c) ∗ ∃ r, prngReg c r))
    (hch := fun c => ⟨.rfl, .rfl, .rfl, .rfl, .rfl,
      -- region 1 is entered with the contents stated when only region 0's result was known: the same contents
      (by
        show iprop(StableHlo.held (c : Thread nD τ) (Pipeline.ucRefs τ sig) (Gen.V5 m (outsAll m) c) ∗ Rr c)
          ⊢ iprop(StableHlo.held (c : Thread nD τ) (Pipeline.ucRefs τ sig) (Gen.V5 m (outs4 m) c) ∗ Rr c)
        rw [V5_staged m (D3 m) c]),
      (by
        show iprop(StableHlo.held (c : Thread nD τ) (Pipeline.ucRefs τ sig) (Gen.V6 m (outsAll m) c) ∗ Rr c)
          ⊢ iprop(StableHlo.held (c : Thread nD τ) (Pipeline.ucRefs τ sig) (Gen.V6 m (outs6 m) c) ∗ Rr c)
        rw [V6_staged m (D3 m) c]),
      .rfl,
      (by
        show iprop(StableHlo.held (c : Thread nD τ) (Pipeline.ucRefs τ sig) (Gen.V8 m (outsAll m) c) ∗ Rr c)
          ⊢ iprop(StableHlo.held (c : Thread nD τ) (Pipeline.ucRefs τ sig) (Gen.V8 m (outs7 m) c) ∗ Rr c)
        rw [V8_staged m (D3 m) c]),
      .rfl,
      -- at the end the generator register stays with the buffers and the dues stand apart
      (show iprop(StableHlo.held (c : Thread nD τ) (Pipeline.ucRefs τ sig) (Gen.V10 m (outsAll m) c) ∗ Rr c)
          ⊢ iprop((StableHlo.held (c : Thread nD τ) (Pipeline.ucRefs τ sig) (Gen.V10 m (outsAll m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V10 m (outsAll m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V10 m (outsAll m) c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V10_main_arg0 m (outsAll m) c),
     (h c _ (mem_uc main_arg1 (by decide))).trans (Gen.V10_main_arg1 m (outsAll m) c),
     (h c _ (mem_uc main_arg2 (by decide))).trans (Gen.V10_main_arg2 m (outsAll m) c),
     (h c _ (mem_uc main_arg3 (by decide))).trans (Gen.V10_main_arg3 m (outsAll m) c),
     (h c _ (mem_uc main_arg4 (by decide))).trans (Gen.V10_main_arg4 m (outsAll m) c),
     (h c _ (mem_uc main_arg5 (by decide))).trans (Gen.V10_main_arg5 m (outsAll m) c)⟩) (run_all m ρ)

end Cert.KernelIdeal.Hand

end
-- ==== Proof.SharedNetwork.lean ====
/-
  The computation both programs share, as named functions of the arrays.
  A graph convolution with self-loops: the edge list `ei` (row 0 the sources, row 1 the targets) is extended by one
  loop per node; every node's degree counts the edges arriving at it; an edge from `s` to `t` weighs
  `d(s)^(-1/2) · d(t)^(-1/2)` (zero where a degree is not positive); one round of message passing sends along every edge
  the source's feature row times the edge's weight and sums what arrives at each target. The network is two such
  rounds around two dense layers, a rectifier after the first, and the mean over the nodes at the end.
  Both programs compute the endpoints, the weights and the two rounds by the same host operations; they differ in how
  the dense layers, the rectifier and the mean are computed. Here each shared piece is one function, so that a proof
  about either program can carry it unopened.
-/
import proofs.«115260_j9131100472028_1_alg».proof.Proof.Gen.ReferenceIdeal

noncomputable section

namespace Cert.ReferenceIdeal.Spec

open Cert.ReferenceIdeal Cert.ReferenceIdeal.Gen Idealize.ShloMosaic

variable {F : FTy → Type} [FloatOps F]

/-- An array of 32-bit integers, and one of floats, of a given shape. -/
abbrev I32 (F : FTy → Type) (s : Shape) : Type := (⟨s, .i32⟩ : BufTy).Contents (Elt F)
abbrev F32 (F : FTy → Type) (s : Shape) : Type := (⟨s, .f32⟩ : BufTy).Contents (Elt F)

/-- The 3 200 000 sources followed by the 100 000 loops `0, 1, …`. -/
def sources (ei : I32 F S2x3200000) : I32 F S3300000 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- The 3 200 000 targets followed by the same loops. -/
def targets (ei : I32 F S2x3200000) : I32 F S3300000 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- A gather's start indices from node numbers: a negative number counts from the end (`+ 100000`), as a column. -/
def startColumn (r : I32 F S3300000) : I32 F S3300000x1 :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- A scatter's indices from node numbers, as a column. -/
def indexColumn (r : I32 F S3300000) : I32 F S3300000x1 :=
  broadcastInDim S3300000x1 ![0] bcast_S3300000_S3300000x1_0 r

/-- `d^(-1/2)` per node, `d` the number of edges arriving at it; zero where `d` is not positive. -/
def invSqrtDegree (col : I32 F S3300000) : F32 F S100000 :=
  select
    (cmpf (F := F) .ogt
      (Host.scatterAdd scatter_S100000_S3300000x1_S3300000_n_0_0_1 (broadcastInDim S100000 ![] bcast_S_S100000 (constant S_ .f32 0x00000000#32)) (indexColumn col) (broadcastInDim S3300000 ![] bcast_S_S3300000 (constant S_ .f32 0x3F800000#32)))
      (broadcastInDim S100000 ![] bcast_S_S100000 (constant S_ .f32 0x00000000#32)))
    (Host.rsqrt (Host.scatterAdd scatter_S100000_S3300000x1_S3300000_n_0_0_1 (broadcastInDim S100000 ![] bcast_S_S100000 (constant S_ .f32 0x00000000#32)) (indexColumn col) (broadcastInDim S3300000 ![] bcast_S_S3300000 (constant S_ .f32 0x3F800000#32))))
    (broadcastInDim S100000 ![] bcast_S_S100000 (id (constant S_ .f32 0x00000000#32)))

/-- An edge's weight: the normaliser at its source times the normaliser at its target. -/
def edgeWeights (row col : I32 F S3300000) : F32 F S3300000 :=
  mulf (Host.gather gather_S100000_S3300000x1_S3300000_n_0_n_n_0_1_1 (invSqrtDegree col) (startColumn row))
    (Host.gather gather_S100000_S3300000x1_S3300000_n_0_n_n_0_1_1 (invSqrtDegree col) (startColumn col))

/-- One round of message passing over 64 features: gather the sources' rows, scale each by its edge's weight, sum at
    the targets. -/
def pass64 (row col : I32 F S3300000) (w : F32 F S3300000) (h : F32 F S100000x64) : F32 F S100000x64 :=
  Host.scatterAdd scatter_S100000x64_S3300000x1_S3300000x64_1_0_0_1 (broadcastInDim S100000x64 ![] bcast_S_S100000x64 (constant S_ .f32 0x00000000#32)) (indexColumn col)
    (mulf (Host.gather gather_S100000x64_S3300000x1_S3300000x64_1_0_n_n_0_1_164 h (startColumn row))
      (broadcastInDim S3300000x64 ![0, 1] bcast_S3300000x1_S3300000x64_0_1 (broadcastInDim S3300000x1 ![0] bcast_S3300000_S3300000x1_0 w)))

/-- The same over 6 features. -/
def pass6 (row col : I32 F S3300000) (w : F32 F S3300000) (h : F32 F S100000x6) : F32 F S100000x6 :=
  Host.scatterAdd scatter_S100000x6_S3300000x1_S3300000x6_1_0_0_1 (broadcastInDim S100000x6 ![] bcast_S_S100000x6 (constant S_ .f32 0x00000000#32)) (indexColumn col)
    (mulf (Host.gather gather_S100000x6_S3300000x1_S3300000x6_1_0_n_n_0_1_16 h (startColumn row))
      (broadcastInDim S3300000x6 ![0, 1] bcast_S3300000x1_S3300000x6_0_1 (broadcastInDim S3300000x1 ![0] bcast_S3300000_S3300000x1_0 w)))

/-- The reference's hidden layer: the first round over `x · W1`, the bias added to every row, the rectifier. -/
def hidden (ei : I32 F S2x3200000) (x : F32 F S100000x64) (W1 : F32 F S64x64) (b1 : F32 F S64) : F32 F S100000x64 :=
  maximumf
    (addf (pass64 (sources ei) (targets ei) (edgeWeights (sources ei) (targets ei)) (Host.dotGeneral dot_S100000x64_S64x64_S100000x64_1_0_0_1_n_n none x W1))
      (broadcastInDim S100000x64 ![0, 1] bcast_S1x64_S100000x64_0_1 (broadcastInDim S1x64 ![1] bcast_S64_S1x64_1 b1)))
    (broadcastInDim S100000x64 ![] bcast_S_S100000x64 (constant S_ .f32 0x00000000#32))

/-- The reference's second round, before its bias: over `hidden · W2`. -/
def logits (ei : I32 F S2x3200000) (x : F32 F S100000x64) (W1 : F32 F S64x64) (b1 : F32 F S64) (W2 : F32 F S64x6) : F32 F S100000x6 :=
  pass6 (sources ei) (targets ei) (edgeWeights (sources ei) (targets ei)) (Host.dotGeneral dot_S100000x64_S64x6_S100000x6_1_0_0_1_n_n none (hidden ei x W1 b1) W2)

/-- The reference's result: the second bias added to every row, the rows summed from zero, the sums divided by 100000. -/
def result (ei : I32 F S2x3200000) (x : F32 F S100000x64) (W1 : F32 F S64x64) (b1 : F32 F S64) (W2 : F32 F S64x6) (b2 : F32 F S6) : F32 F S6 :=
  Host.divf
    (Host.reduceAdd
      (addf (logits ei x W1 b1 W2) (broadcastInDim S100000x6 ![0, 1] bcast_S1x6_S100000x6_0_1 (broadcastInDim S1x6 ![1] bcast_S6_S1x6_1 b2)))
      (constant S_ .f32 0x00000000#32) reducesTo_S100000x6_S6_d0 h_S_)
    (broadcastInDim S6 ![] bcast_S_S6 (constant S_ .f32 0x47C35000#32))

end Cert.ReferenceIdeal.Spec

end
-- ==== Proof.RefIsNetwork.lean ====
/-
  The reference's result is the shared network's `result` of its six argument arrays: the composed term its run ends
  with is, read from the outside in, the division, the sum over the nodes, the second bias, the second round of message
  passing over the second dense layer of the hidden layer — each a named function of `SharedNetwork`, so the two terms
  are one after those names are unfolded.
-/
import proofs.«115260_j9131100472028_1_alg».proof.Proof.RefRun
import proofs.«115260_j9131100472028_1_alg».proof.Proof.SharedNetwork

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
theorem result_is_network (m : (ℓ : Loc nD τ sig) → Buf (Elt F) ℓ) (c : Dev nD) :
    RunP.res_main_v67 (F := F) m c
      = Spec.result (F := F) (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) := by
  unfold RunP.res_main_v67 Spec.result Spec.logits Spec.hidden Spec.pass6 Spec.pass64 Spec.edgeWeights Spec.invSqrtDegree Spec.startColumn Spec.indexColumn Spec.sources Spec.targets
  rfl

end Cert.ReferenceIdeal.RefValue

end
-- ==== Proof.HostReads.lean ====
/-
  What the kernel program's host stretches compute, in the shared network's names.
  Before the first region the three stretches leave the endpoints with the self-loops and the edge weights, functions
  of the edge list alone. The stretch after the first region is one round of message passing over that region's
  result, and the reshape of the first bias into a row; the stretch after the third region is a round over that
  region's result, and the reshape of the second bias; the last stretch reshapes the 1 × 6 result into a vector of 6.
  Each later stretch is read from an arbitrary state of the buffers: it reads only the endpoints, the weights and one
  feature array.
-/
import proofs.«115260_j9131100472028_1_alg».proof.Proof.Boundaries
import proofs.«115260_j9131100472028_1_alg».proof.Proof.SharedNetwork
import Idealize.ShloMosaic.Lib.StableHlo.Run

set_option maxRecDepth 16384

noncomputable section

namespace Cert.KernelIdeal.Bridge

open Cert.KernelIdeal Cert.KernelIdeal.Gen Cert.KernelIdeal.Hand
open Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-! ## Before the first region: the endpoints and the edge weights -/

set_option maxHeartbeats 4000000 in
theorem sources_read (c : Dev nD) :
    Gen.V3 m c (Proc.devRef .tc main_v3) = Cert.ReferenceIdeal.Spec.sources (F := F) (m ((c : Thread nD τ).loc main_arg1)) := by
  show StableHlo.after hostOps0_2 (StableHlo.after hostOps0_1 (StableHlo.after hostOps0 (Gen.V0 m c))) (Proc.devRef .tc main_v3) = _
  after_results_simp
  rfl

set_option maxHeartbeats 4000000 in
theorem targets_read (c : Dev nD) :
    Gen.V3 m c (Proc.devRef .tc main_v6) = Cert.ReferenceIdeal.Spec.targets (F := F) (m ((c : Thread nD τ).loc main_arg1)) := by
  show StableHlo.after hostOps0_2 (StableHlo.after hostOps0_1 (StableHlo.after hostOps0 (Gen.V0 m c))) (Proc.devRef .tc main_v6) = _
  after_results_simp
  rfl

set_option maxHeartbeats 8000000 in
theorem weights_read (c : Dev nD) :
    Gen.V3 m c (Proc.devRef .tc main_v29)
      = Cert.ReferenceIdeal.Spec.edgeWeights (F := F) (Cert.ReferenceIdeal.Spec.sources (m ((c : Thread nD τ).loc main_arg1)))
          (Cert.ReferenceIdeal.Spec.targets (m ((c : Thread nD τ).loc main_arg1))) := by
  show StableHlo.after hostOps0_2 (StableHlo.after hostOps0_1 (StableHlo.after hostOps0 (Gen.V0 m c))) (Proc.devRef .tc main_v29) = _
  after_results_simp
  rfl

/-! ## The later stretches, from any state of the buffers -/

variable (W : Valuation τ sig (Elt F))

set_option maxHeartbeats 4000000 in
theorem first_pass_read :
    StableHlo.after (hostOps1 (F := F)) W (Proc.devRef .tc main_v43)
      = Cert.ReferenceIdeal.Spec.pass64 (F := F) (W (Proc.devRef .tc main_v3)) (W (Proc.devRef .tc main_v6)) (W (Proc.devRef .tc main_v29)) (W (Proc.devRef .tc main_v30)) := by
  after_results_simp
  rfl

theorem first_bias_read :
    StableHlo.after (hostOps1 (F := F)) W (Proc.devRef .tc main_v44) = shapeCast S1x64 (W (Proc.devRef .tc main_arg3)) shapeCasts_S64_S1x64 := by
  after_results_simp
  rfl

set_option maxHeartbeats 4000000 in
theorem second_pass_read :
    StableHlo.after (hostOps3 (F := F)) W (Proc.devRef .tc main_v59)
      = Cert.ReferenceIdeal.Spec.pass6 (F := F) (W (Proc.devRef .tc main_v3)) (W (Proc.devRef .tc main_v6)) (W (Proc.devRef .tc main_v29)) (W (Proc.devRef .tc main_v46)) := by
  after_results_simp
  rfl

theorem second_bias_read :
    StableHlo.after (hostOps3 (F := F)) W (Proc.devRef .tc main_v60) = shapeCast S1x6 (W (Proc.devRef .tc main_arg5)) shapeCasts_S6_S1x6 := by
  after_results_simp
  rfl

theorem result_read :
    StableHlo.after (hostOps4 (F := F)) W (Proc.devRef .tc main_v62) = shapeCast S6 (W (Proc.devRef .tc main_v61)) shapeCasts_S1x6_S6 := by
  after_results_simp
  rfl

end Cert.KernelIdeal.Bridge

end
-- ==== Proof.Payloads.lean ====
import proofs.«115260_j9131100472028_1_alg».proof.Proof.Gen.KernelIdeal.Skeleton
import Idealize.ShloMosaic.Lib.ValueIdx
import Idealize.ShloMosaic.Lib.ValueLayout
import Idealize.ShloMosaic.PureOps.Ideal.Laws

/-! The arithmetic each of the four kernel bodies stores, read one entry at a time on the extended reals:
    the two feature products as sums over the 64 contracted coordinates, the bias-and-clamp layer entry by
    entry, and the three steps of the running column mean (start at zero, add a block's column sums, scale
    by 1/100000 and add the bias). Every statement is over arbitrary blocks of the bodies' literal shapes. -/

noncomputable section

namespace Cert.KernelIdeal.Bridge

open Cert.KernelIdeal Cert.KernelIdeal.Gen Idealize.ShloMosaic Idealize.ShloMosaic.ValueIdx

/-! ## The running column mean -/

/-- The row the mean starts from: every entry is the extended real 0. -/
theorem k3_pay1_apply (q : Fin 6) : Gen.k3_pay1 (F := Ideal) (ix2 (0 : Fin 1) q) = 0 := by
  unfold Gen.k3_pay1
  rw [shapeCast_self]
  exact Ideal.ofBits_zero_f32

/-- Reducing a [10000, 6] block along its rows: the entry the reduction inserts at row `n` above column `q`
    is the block's entry (n, q). -/
theorem lift_rows (h : S10000x6.Reduces [0] S6) (q : Fin 6) (n : Fin 10000) :
    h.lift (ix1 q) n = ix2 n q := by
  funext a
  refine Fin.ext ?_
  match a with
  | ⟨0, _⟩ => rfl
  | ⟨1, _⟩ => rfl

/-- One accumulation step: the running row plus the block's column sums. -/
theorem k3_pay2_apply (acc : Vec Ideal S1x6 .f32) (x : Vec Ideal S10000x6 .f32) (q : Fin 6) :
    Gen.k3_pay2 (F := Ideal) acc x (ix2 (0 : Fin 1) q)
      = acc (ix2 (0 : Fin 1) q) + ∑ p : Fin 10000, x (ix2 p q) := by
  unfold Gen.k3_pay2
  rw [shapeCast_self, shapeCast_self]
  rw [addf_apply]
  refine congrArg (acc (ix2 (0 : Fin 1) q) + ·) ?_
  refine (shapeCast_a_1a_apply _ shapeCasts_S6_S1x6 (0 : Fin 1) q).trans ?_
  refine (Ideal.multiReduction_add_single x 0x00000000#32 reduces_S10000x6_S6 (.inl rfl) rfl (ix1 q)).trans ?_
  exact Finset.sum_congr rfl fun n _ => congrArg x (lift_rows reduces_S10000x6_S6 q n)

/-- The scale the last step multiplies by is the real number 1/100000 (the table's value of its name), not the
    nearby binary fraction its word encodes. -/
theorem inv_rows :
    Named.named (F := Ideal) Cert.KernelIdeal.κ "inv_100000" (φ := .f32) 0x3727C5AC#32 = ((1 / 100000 : ℝ) : EReal) :=
  IdealRules.named_const.ideal_named_scalar _ _ _ _ rfl

/-- The last step: the accumulated row times 1/100000, plus the bias row. -/
theorem k3_pay3_apply (acc b : Vec Ideal S1x6 .f32) (q : Fin 6) :
    Gen.k3_pay3 (F := Ideal) acc b (ix2 (0 : Fin 1) q)
      = acc (ix2 (0 : Fin 1) q) * ((1 / 100000 : ℝ) : EReal) + b (ix2 (0 : Fin 1) q) := by
  unfold Gen.k3_pay3
  rw [shapeCast_self]
  show acc (ix2 (0 : Fin 1) q) * Named.named (F := Ideal) Cert.KernelIdeal.κ "inv_100000" (φ := .f32) 0x3727C5AC#32
      + b (ix2 (0 : Fin 1) q) = _
  rw [inv_rows]

/-! ## The bias-and-clamp layer -/

/-- Entry (p, q) of the layer: the larger of 0 and the block's entry plus the bias row's entry at column `q`. -/
theorem k1_pay1_apply (x : Vec Ideal S10000x64 .f32) (b : Vec Ideal S1x64 .f32) (p : Fin 10000) (q : Fin 64) :
    Gen.k1_pay1 (F := Ideal) x b (ix2 p q) = max (x (ix2 p q) + b (ix2 (0 : Fin 1) q)) 0 := by
  unfold Gen.k1_pay1
  rw [shapeCast_self, shapeCast_self]
  rw [maximumf_apply, addf_apply, broadcast_apply, broadcastTo_1b_ab_apply]
  show max _ (Ideal.ofBits .f32 0x00000000#32) = _
  rw [Ideal.ofBits_zero_f32]

/-! ## The two feature products -/

/-- Operand indices of the first product: the left operand is read at (row of the output, contraction coordinate), the
    right operand at (contraction coordinate, column of the output). -/
theorem lhs_first_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_first_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
theorem rhs_first_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
theorem rhs_first_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Entry (p, q) of the first product: row `p` of the block against column `q` of the weights (narrowing the
    operands' format changes nothing on the extended reals, and the accumulator starts at 0). -/
theorem k0_pay1_apply (x : Vec Ideal S10000x64 .f32) (w : Vec Ideal S64x64 .f32) (p : Fin 10000) (q : Fin 64) :
    Gen.k0_pay1 (F := Ideal) x w (ix2 p q) = ∑ k : Fin 64, x (ix2 p k) * w (ix2 k q) := by
  unfold Gen.k0_pay1
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_first_0 _ _
      | ⟨1, _⟩ => exact (lhs_first_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs_first_0 _ _).trans hk
      | ⟨1, _⟩ => exact rhs_first_1 _ _)
  rw [el, er]
  rfl

/-- Operand indices of the second product: the left operand is read at (row of the output, contraction coordinate), the
    right operand at (contraction coordinate, column of the output). -/
theorem lhs_second_0 (i : S10000x6.Idx) (c : dot_S10000x64_S64x6_S10000x6_1_0_0_1_n_n.contr.Idx) :
    (dot_S10000x64_S64x6_S10000x6_1_0_0_1_n_n.lhsIdx i c 0).val = (i 0).val := by
  unfold DotDims.lhsIdx
  rw [dif_neg (show ¬(0 : Fin S10000x64.rank) ∈ dot_S10000x64_S64x6_S10000x6_1_0_0_1_n_n.lhsBatch by decide),
    dif_pos (show (0 : Fin S10000x64.rank) ∈ dot_S10000x64_S64x6_S10000x6_1_0_0_1_n_n.lhsNonContracting by decide)]
  rfl
theorem lhs_second_1 (i : S10000x6.Idx) (c : dot_S10000x64_S64x6_S10000x6_1_0_0_1_n_n.contr.Idx) :
    (dot_S10000x64_S64x6_S10000x6_1_0_0_1_n_n.lhsIdx i c 1).val = (c ⟨0, by decide⟩).val :=
  dot_S10000x64_S64x6_S10000x6_1_0_0_1_n_n.lhsIdx_val_of_single rfl i c
theorem rhs_second_0 (i : S10000x6.Idx) (c : dot_S10000x64_S64x6_S10000x6_1_0_0_1_n_n.contr.Idx) :
    (dot_S10000x64_S64x6_S10000x6_1_0_0_1_n_n.rhsIdx i c 0).val = (c ⟨0, by decide⟩).val :=
  dot_S10000x64_S64x6_S10000x6_1_0_0_1_n_n.rhsIdx_val_of_single rfl i c
theorem rhs_second_1 (i : S10000x6.Idx) (c : dot_S10000x64_S64x6_S10000x6_1_0_0_1_n_n.contr.Idx) :
    (dot_S10000x64_S64x6_S10000x6_1_0_0_1_n_n.rhsIdx i c 1).val = (i 1).val := by
  unfold DotDims.rhsIdx
  rw [dif_neg (show ¬(1 : Fin S64x6.rank) ∈ dot_S10000x64_S64x6_S10000x6_1_0_0_1_n_n.rhsBatch by decide),
    dif_pos (show (1 : Fin S64x6.rank) ∈ dot_S10000x64_S64x6_S10000x6_1_0_0_1_n_n.rhsNonContracting by decide)]
  rfl

/-- Entry (p, q) of the second product: row `p` of the block against column `q` of the [64, 6] weights. -/
theorem k2_pay1_apply (x : Vec Ideal S10000x64 .f32) (w : Vec Ideal S64x6 .f32) (p : Fin 10000) (q : Fin 6) :
    Gen.k2_pay1 (F := Ideal) x w (ix2 p q) = ∑ k : Fin 64, x (ix2 p k) * w (ix2 k q) := by
  unfold Gen.k2_pay1
  rw [shapeCast_self]
  refine (Ideal.matmul_constant_zero_apply dot_S10000x64_S64x6_S10000x6_1_0_0_1_n_n none _ _ (ix2 p q)).trans ?_
  rw [← Equiv.sum_comp (contrEquiv1 dot_S10000x64_S64x6_S10000x6_1_0_0_1_n_n 64 rfl rfl).symm]
  refine Finset.sum_congr rfl fun k _ => ?_
  have hk := contrEquiv1_symm_val dot_S10000x64_S64x6_S10000x6_1_0_0_1_n_n 64 rfl rfl k
  have el : dot_S10000x64_S64x6_S10000x6_1_0_0_1_n_n.lhsIdx (ix2 p q) ((contrEquiv1 dot_S10000x64_S64x6_S10000x6_1_0_0_1_n_n 64 rfl rfl).symm k) = ix2 p k :=
    funext fun a => Fin.ext (by
      match a with
      | ⟨0, _⟩ => exact lhs_second_0 _ _
      | ⟨1, _⟩ => exact (lhs_second_1 _ _).trans hk)
  have er : dot_S10000x64_S64x6_S10000x6_1_0_0_1_n_n.rhsIdx (ix2 p q) ((contrEquiv1 dot_S10000x64_S64x6_S10000x6_1_0_0_1_n_n 64 rfl rfl).symm k) = ix2 k q :=
    funext fun a => Fin.ext (by
      match a with
      | ⟨0, _⟩ => exact (rhs_second_0 _ _).trans hk
      | ⟨1, _⟩ => exact rhs_second_1 _ _)
  rw [el, er]
  rfl

end Cert.KernelIdeal.Bridge

end
-- ==== Proof.BlocksToArrays.lean ====
import proofs.«115260_j9131100472028_1_alg».proof.Proof.ProjectRegion
import proofs.«115260_j9131100472028_1_alg».proof.Proof.BiasReluRegion
import proofs.«115260_j9131100472028_1_alg».proof.Proof.ClassifyRegion
import proofs.«115260_j9131100472028_1_alg».proof.Proof.Payloads
import Idealize.ShloMosaic.Lib.ValueIdx
import Idealize.ShloMosaic.Lib.Pipeline.Value

/-! Each of the first three regions runs its body on ten bands of 10000 rows and writes every band back; here
    the ten bands are put together: after the region, the result array is ONE function of the arrays the region
    found — the whole product for the two feature products, the whole bias-and-clamp layer for the middle one. -/

noncomputable section

namespace Cert.KernelIdeal.Blocks

open Cert.KernelIdeal Cert.KernelIdeal.Gen Cert.KernelIdeal.Hand Cert.KernelIdeal.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets every body access uses, as the constant function. -/
theorem hz : (![0, 0] : Fin 2 → Nat) = fun _ => 0 := funext fun a => by fin_cases a <;> rfl

/-! ## Region 0: the first feature product -/

/-- The whole product: entry i is row `i 0` of the left array against column `i 1` of the right one. -/
def product0 (A : FVec Ideal S100000x64 .f32) (W : FVec Ideal S64x64 .f32) : FVec Ideal S100000x64 .f32 :=
  fun i => ∑ k : Fin 64, A (ix2 (i 0) k) * W (ix2 k (i 1))

theorem product0_apply (A : FVec Ideal S100000x64 .f32) (W : FVec Ideal S64x64 .f32) (n : Fin 100000) (q : Fin 64) :
    product0 A W (ix2 n q) = ∑ k : Fin 64, A (ix2 n k) * W (ix2 k q) := rfl

/-- Where the three windows' blocks sit at grid point `t`: the left operand's and the result's blocks are the
    `t`-th band of 10000 rows, the right operand's block is the whole array. Decided over the ten points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is the `t`-th band of rows of the whole product: an entry of the body's product of
    the two blocks is a sum over the contracted coordinate, the left block's entries are the left array's in band
    `t`, and the right block is the right array. -/
theorem flushed0_eq (c : Dev nD) (t : Fin cfg0.N) :
    (dat0 V c).flushed 2 t
      = ((cfg0.win 2).blk t).view.read (Elt Ideal) (product0 (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e00, e01, e10, e11, e20, e21⟩ := idx_facts0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = product0 (V c main_arg0) (V c main_arg2) (((cfg0.win 2).blk t).view.emb (ix2 p q))
  refine (k0_pay1_apply (iblk0 V c 0 t) (iblk0 V c 1 t) p q).trans ?_
  unfold product0
  refine Finset.sum_congr rfl fun k _ => ?_
  have h0 : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 64 + 1 * k.val = k.val
      omega
  have h1 : iblk0 V c 1 t (ix2 k q)
      = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ =>
      show win0_1.index t (0 : Fin 2) * 64 + 1 * k.val = k.val
      omega
    | ⟨1, _⟩ =>
      show win0_1.index t (1 : Fin 2) * 64 + 1 * q.val = win0_2.index t (1 : Fin 2) * 64 + 1 * q.val
      omega
  rw [h0, h1]

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the result lies in the block of point `r / 10000`, and every point writes back. -/
theorem cover0 (i : S100000x64.Idx) :
    ∃ t : Fin cfg0.N, (cfg0.win 2).flush t = true ∧ i ∈ ((cfg0.win 2).blk t).view.set := by
  have hN : cfg0.N = 10 := N_0
  have hi0 : (i 0).val < 100000 := idx2_lt0 i
  have hi1 : (i 1).val < 64 := idx2_lt1 i
  let t : Fin cfg0.N := ⟨(i 0).val / 10000, by rw [hN]; omega⟩
  have ht : t.val = (i 0).val / 10000 := rfl
  obtain ⟨e00, e01, e10, e11, e20, e21⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the ten points the result array holds the whole product of the two arrays the region found. -/
theorem final0 (c : Dev nD) :
    (dat0 V c).arrAt 2 cfg0.N = product0 (V c main_arg0) (V c main_arg2) :=
  (dat0 V c).arrAt_eq_of_cover 2 (product0 (V c main_arg0) (V c main_arg2)) (fun t _ => flushed0_eq V c t) cover0

/-! ## Region 1: the bias row added to every row, then the clamp at zero -/

/-- The whole layer: entry i is the larger of 0 and the array's entry plus the bias row's entry in column `i 1`. -/
def biasClamp (M : FVec Ideal S100000x64 .f32) (b : FVec Ideal S1x64 .f32) : FVec Ideal S100000x64 .f32 :=
  fun i => max (M i + b (ix2 (0 : Fin 1) (i 1))) 0

theorem biasClamp_apply (M : FVec Ideal S100000x64 .f32) (b : FVec Ideal S1x64 .f32) (n : Fin 100000) (q : Fin 64) :
    biasClamp M b (ix2 n q) = max (M (ix2 n q) + b (ix2 (0 : Fin 1) q)) 0 := rfl

/-- Where the three windows' blocks sit at grid point `t`: the input's and the result's blocks are the `t`-th band of
    10000 rows, the bias row's block is the whole row. Decided over the ten points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is the `t`-th band of rows of the whole layer. -/
theorem flushed1_eq (c : Dev nD) (t : Fin cfg1.N) :
    (dat1 V c).flushed 2 t
      = ((cfg1.win 2).blk t).view.read (Elt Ideal) (biasClamp (V c main_v43) (V c main_v44)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e00, e01, e10, e11, e20, e21⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = biasClamp (V c main_v43) (V c main_v44) (((cfg1.win 2).blk t).view.emb (ix2 p q))
  refine (k1_pay1_apply (iblk1 V c 0 t) (iblk1 V c 1 t) p q).trans ?_
  unfold biasClamp
  have h0 : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ =>
      show win1_0.index t (0 : Fin 2) * 10000 + 1 * p.val = win1_2.index t (0 : Fin 2) * 10000 + 1 * p.val
      omega
    | ⟨1, _⟩ =>
      show win1_0.index t (1 : Fin 2) * 64 + 1 * q.val = win1_2.index t (1 : Fin 2) * 64 + 1 * q.val
      omega
  have h1 : iblk1 V c 1 t (ix2 (0 : Fin 1) q)
      = V c main_v44 (ix2 (0 : Fin 1) ((((cfg1.win 2).blk t).view.emb (ix2 p q)) 1)) := by
    show V c main_v44 (((cfg1.win 1).blk t).view.emb (ix2 (0 : Fin 1) q)) = _
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 64 + 1 * q.val = win1_2.index t (1 : Fin 2) * 64 + 1 * q.val
      omega
  rw [h0, h1]

/-- An index of the result array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row `r` of the result lies in the block of point `r / 10000`, and every point writes back. -/
theorem cover1 (i : S100000x64.Idx) :
    ∃ t : Fin cfg1.N, (cfg1.win 2).flush t = true ∧ i ∈ ((cfg1.win 2).blk t).view.set := by
  have hN : cfg1.N = 10 := N_1
  have hi0 : (i 0).val < 100000 := idx2_lt0 i
  have hi1 : (i 1).val < 64 := idx2_lt1 i
  let t : Fin cfg1.N := ⟨(i 0).val / 10000, by rw [hN]; omega⟩
  have ht : t.val = (i 0).val / 10000 := rfl
  obtain ⟨e00, e01, e10, e11, e20, e21⟩ := idx_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- After the ten points the result array holds the whole layer of the two arrays the region found. -/
theorem final1 (c : Dev nD) :
    (dat1 V c).arrAt 2 cfg1.N = biasClamp (V c main_v43) (V c main_v44) :=
  (dat1 V c).arrAt_eq_of_cover 2 (biasClamp (V c main_v43) (V c main_v44)) (fun t _ => flushed1_eq V c t) cover1

/-! ## Region 2: the second feature product -/

/-- The whole product: entry i is row `i 0` of the left array against column `i 1` of the right one. -/
def product2 (A : FVec Ideal S100000x64 .f32) (W : FVec Ideal S64x6 .f32) : FVec Ideal S100000x6 .f32 :=
  fun i => ∑ k : Fin 64, A (ix2 (i 0) k) * W (ix2 k (i 1))

theorem product2_apply (A : FVec Ideal S100000x64 .f32) (W : FVec Ideal S64x6 .f32) (n : Fin 100000) (q : Fin 6) :
    product2 A W (ix2 n q) = ∑ k : Fin 64, A (ix2 n k) * W (ix2 k q) := rfl

/-- Where the three windows' blocks sit at grid point `t`: the left operand's and the result's blocks are the
    `t`-th band of 10000 rows, the right operand's block is the whole array. Decided over the ten points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is the `t`-th band of rows of the whole product: an entry of the body's product of
    the two blocks is a sum over the contracted coordinate, the left block's entries are the left array's in band
    `t`, and the right block is the right array. -/
theorem flushed2_eq (c : Dev nD) (t : Fin cfg2.N) :
    (dat2 V c).flushed 2 t
      = ((cfg2.win 2).blk t).view.read (Elt Ideal) (product2 (V c main_v45) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x6) hz]
  obtain ⟨e00, e01, e10, e11, e20, e21⟩ := idx_facts2 t
  funext j
  obtain ⟨p, q, rfl⟩ : ∃ (p : Fin 10000) (q : Fin 6), j = ix2 p q := ⟨j 0, j 1, eq_ix2 j⟩
  show k2_pay1 (iblk2 V c 0 t) (iblk2 V c 1 t) (ix2 p q)
    = product2 (V c main_v45) (V c main_arg4) (((cfg2.win 2).blk t).view.emb (ix2 p q))
  refine (k2_pay1_apply (iblk2 V c 0 t) (iblk2 V c 1 t) p q).trans ?_
  unfold product2
  refine Finset.sum_congr rfl fun k _ => ?_
  have h0 : iblk2 V c 0 t (ix2 p k)
      = V c main_v45 (ix2 ((((cfg2.win 2).blk t).view.emb (ix2 p q)) 0) k) := by
    show V c main_v45 (((cfg2.win 0).blk t).view.emb (ix2 p k)) = _
    refine congrArg (V c main_v45) (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 64 + 1 * k.val = k.val
      omega
  have h1 : iblk2 V c 1 t (ix2 k q)
      = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ =>
      show win2_1.index t (0 : Fin 2) * 64 + 1 * k.val = k.val
      omega
    | ⟨1, _⟩ =>
      show win2_1.index t (1 : Fin 2) * 6 + 1 * q.val = win2_2.index t (1 : Fin 2) * 6 + 1 * q.val
      omega
  rw [h0, h1]

/-- An index of the result array is in point `t`'s block iff each coordinate is in the block's range on its axis. -/
theorem mem_blk2 (t : Fin cfg2.N) (i : S100000x6.Idx) :
    i ∈ ((cfg2.win 2).blk t).view.set ↔ ∀ a : Fin 2, win2_2.index t a * S10000x6.size a ≤ (i a).val
      ∧ (i a).val < win2_2.index t a * S10000x6.size a + S10000x6.size a := by
  show i ∈ ((View.whole main_v46).slice (win2_2.rect t)).set ↔ _
  rw [View.set_slice_whole, Rect.mem_set_unit]
  exact Iff.rfl

/-- Row `r` of the result lies in the block of point `r / 10000`, and every point writes back. -/
theorem cover2 (i : S100000x6.Idx) :
    ∃ t : Fin cfg2.N, (cfg2.win 2).flush t = true ∧ i ∈ ((cfg2.win 2).blk t).view.set := by
  have hN : cfg2.N = 10 := N_2
  have hi0 : (i 0).val < 100000 := idx2_lt0 i
  have hi1 : (i 1).val < 6 := idx2_lt1 i
  let t : Fin cfg2.N := ⟨(i 0).val / 10000, by rw [hN]; omega⟩
  have ht : t.val = (i 0).val / 10000 := rfl
  obtain ⟨e00, e01, e10, e11, e20, e21⟩ := idx_facts2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 6 ≤ (i 1).val ∧ (i 1).val < win2_2.index t (1 : Fin 2) * 6 + 6
    omega

/-- After the ten points the result array holds the whole product of the two arrays the region found. -/
theorem final2 (c : Dev nD) :
    (dat2 V c).arrAt 2 cfg2.N = product2 (V c main_v45) (V c main_arg4) :=
  (dat2 V c).arrAt_eq_of_cover 2 (product2 (V c main_v45) (V c main_arg4)) (fun t _ => flushed2_eq V c t) cover2

end Cert.KernelIdeal.Blocks

end
-- ==== Proof.MeanLaw.lean ====
import Mathlib
import Idealize.ShloMosaic.PureOps.Ideal

/-! The mean of rows with a bias added before the sum equals the mean of the rows with the bias added after. -/

noncomputable section

namespace Cert.MeanLaw

open Idealize.ShloMosaic

/-- On the extended reals: for `a` over an index set of 100000 elements and a real `b`, the quotient by 100000 of the
    sum (from 0) of `a n + b` is the sum of `a` times the real 1/100000, plus `b`. The entries `a n` are arbitrary:
    they may be infinite, and then so are both sides, with the same sign, since only a positive real multiplies the
    sum and only the real `b` is added to it. Only the finiteness of `b` is used: with `b` infinite the entries
    `a n + b` can cancel differently from the sum `(∑ a) + b`. -/
theorem mean_bias {ι : Type*} [Fintype ι] (hN : Fintype.card ι = 100000) (a : ι → EReal) (b : ℝ) :
    Ideal.div ((0 : EReal) + ∑ n, (a n + (b : EReal))) ((100000 : ℝ) : EReal)
      = (∑ n, a n) * ((1 / 100000 : ℝ) : EReal) + (b : EReal) := by
  rw [Ideal.div_coe (by norm_num : (100000 : ℝ) ≠ 0), zero_add, Finset.sum_add_distrib, Finset.sum_const,
    Finset.card_univ, hN, ← EReal.coe_nsmul]
  generalize (∑ n, a n) = s
  have hpos : (0 : EReal) < ((1 / 100000 : ℝ) : EReal) := EReal.coe_pos.2 (by norm_num)
  induction s using EReal.rec with
  | bot => rw [EReal.bot_add, EReal.bot_mul_of_pos hpos, EReal.bot_add]
  | top => rw [EReal.top_add_coe, EReal.top_mul_of_pos hpos, EReal.top_add_coe]
  | coe r =>
    rw [← EReal.coe_add, ← EReal.coe_mul, ← EReal.coe_mul, ← EReal.coe_add]
    refine congrArg _ ?_
    rw [nsmul_eq_mul]
    push_cast
    ring

/-- The same over the literal row range. -/
theorem mean_bias_fin (a : Fin 100000 → EReal) (b : ℝ) :
    Ideal.div ((0 : EReal) + ∑ n, (a n + (b : EReal))) ((100000 : ℝ) : EReal)
      = (∑ n, a n) * ((1 / 100000 : ℝ) : EReal) + (b : EReal) :=
  mean_bias (Fintype.card_fin _) a b

/-- The same for a bias given as an extended real known to be finite. -/
theorem mean_bias_of_ne (a : Fin 100000 → EReal) (b : EReal) (hbot : b ≠ ⊥) (htop : b ≠ ⊤) :
    Ideal.div ((0 : EReal) + ∑ n, (a n + b)) ((100000 : ℝ) : EReal)
      = (∑ n, a n) * ((1 / 100000 : ℝ) : EReal) + b := by
  lift b to ℝ using ⟨htop, hbot⟩
  exact mean_bias_fin a b

/-- A sum over the 100000 rows is the sum over the ten blocks of 10000 consecutive rows of each block's sum: row
    `n` is row `n % 10000` of block `n / 10000`. Holds in any commutative additive monoid, the extended reals
    included. -/
theorem sum_blocks {M : Type*} [AddCommMonoid M] (a : Fin 100000 → M) :
    ∑ n, a n = ∑ t : Fin 10, ∑ p : Fin 10000,
      a ⟨t.val * 10000 + p.val, by have := t.isLt; have := p.isLt; omega⟩ := by
  rw [← Fintype.sum_prod_type' (f := fun (t : Fin 10) (p : Fin 10000) =>
    a ⟨t.val * 10000 + p.val, by have := t.isLt; have := p.isLt; omega⟩)]
  refine (Equiv.sum_comp (finProdFinEquiv (m := 10) (n := 10000)) a).symm.trans ?_
  refine Finset.sum_congr rfl fun x _ => congrArg a (Fin.ext ?_)
  show x.2.val + 10000 * x.1.val = x.1.val * 10000 + x.2.val
  omega

end Cert.MeanLaw

end
-- ==== Proof.MeanToArray.lean ====
import proofs.«115260_j9131100472028_1_alg».proof.Proof.MeanRegion
import proofs.«115260_j9131100472028_1_alg».proof.Proof.Payloads
import proofs.«115260_j9131100472028_1_alg».proof.Proof.MeanLaw
import Idealize.ShloMosaic.Lib.ValueIdx
import Idealize.ShloMosaic.Lib.Pipeline.Value

/-! The fourth region keeps a running row of column sums over its ten bands of 10000 rows and, at the last
    band, writes that row scaled by 1/100000 plus the bias row. Here the ten steps are added up: the running row
    after band `n` is the sum of the first `n + 1` bands' column sums, after the last band the column sums of the
    whole array, and so the result array is the mean of the rows plus the bias — which, the bias being finite, is
    also the quotient by 100000 of the sum of the rows with the bias added to each. -/

noncomputable section

namespace Cert.KernelIdeal.Blocks3

open Cert.KernelIdeal Cert.KernelIdeal.Gen Cert.KernelIdeal.Hand Cert.KernelIdeal.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The result as one function of the two arrays -/

/-- The mean of the rows plus the bias row: entry i is the sum of column `i 1` times the real 1/100000, plus the
    bias row's entry in that column. -/
def rowMean (A : FVec Ideal S100000x6 .f32) (B : FVec Ideal S1x6 .f32) : FVec Ideal S1x6 .f32 :=
  fun i => (∑ n : Fin 100000, A (ix2 n (i 1))) * ((1 / 100000 : ℝ) : EReal) + B (ix2 (0 : Fin 1) (i 1))

theorem rowMean_apply (A : FVec Ideal S100000x6 .f32) (B : FVec Ideal S1x6 .f32) (q : Fin 6) :
    rowMean A B (ix2 (0 : Fin 1) q)
      = (∑ n : Fin 100000, A (ix2 n q)) * ((1 / 100000 : ℝ) : EReal) + B (ix2 (0 : Fin 1) q) := rfl

/-- With a finite bias entry, that is the quotient by 100000 of the sum, from 0, of the column's entries each with
    the bias entry added. -/
theorem rowMean_eq_div (A : FVec Ideal S100000x6 .f32) (B : FVec Ideal S1x6 .f32) (q : Fin 6)
    (hbot : B (ix2 (0 : Fin 1) q) ≠ ⊥) (htop : B (ix2 (0 : Fin 1) q) ≠ ⊤) :
    rowMean A B (ix2 (0 : Fin 1) q)
      = Ideal.div ((0 : EReal) + ∑ n : Fin 100000, (A (ix2 n q) + B (ix2 (0 : Fin 1) q))) ((100000 : ℝ) : EReal) :=
  (Cert.MeanLaw.mean_bias_of_ne (fun n => A (ix2 n q)) (B (ix2 (0 : Fin 1) q)) hbot htop).symm

/-! ## The column sums band by band -/

/-- The sum of column `q` over band `t` of 10000 rows (zero past the ten bands). -/
def bandSum (A : FVec Ideal S100000x6 .f32) (q : Fin 6) (t : ℕ) : EReal :=
  if h : t < 10 then ∑ p : Fin 10000, A (ix2 (⟨t * 10000 + p.val, by have := p.isLt; omega⟩ : Fin 100000) q) else 0

/-- A block that holds band `t` of the array has, in column `q`, that band's sum. -/
theorem bandSum_of_block (A : FVec Ideal S100000x6 .f32) (q : Fin 6) (t : ℕ) (ht : t < 10) (x : Vec Ideal S10000x6 .f32)
    (hx : ∀ p : Fin 10000, x (ix2 p q) = A (ix2 (⟨t * 10000 + p.val, by have := p.isLt; omega⟩ : Fin 100000) q)) :
    ∑ p : Fin 10000, x (ix2 p q) = bandSum A q t := by
  unfold bandSum
  rw [dif_pos ht]
  exact Finset.sum_congr rfl fun p _ => hx p

/-- The ten bands' sums add up to the column's sum over all 100000 rows. -/
theorem bands_total (A : FVec Ideal S100000x6 .f32) (q : Fin 6) :
    ∑ t ∈ Finset.range 10, bandSum A q t = ∑ n : Fin 100000, A (ix2 n q) := by
  rw [Cert.MeanLaw.sum_blocks (fun n => A (ix2 n q)), ← Fin.sum_univ_eq_sum_range (fun t => bandSum A q t) 10]
  refine Finset.sum_congr rfl fun t _ => ?_
  unfold bandSum
  rw [dif_pos t.isLt]

/-! ## The windows' blocks -/

theorem hz : (![0, 0] : Fin 2 → Nat) = fun _ => 0 := funext fun a => by fin_cases a <;> rfl

/-- Where the three windows' blocks sit at grid point `t`: the input's block is the `t`-th band of 10000 rows, the
    bias row's and the result's blocks are their whole arrays. Decided over the ten points. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

theorem point_lt (t : Fin cfg3.N) : t.val < 10 := lt_of_lt_of_eq t.isLt (show cfg3.N = 10 from N_3)

/-- The input window's block at point `t` holds band `t` of the array. -/
theorem iblk3_0_apply (c : Dev nD) (t : Fin cfg3.N) (p : Fin 10000) (q : Fin 6) :
    iblk3 V c 0 t (ix2 p q)
      = V c main_v59 (ix2 (⟨t.val * 10000 + p.val, by have := point_lt t; have := p.isLt; omega⟩ : Fin 100000) q) := by
  obtain ⟨e00, e01, e10, e11, e20, e21⟩ := idx_facts3 t
  show V c main_v59 (((cfg3.win 0).blk t).view.emb (ix2 p q)) = _
  refine congrArg (V c main_v59) (funext fun a => Fin.ext ?_)
  match a with
  | ⟨0, _⟩ =>
    show win3_0.index t (0 : Fin 2) * 10000 + 1 * p.val = t.val * 10000 + p.val
    omega
  | ⟨1, _⟩ =>
    show win3_0.index t (1 : Fin 2) * 6 + 1 * q.val = q.val
    omega

/-- The bias window's block is the bias row, at every point. -/
theorem iblk3_1_apply (c : Dev nD) (t : Fin cfg3.N) (q : Fin 6) :
    iblk3 V c 1 t (ix2 (0 : Fin 1) q) = V c main_v60 (ix2 (0 : Fin 1) q) := by
  obtain ⟨e00, e01, e10, e11, e20, e21⟩ := idx_facts3 t
  show V c main_v60 (((cfg3.win 1).blk t).view.emb (ix2 (0 : Fin 1) q)) = _
  refine congrArg (V c main_v60) (funext fun a => Fin.ext ?_)
  match a with
  | ⟨0, _⟩ =>
    show win3_1.index t (0 : Fin 2) * 1 + 1 * 0 = 0
    omega
  | ⟨1, _⟩ =>
    show win3_1.index t (1 : Fin 2) * 6 + 1 * q.val = q.val
    omega

/-! ## The running row after each point -/

/-- After point `n` the running row holds, in column `q`, the sums of bands 0 to `n`. -/
theorem acc3_apply (c : Dev nD) (q : Fin 6) : ∀ (n : ℕ) (h : n < cfg3.N),
    acc3 V c n h (ix2 (0 : Fin 1) q) = ∑ t ∈ Finset.range (n + 1), bandSum (V c main_v59) q t
  | 0, h => by
    refine (k3_pay2_apply (k3_pay1 (F := Ideal)) (iblk3 V c 0 ⟨0, h⟩) q).trans ?_
    rw [k3_pay1_apply, zero_add, Finset.sum_range_one]
    exact bandSum_of_block (V c main_v59) q 0 (by decide) (iblk3 V c 0 ⟨0, h⟩)
      (fun p => iblk3_0_apply V c ⟨0, h⟩ p q)
  | n + 1, h => by
    refine (k3_pay2_apply (acc3 V c n (Nat.lt_of_succ_lt h)) (iblk3 V c 0 ⟨n + 1, h⟩) q).trans ?_
    rw [acc3_apply c q n (Nat.lt_of_succ_lt h), Finset.sum_range_succ _ (n + 1)]
    refine congrArg (fun z => (∑ t ∈ Finset.range (n + 1), bandSum (V c main_v59) q t) + z) ?_
    exact bandSum_of_block (V c main_v59) q (n + 1) (point_lt ⟨n + 1, h⟩) (iblk3 V c 0 ⟨n + 1, h⟩)
      (fun p => iblk3_0_apply V c ⟨n + 1, h⟩ p q)

/-! ## The one write-back, and the result array -/

/-- The last point writes back the whole result: the mean of the rows plus the bias row. -/
theorem flushed3_eq (c : Dev nD) (t : Fin cfg3.N) (hf : (cfg3.win 2).flush t = true) :
    (dat3 V c).flushed 2 t
      = ((cfg3.win 2).blk t).view.read (Elt Ideal) (rowMean (V c main_v59) (V c main_v60)) := by
  have h9 : t.val = 9 := by have := (flush3_2 t).mp hf; have := point_lt t; omega
  obtain ⟨e00, e01, e10, e11, e20, e21⟩ := idx_facts3 t
  show (cfg3.win 2).cut (grid3.coords t) ((dat3 V c).after 2 t) = _
  rw [after3_2_last V c t h9]
  funext j
  obtain ⟨u, q, rfl⟩ : ∃ (u : Fin 1) (q : Fin 6), j = ix2 u q := ⟨j 0, j 1, eq_ix2 j⟩
  obtain rfl : u = 0 := Subsingleton.elim _ _
  have hemb : ((cfg3.win 2).blk t).view.emb (ix2 (0 : Fin 1) q) = ix2 (0 : Fin 1) q :=
    funext fun a => Fin.ext (by
      match a with
      | ⟨0, _⟩ =>
        show win3_2.index t (0 : Fin 2) * 1 + 1 * 0 = 0
        omega
      | ⟨1, _⟩ =>
        show win3_2.index t (1 : Fin 2) * 6 + 1 * q.val = q.val
        omega)
  show k3_pay3 (acc3 V c 9 _) (iblk3 V c 1 t) (ix2 (0 : Fin 1) q)
    = rowMean (V c main_v59) (V c main_v60) (((cfg3.win 2).blk t).view.emb (ix2 (0 : Fin 1) q))
  rw [hemb, rowMean_apply]
  refine (k3_pay3_apply (acc3 V c 9 _) (iblk3 V c 1 t) q).trans ?_
  rw [acc3_apply V c q 9 _, bands_total, iblk3_1_apply V c t q]

/-- An index of the result array is in point `t`'s block iff each coordinate is in the block's range on its axis. -/
theorem mem_blk3 (t : Fin cfg3.N) (i : S1x6.Idx) :
    i ∈ ((cfg3.win 2).blk t).view.set ↔ ∀ a : Fin 2, win3_2.index t a * S1x6.size a ≤ (i a).val
      ∧ (i a).val < win3_2.index t a * S1x6.size a + S1x6.size a := by
  show i ∈ ((View.whole main_v61).slice (win3_2.rect t)).set ↔ _
  rw [View.set_slice_whole, Rect.mem_set_unit]
  exact Iff.rfl

/-- The last point's block is the whole result array. -/
theorem cover3 (i : S1x6.Idx) :
    ∃ t : Fin cfg3.N, (cfg3.win 2).flush t = true ∧ i ∈ ((cfg3.win 2).blk t).view.set := by
  have hN : cfg3.N = 10 := N_3
  have hi0 : (i 0).val < 1 := idx2_lt0 i
  have hi1 : (i 1).val < 6 := idx2_lt1 i
  let t : Fin cfg3.N := ⟨9, by rw [hN]; decide⟩
  have ht : t.val = 9 := rfl
  obtain ⟨e00, e01, e10, e11, e20, e21⟩ := idx_facts3 t
  refine ⟨t, (flush3_2 t).mpr (by rw [ht]), ?_⟩
  rw [mem_blk3]
  intro a
  match a with
  | ⟨0, _⟩ =>
    show win3_2.index t (0 : Fin 2) * 1 ≤ (i 0).val ∧ (i 0).val < win3_2.index t (0 : Fin 2) * 1 + 1
    omega
  | ⟨1, _⟩ =>
    show win3_2.index t (1 : Fin 2) * 6 ≤ (i 1).val ∧ (i 1).val < win3_2.index t (1 : Fin 2) * 6 + 6
    omega

/-- After the ten points the result array holds the mean of the rows of the array the region found, plus the bias
    row it found. -/
theorem final3 (c : Dev nD) :
    (dat3 V c).arrAt 2 cfg3.N = rowMean (V c main_v59) (V c main_v60) :=
  (dat3 V c).arrAt_eq_of_cover 2 (rowMean (V c main_v59) (V c main_v60)) (fun t hf => flushed3_eq V c t hf) cover3

end Cert.KernelIdeal.Blocks3

end
-- ==== Proof.RefStages.lean ====
import proofs.«115260_j9131100472028_1_alg».proof.Proof.Gen.ReferenceIdeal
import Idealize.ShloMosaic.Lib.ValueIdx
import Idealize.ShloMosaic.Lib.Pipeline.Value
import Idealize.ShloMosaic.PureOps.Ideal.Laws

/-! The reference's four arithmetic stages — the two feature products, the bias-and-clamp layer, and the mean of
    the rows with the bias added — read one entry at a time on the extended reals, over arbitrary arrays of the
    stages' literal shapes. -/

noncomputable section

namespace Cert.ReferenceIdeal.RefValue

open Cert.ReferenceIdeal Cert.ReferenceIdeal.Gen Idealize.ShloMosaic Idealize.ShloMosaic.ValueIdx

/-! ## The host's broadcasts read at an index -/

/-- A vector laid out as the one row of a [1, b] array reads, at (u, c), the vector at c. -/
theorem row_of_vector {α : Type} {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun a => ?_
  match a with
  | ⟨0, _⟩ =>
    show c.val = if b = 1 then 0 else c.val
    split
    · have := c.isLt; omega
    · rfl

/-- One row repeated down a [a, b] array reads, at (n, c), the row at c. -/
theorem rows_of_row {α : Type} {a b : ℕ} (x : (⟨2, ![1, b]⟩ : Shape).Idx → α)
    (h : (⟨2, ![1, b]⟩ : Shape).BroadcastsInDim ⟨2, ![a, b]⟩ ![0, 1]) (n : Fin a) (c : Fin b) :
    broadcastInDim ⟨2, ![a, b]⟩ ![0, 1] h x (ix2 n c) = x (ix2 (0 : Fin 1) c) := by
  refine broadcastInDim_apply _ h x (ix2 n c) (ix2 (0 : Fin 1) c) fun ax => ?_
  match ax with
  | ⟨0, _⟩ => rfl
  | ⟨1, _⟩ =>
    show c.val = if b = 1 then 0 else c.val
    split
    · have := c.isLt; omega
    · rfl

/-- A scalar repeated over any shape reads the scalar everywhere. -/
theorem splat_of_scalar {α : Type} {t : Shape} (x : S_.Idx → α) (h : S_.BroadcastsInDim t ![]) (j : t.Idx) :
    broadcastInDim t ![] h x j = x ix0 :=
  broadcastInDim_apply _ h x j ix0 fun a => a.elim0

/-- The divisor's word denotes the real number 100000. -/
theorem ofBits_rows : Ideal.ofBits .f32 0x47C35000#32 = ((100000 : ℝ) : EReal) := by
  simp [Ideal.ofBits, Ideal.ieee, -EReal.coe_mul]; norm_num

/-! ## The mean of the rows, bias added first -/

/-- Reducing a [100000, 6] array along its rows: the entry the reduction inserts at row `n` above column `q` is
    the array's entry (n, q). -/
theorem lift_rows (h : S100000x6.Reduces [0] S6) (q : Fin 6) (n : Fin 100000) :
    h.lift (ix1 q) n = ix2 n q := by
  funext a
  refine Fin.ext ?_
  match a with
  | ⟨0, _⟩ => rfl
  | ⟨1, _⟩ => rfl

/-- Column `q` of the host's sum of a [100000, 6] array along its rows, started at 0. -/
theorem column_sum (y : FVec Ideal S100000x6 .f32) (q : Fin 6) :
    Host.reduceAdd (F := Ideal) y (constant (F := Ideal) S_ .f32 0x00000000#32) reducesTo_S100000x6_S6_d0 h_S_ (ix1 q)
      = (0 : EReal) + ∑ n : Fin 100000, y (ix2 n q) := by
  simp only [Host.reduceAdd, Ideal.hostReduceAdd_def]
  rw [Ideal.hostReduceAdd_single reducesTo_S100000x6_S6_d0 (by decide)]
  rw [constant_apply, Ideal.ofBits_zero_f32]
  exact congrArg (fun z => (0 : EReal) + z) (Finset.sum_congr rfl fun n _ => congrArg y (lift_rows _ q n))

/-- Entry `q` of the column sums: the sum over all 100000 rows, started at 0, of the entry (n, q) plus the bias at `q`. -/
theorem sum_stage_apply (S : FVec Ideal S100000x6 .f32) (b : FVec Ideal S6 .f32) (q : Fin 6) :
    Host.reduceAdd (F := Ideal)
        (addf S (broadcastInDim S100000x6 ![0, 1] bcast_S1x6_S100000x6_0_1
          (broadcastInDim S1x6 ![1] bcast_S6_S1x6_1 b)))
        (constant (F := Ideal) S_ .f32 0x00000000#32) reducesTo_S100000x6_S6_d0 h_S_ (ix1 q)
      = (0 : EReal) + ∑ n : Fin 100000, (S (ix2 n q) + b (ix1 q)) := by
  rw [column_sum]
  refine congrArg (fun z => (0 : EReal) + z) (Finset.sum_congr rfl fun n _ => ?_)
  rw [addf_apply, rows_of_row, row_of_vector]

/-- Entry `q` of the reference's result: that sum divided by the real 100000. -/
theorem mean_stage_apply (S : FVec Ideal S100000x6 .f32) (b : FVec Ideal S6 .f32) (q : Fin 6) :
    Host.divf (F := Ideal)
        (Host.reduceAdd (F := Ideal)
          (addf S (broadcastInDim S100000x6 ![0, 1] bcast_S1x6_S100000x6_0_1
            (broadcastInDim S1x6 ![1] bcast_S6_S1x6_1 b)))
          (constant (F := Ideal) S_ .f32 0x00000000#32) reducesTo_S100000x6_S6_d0 h_S_)
        (broadcastInDim S6 ![] bcast_S_S6 (constant (F := Ideal) S_ .f32 0x47C35000#32)) (ix1 q)
      = Ideal.div ((0 : EReal) + ∑ n : Fin 100000, (S (ix2 n q) + b (ix1 q))) ((100000 : ℝ) : EReal) := by
  unfold Host.divf
  simp only [Ideal.hostDivf_def]
  rw [sum_stage_apply, splat_of_scalar, constant_apply, ofBits_rows]

/-! ## The bias-and-clamp layer -/

/-- Entry (n, q) of the layer: the larger of 0 and the array's entry plus the bias at `q`. -/
theorem relu_stage_apply (M : FVec Ideal S100000x64 .f32) (b1 : FVec Ideal S64 .f32) (n : Fin 100000) (q : Fin 64) :
    maximumf (addf M (broadcastInDim S100000x64 ![0, 1] bcast_S1x64_S100000x64_0_1
          (broadcastInDim S1x64 ![1] bcast_S64_S1x64_1 b1)))
        (broadcastInDim S100000x64 ![] bcast_S_S100000x64 (constant (F := Ideal) S_ .f32 0x00000000#32)) (ix2 n q)
      = max (M (ix2 n q) + b1 (ix1 q)) 0 := by
  rw [maximumf_apply, addf_apply, rows_of_row, row_of_vector, splat_of_scalar, constant_apply, Ideal.ofBits_zero_f32]

/-! ## The two feature products -/

theorem lhs_first_0 (i : S100000x64.Idx) (c : dot_S100000x64_S64x64_S100000x64_1_0_0_1_n_n.contr.Idx) :
    (dot_S100000x64_S64x64_S100000x64_1_0_0_1_n_n.lhsIdx i c 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhs_first_1 (i : S100000x64.Idx) (c : dot_S100000x64_S64x64_S100000x64_1_0_0_1_n_n.contr.Idx) :
    (dot_S100000x64_S64x64_S100000x64_1_0_0_1_n_n.lhsIdx i c 1).val = (c ⟨0, by decide⟩).val :=
  dot_S100000x64_S64x64_S100000x64_1_0_0_1_n_n.lhsIdx_val_of_single rfl i c
theorem rhs_first_0 (i : S100000x64.Idx) (c : dot_S100000x64_S64x64_S100000x64_1_0_0_1_n_n.contr.Idx) :
    (dot_S100000x64_S64x64_S100000x64_1_0_0_1_n_n.rhsIdx i c 0).val = (c ⟨0, by decide⟩).val :=
  dot_S100000x64_S64x64_S100000x64_1_0_0_1_n_n.rhsIdx_val_of_single rfl i c
theorem rhs_first_1 (i : S100000x64.Idx) (c : dot_S100000x64_S64x64_S100000x64_1_0_0_1_n_n.contr.Idx) :
    (dot_S100000x64_S64x64_S100000x64_1_0_0_1_n_n.rhsIdx i c 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- Entry (n, q) of the first product: row `n` of the features against column `q` of the weights. -/
theorem first_dot_apply (l : FVec Ideal S100000x64 .f32) (r : FVec Ideal S64x64 .f32) (n : Fin 100000) (q : Fin 64) :
    Host.dotGeneral (F := Ideal) dot_S100000x64_S64x64_S100000x64_1_0_0_1_n_n none l r (ix2 n q)
      = ∑ k : Fin 64, l (ix2 n k) * r (ix2 k q) := by
  refine (Ideal.dotGeneral_apply dot_S100000x64_S64x64_S100000x64_1_0_0_1_n_n none .single l r (ix2 n q)).trans ?_
  rw [← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n q) ((contrEquiv1 dot_S100000x64_S64x64_S100000x64_1_0_0_1_n_n 64 rfl rfl).symm k) = ix2 n k :=
    funext fun a => Fin.ext (by
      match a with
      | ⟨0, _⟩ => exact lhs_first_0 _ _
      | ⟨1, _⟩ => exact (lhs_first_1 _ _).trans hk)
  have er : dot_S100000x64_S64x64_S100000x64_1_0_0_1_n_n.rhsIdx (ix2 n q) ((contrEquiv1 dot_S100000x64_S64x64_S100000x64_1_0_0_1_n_n 64 rfl rfl).symm k) = ix2 k q :=
    funext fun a => Fin.ext (by
      match a with
      | ⟨0, _⟩ => exact (rhs_first_0 _ _).trans hk
      | ⟨1, _⟩ => exact rhs_first_1 _ _)
  rw [el, er]

theorem lhs_second_0 (i : S100000x6.Idx) (c : dot_S100000x64_S64x6_S100000x6_1_0_0_1_n_n.contr.Idx) :
    (dot_S100000x64_S64x6_S100000x6_1_0_0_1_n_n.lhsIdx i c 0).val = (i 0).val := by
  unfold DotDims.lhsIdx
  rw [dif_neg (show ¬(0 : Fin S100000x64.rank) ∈ dot_S100000x64_S64x6_S100000x6_1_0_0_1_n_n.lhsBatch by decide),
    dif_pos (show (0 : Fin S100000x64.rank) ∈ dot_S100000x64_S64x6_S100000x6_1_0_0_1_n_n.lhsNonContracting by decide)]
  rfl
theorem lhs_second_1 (i : S100000x6.Idx) (c : dot_S100000x64_S64x6_S100000x6_1_0_0_1_n_n.contr.Idx) :
    (dot_S100000x64_S64x6_S100000x6_1_0_0_1_n_n.lhsIdx i c 1).val = (c ⟨0, by decide⟩).val :=
  dot_S100000x64_S64x6_S100000x6_1_0_0_1_n_n.lhsIdx_val_of_single rfl i c
theorem rhs_second_0 (i : S100000x6.Idx) (c : dot_S100000x64_S64x6_S100000x6_1_0_0_1_n_n.contr.Idx) :
    (dot_S100000x64_S64x6_S100000x6_1_0_0_1_n_n.rhsIdx i c 0).val = (c ⟨0, by decide⟩).val :=
  dot_S100000x64_S64x6_S100000x6_1_0_0_1_n_n.rhsIdx_val_of_single rfl i c
theorem rhs_second_1 (i : S100000x6.Idx) (c : dot_S100000x64_S64x6_S100000x6_1_0_0_1_n_n.contr.Idx) :
    (dot_S100000x64_S64x6_S100000x6_1_0_0_1_n_n.rhsIdx i c 1).val = (i 1).val := by
  unfold DotDims.rhsIdx
  rw [dif_neg (show ¬(1 : Fin S64x6.rank) ∈ dot_S100000x64_S64x6_S100000x6_1_0_0_1_n_n.rhsBatch by decide),
    dif_pos (show (1 : Fin S64x6.rank) ∈ dot_S100000x64_S64x6_S100000x6_1_0_0_1_n_n.rhsNonContracting by decide)]
  rfl

/-- Entry (n, q) of the second product: row `n` of the hidden layer against column `q` of the [64, 6] weights. -/
theorem second_dot_apply (l : FVec Ideal S100000x64 .f32) (r : FVec Ideal S64x6 .f32) (n : Fin 100000) (q : Fin 6) :
    Host.dotGeneral (F := Ideal) dot_S100000x64_S64x6_S100000x6_1_0_0_1_n_n none l r (ix2 n q)
      = ∑ k : Fin 64, l (ix2 n k) * r (ix2 k q) := by
  refine (Ideal.dotGeneral_apply dot_S100000x64_S64x6_S100000x6_1_0_0_1_n_n none .single l r (ix2 n q)).trans ?_
  rw [← Equiv.sum_comp (contrEquiv1 dot_S100000x64_S64x6_S100000x6_1_0_0_1_n_n 64 rfl rfl).symm]
  refine Finset.sum_congr rfl fun k _ => ?_
  have hk := contrEquiv1_symm_val dot_S100000x64_S64x6_S100000x6_1_0_0_1_n_n 64 rfl rfl k
  have el : dot_S100000x64_S64x6_S100000x6_1_0_0_1_n_n.lhsIdx (ix2 n q) ((contrEquiv1 dot_S100000x64_S64x6_S100000x6_1_0_0_1_n_n 64 rfl rfl).symm k) = ix2 n k :=
    funext fun a => Fin.ext (by
      match a with
      | ⟨0, _⟩ => exact lhs_second_0 _ _
      | ⟨1, _⟩ => exact (lhs_second_1 _ _).trans hk)
  have er : dot_S100000x64_S64x6_S100000x6_1_0_0_1_n_n.rhsIdx (ix2 n q) ((contrEquiv1 dot_S100000x64_S64x6_S100000x6_1_0_0_1_n_n 64 rfl rfl).symm k) = ix2 k q :=
    funext fun a => Fin.ext (by
      match a with
      | ⟨0, _⟩ => exact (rhs_second_0 _ _).trans hk
      | ⟨1, _⟩ => exact rhs_second_1 _ _)
  rw [el, er]

end Cert.ReferenceIdeal.RefValue

end
-- ==== Proof.LayersMeet.lean ====
import proofs.«115260_j9131100472028_1_alg».proof.Proof.BlocksToArrays
import proofs.«115260_j9131100472028_1_alg».proof.Proof.RefStages
import proofs.«115260_j9131100472028_1_alg».proof.Proof.MeanLaw
import proofs.«115260_j9131100472028_1_alg».proof.Proof.MeanToArray
import Idealize.ShloMosaic.Lib.ValueIdx
import Idealize.ShloMosaic.Lib.ValueLayout

/-! Where the two programs meet: each array the kernel's regions leave — the two feature products, the
    bias-and-clamp layer, the mean of the rows plus the bias — is, as a whole array on the extended reals, what
    the reference's host operation computes from the same arrays. The two programs name their shapes separately;
    both names abbreviate the same literal shapes. -/

noncomputable section

namespace Cert.KernelIdeal.Meet

open Cert.ReferenceIdeal Cert.ReferenceIdeal.Gen Cert.ReferenceIdeal.RefValue
open Idealize.ShloMosaic Idealize.ShloMosaic.ValueIdx

/-- The first feature product, band by band, is the host's product of the whole arrays. -/
theorem dense1_eq (A : FVec Ideal Cert.ReferenceIdeal.S100000x64 .f32) (W : FVec Ideal Cert.ReferenceIdeal.S64x64 .f32) :
    Cert.KernelIdeal.Blocks.product0 A W
      = Host.dotGeneral (F := Ideal) Cert.ReferenceIdeal.dot_S100000x64_S64x64_S100000x64_1_0_0_1_n_n none A W := by
  funext i
  obtain ⟨n, q, rfl⟩ : ∃ (n : Fin 100000) (q : Fin 64), i = ix2 n q := ⟨i 0, i 1, eq_ix2 i⟩
  rw [Cert.KernelIdeal.Blocks.product0_apply, first_dot_apply]

/-- The second feature product likewise. -/
theorem dense2_eq (A : FVec Ideal Cert.ReferenceIdeal.S100000x64 .f32) (W : FVec Ideal Cert.ReferenceIdeal.S64x6 .f32) :
    Cert.KernelIdeal.Blocks.product2 A W
      = Host.dotGeneral (F := Ideal) Cert.ReferenceIdeal.dot_S100000x64_S64x6_S100000x6_1_0_0_1_n_n none A W := by
  funext i
  obtain ⟨n, q, rfl⟩ : ∃ (n : Fin 100000) (q : Fin 6), i = ix2 n q := ⟨i 0, i 1, eq_ix2 i⟩
  rw [Cert.KernelIdeal.Blocks.product2_apply, second_dot_apply]

/-- The bias-and-clamp layer over the bias laid out as a [1, 64] row is the host's: the bias repeated down the
    rows, added, and the larger of that and zero taken. -/
theorem relu_eq (M : FVec Ideal S100000x64 .f32) (b1 : FVec Ideal S64 .f32) :
    Cert.KernelIdeal.Blocks.biasClamp M (shapeCast Cert.KernelIdeal.S1x64 b1 Cert.KernelIdeal.Gen.shapeCasts_S64_S1x64)
      = maximumf (addf M (broadcastInDim S100000x64 ![0, 1] bcast_S1x64_S100000x64_0_1
            (broadcastInDim S1x64 ![1] bcast_S64_S1x64_1 b1)))
          (broadcastInDim S100000x64 ![] bcast_S_S100000x64 (constant (F := Ideal) S_ .f32 0x00000000#32)) := by
  funext i
  obtain ⟨n, q, rfl⟩ : ∃ (n : Fin 100000) (q : Fin 64), i = ix2 n q := ⟨i 0, i 1, eq_ix2 i⟩
  rw [Cert.KernelIdeal.Blocks.biasClamp_apply, relu_stage_apply, shapeCast_a_1a_apply]

/-- The mean of the rows plus the bias laid out as a [1, 6] row is, entry by entry and for a finite bias, the
    host's quotient by 100000 of the sum of the rows with the bias added to each. -/
theorem mean_eq (S : FVec Ideal S100000x6 .f32) (b2 : FVec Ideal S6 .f32)
    (hb : ∀ q : Fin 6, @Ne EReal (b2 (ix1 q)) ⊥ ∧ @Ne EReal (b2 (ix1 q)) ⊤) (q : Fin 6) :
    (∑ n : Fin 100000, S (ix2 n q)) * ((1 / 100000 : ℝ) : EReal)
        + (shapeCast Cert.KernelIdeal.S1x6 b2 Cert.KernelIdeal.Gen.shapeCasts_S6_S1x6) (ix2 (0 : Fin 1) q)
      = Host.divf (F := Ideal)
          (Host.reduceAdd (F := Ideal)
            (addf S (broadcastInDim S100000x6 ![0, 1] bcast_S1x6_S100000x6_0_1
              (broadcastInDim S1x6 ![1] bcast_S6_S1x6_1 b2)))
            (constant (F := Ideal) S_ .f32 0x00000000#32) reducesTo_S100000x6_S6_d0 h_S_)
          (broadcastInDim S6 ![] bcast_S_S6 (constant (F := Ideal) S_ .f32 0x47C35000#32)) (ix1 q) := by
  rw [mean_stage_apply, shapeCast_a_1a_apply]
  exact (Cert.MeanLaw.mean_bias_of_ne (fun n => S (ix2 n q)) (b2 (ix1 q)) (hb q).1 (hb q).2).symm

/-- The same with the kernel's side written as its named function of the two arrays. -/
theorem rowMean_eq (S : FVec Ideal S100000x6 .f32) (b2 : FVec Ideal S6 .f32)
    (hb : ∀ q : Fin 6, @Ne EReal (b2 (ix1 q)) ⊥ ∧ @Ne EReal (b2 (ix1 q)) ⊤) (q : Fin 6) :
    Cert.KernelIdeal.Blocks3.rowMean S (shapeCast Cert.KernelIdeal.S1x6 b2 Cert.KernelIdeal.Gen.shapeCasts_S6_S1x6)
        (ix2 (0 : Fin 1) q)
      = Host.divf (F := Ideal)
          (Host.reduceAdd (F := Ideal)
            (addf S (broadcastInDim S100000x6 ![0, 1] bcast_S1x6_S100000x6_0_1
              (broadcastInDim S1x6 ![1] bcast_S6_S1x6_1 b2)))
            (constant (F := Ideal) S_ .f32 0x00000000#32) reducesTo_S100000x6_S6_d0 h_S_)
          (broadcastInDim S6 ![] bcast_S_S6 (constant (F := Ideal) S_ .f32 0x47C35000#32)) (ix1 q) :=
  (Cert.KernelIdeal.Blocks3.rowMean_apply S _ q).trans (mean_eq S b2 hb q)

end Cert.KernelIdeal.Meet

end
-- ==== Proof.FiniteBias.lean ====
import proofs.«115260_j9131100472028_1_alg».proof.Defs
import Idealize.ShloMosaic.Lib.ReduceAll
import Idealize.ShloMosaic.Lib.ValueIdx
import Idealize.ShloMosaic.Lib.Pipeline.Value

/-! The precondition says every entry of every float argument has absolute value below +∞; read back for the
    last bias vector, each of its six entries is a real number. -/

noncomputable section

namespace Cert.KernelIdeal.Bridge

open Idealize.ShloMosaic Idealize.SL.Sem

/-- The scalar shape has one index. -/
instance subsingleton_scalar_idx : Subsingleton Cert.Pre_finite_inputs.S_.Idx :=
  ⟨fun a b => funext fun d => d.elim0⟩

/-- The word the precondition compares against denotes +∞. -/
theorem ofBits_inf : Ideal.ofBits .f32 0x7F800000#32 = ⊤ := by
  simp [Ideal.ofBits, Ideal.ieee]

/-- An extended real whose absolute value `max x (-x)` is strictly below +∞ is neither infinity. -/
theorem finite_of_abs_lt (x t : EReal) (ht : t = ⊤) (h : Ideal.cmp .olt (max x (-x)) t = 1#1) :
    x ≠ ⊥ ∧ x ≠ ⊤ := by
  subst ht
  have hlt : max x (-x) < ⊤ := by
    by_contra hc
    simp [Ideal.cmp, hc] at h
  induction x using EReal.rec with
  | bot => simp at hlt
  | top => simp at hlt
  | coe r => exact ⟨EReal.coe_ne_bot r, EReal.coe_ne_top r⟩

/-- Under the precondition, every entry of the last bias vector is a real number. -/
theorem bias_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (q : Fin 6) :
    @Ne EReal (m ((c.tc : Thread Cert.KernelIdeal.nD Cert.KernelIdeal.τ).loc Cert.KernelIdeal.main_arg5) (ValueIdx.ix1 q)) ⊥
      ∧ @Ne EReal (m ((c.tc : Thread Cert.KernelIdeal.nD Cert.KernelIdeal.τ).loc Cert.KernelIdeal.main_arg5) (ValueIdx.ix1 q)) ⊤ := by
  have h0 := congrFun (h c) ValueIdx.ix0
  dsimp only [Cert.Pre_finite_inputs.fn, Cert.Pre_finite_inputs.fn_part1] at h0
  have h5 := (IntOp.andi_eq_one.1 h0).2
  have h6 := Host.reduce_andi_all _ _ _ _ _ h5 (ValueIdx.ix1 q)
  refine finite_of_abs_lt _ _ ?_ h6
  refine (broadcastInDim_apply _ _ _ (ValueIdx.ix1 q) ValueIdx.ix0 (fun a => a.elim0)).trans ?_
  exact ofBits_inf

end Cert.KernelIdeal.Bridge

end
-- ==== Proof.KernelValue.lean ====
import proofs.«115260_j9131100472028_1_alg».proof.Proof.WholeRun
import proofs.«115260_j9131100472028_1_alg».proof.Proof.StagedResults
import proofs.«115260_j9131100472028_1_alg».proof.Proof.HostReads
import proofs.«115260_j9131100472028_1_alg».proof.Proof.BlocksToArrays
import proofs.«115260_j9131100472028_1_alg».proof.Proof.MeanToArray
import proofs.«115260_j9131100472028_1_alg».proof.Proof.LayersMeet
import proofs.«115260_j9131100472028_1_alg».proof.Proof.FiniteBias
import Idealize.ShloMosaic.Lib.ValueIdx
import Idealize.ShloMosaic.Lib.ValueLayout

/-! The kernel program's result, followed from the launch contents through its ten items — three host stretches, the
    first product, a round of message passing, the bias-and-clamp layer, the second product, a second round, the mean,
    a reshape — is the shared network's result of the six argument arrays. Each step reads one buffer after one item
    as a named function of buffers read before it; the network's pieces stay folded throughout. -/

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The arguments, read before the first region -/

theorem arg0_at3 (c : Dev nD) : Gen.V3 m c main_arg0 = m ((c : Thread nD τ).loc main_arg0) :=
  (Gen.V3_of m c main_arg0 (by decide)).trans <| (Gen.V2_of m c main_arg0 (by decide)).trans <|
    (Gen.V1_of m c main_arg0 (by decide)).trans rfl
theorem arg2_at3 (c : Dev nD) : Gen.V3 m c main_arg2 = m ((c : Thread nD τ).loc main_arg2) :=
  (Gen.V3_of m c main_arg2 (by decide)).trans <| (Gen.V2_of m c main_arg2 (by decide)).trans <|
    (Gen.V1_of m c main_arg2 (by decide)).trans rfl
theorem arg3_at3 (c : Dev nD) : Gen.V3 m c main_arg3 = m ((c : Thread nD τ).loc main_arg3) :=
  (Gen.V3_of m c main_arg3 (by decide)).trans <| (Gen.V2_of m c main_arg3 (by decide)).trans <|
    (Gen.V1_of m c main_arg3 (by decide)).trans rfl
theorem arg4_at3 (c : Dev nD) : Gen.V3 m c main_arg4 = m ((c : Thread nD τ).loc main_arg4) :=
  (Gen.V3_of m c main_arg4 (by decide)).trans <| (Gen.V2_of m c main_arg4 (by decide)).trans <|
    (Gen.V1_of m c main_arg4 (by decide)).trans rfl
theorem arg5_at3 (c : Dev nD) : Gen.V3 m c main_arg5 = m ((c : Thread nD τ).loc main_arg5) :=
  (Gen.V3_of m c main_arg5 (by decide)).trans <| (Gen.V2_of m c main_arg5 (by decide)).trans <|
    (Gen.V1_of m c main_arg5 (by decide)).trans rfl

/-! ## After the first region: the first product -/

/-- The first region leaves the features times the first weights, as the host's product of the two arguments. -/
theorem dense1_at4 (c : Dev nD) :
    Gen.V4 m (outsAll m) c (Proc.devRef .tc main_v30)
      = Host.dotGeneral (F := Ideal) (φ₁ := .f32) (φ₂ := .f32) Cert.ReferenceIdeal.dot_S100000x64_S64x64_S100000x64_1_0_0_1_n_n none
          (m ((c : Thread nD τ).loc main_arg0)) (m ((c : Thread nD τ).loc main_arg2)) :=
  (hF0 m (D3 m) c 2).symm.trans <| (Cert.KernelIdeal.Blocks.final0 (X0 m) c).trans <|
    (congrArg₂ Cert.KernelIdeal.Blocks.product0 (arg0_at3 m c) (arg2_at3 m c)).trans
      (Cert.KernelIdeal.Meet.dense1_eq _ _)

/-! ## After the first round of message passing -/

/-- The stretch after the first region leaves one round of message passing over that product, -/
theorem pass1_at5 (c : Dev nD) :
    Gen.V5 m (outsAll m) c (Proc.devRef .tc main_v43)
      = Cert.ReferenceIdeal.Spec.pass64 (F := Ideal)
          (Cert.ReferenceIdeal.Spec.sources (m ((c : Thread nD τ).loc main_arg1)))
          (Cert.ReferenceIdeal.Spec.targets (m ((c : Thread nD τ).loc main_arg1)))
          (Cert.ReferenceIdeal.Spec.edgeWeights (Cert.ReferenceIdeal.Spec.sources (m ((c : Thread nD τ).loc main_arg1)))
            (Cert.ReferenceIdeal.Spec.targets (m ((c : Thread nD τ).loc main_arg1))))
          (Host.dotGeneral (F := Ideal) (φ₁ := .f32) (φ₂ := .f32) Cert.ReferenceIdeal.dot_S100000x64_S64x64_S100000x64_1_0_0_1_n_n none
            (m ((c : Thread nD τ).loc main_arg0)) (m ((c : Thread nD τ).loc main_arg2))) := by
  refine (first_pass_read (Gen.V4 m (outsAll m) c)).trans ?_
  rw [Gen.V4_of m (outsAll m) c main_v3 (by decide), Gen.V4_of m (outsAll m) c main_v6 (by decide),
    Gen.V4_of m (outsAll m) c main_v29 (by decide), sources_read, targets_read, weights_read, dense1_at4]

/-- and the first bias as a row. -/
theorem bias1_at5 (c : Dev nD) :
    Gen.V5 m (outsAll m) c (Proc.devRef .tc main_v44)
      = shapeCast S1x64 (m ((c : Thread nD τ).loc main_arg3)) shapeCasts_S64_S1x64 := by
  refine (first_bias_read (Gen.V4 m (outsAll m) c)).trans ?_
  rw [Gen.V4_of m (outsAll m) c main_arg3 (by decide), arg3_at3]

/-! ## After the second region: the hidden layer -/

/-- The second region leaves the shared network's hidden layer. -/
theorem hidden_at6 (c : Dev nD) :
    Gen.V6 m (outsAll m) c (Proc.devRef .tc main_v45)
      = Cert.ReferenceIdeal.Spec.hidden (F := Ideal) (m ((c : Thread nD τ).loc main_arg1))
          (m ((c : Thread nD τ).loc main_arg0)) (m ((c : Thread nD τ).loc main_arg2)) (m ((c : Thread nD τ).loc main_arg3)) :=
  (hF1 m (D3 m) c 2).symm.trans <| (Cert.KernelIdeal.Blocks.final1 (X1 m) c).trans <|
    (congrArg₂ Cert.KernelIdeal.Blocks.biasClamp ((X1_eq m (D3 m) c main_v43).trans (pass1_at5 m c))
      ((X1_eq m (D3 m) c main_v44).trans (bias1_at5 m c))).trans
      (Cert.KernelIdeal.Meet.relu_eq _ _)

/-! ## After the third region: the second product -/

/-- The second weights, as the third region finds them. -/
theorem arg4_at6 (c : Dev nD) : Gen.V6 m (outsAll m) c main_arg4 = m ((c : Thread nD τ).loc main_arg4) :=
  (Gen.V6_of m (outsAll m) c main_arg4 (by decide)).trans <| (Gen.V5_of m (outsAll m) c main_arg4 (by decide)).trans <|
    (Gen.V4_of m (outsAll m) c main_arg4 (by decide)).trans (arg4_at3 m c)

/-- The third region leaves the hidden layer times the second weights, as the host's product. -/
theorem dense2_at7 (c : Dev nD) :
    Gen.V7 m (outsAll m) c (Proc.devRef .tc main_v46)
      = Host.dotGeneral (F := Ideal) (φ₁ := .f32) (φ₂ := .f32) Cert.ReferenceIdeal.dot_S100000x64_S64x6_S100000x6_1_0_0_1_n_n none
          (Cert.ReferenceIdeal.Spec.hidden (F := Ideal) (m ((c : Thread nD τ).loc main_arg1))
            (m ((c : Thread nD τ).loc main_arg0)) (m ((c : Thread nD τ).loc main_arg2)) (m ((c : Thread nD τ).loc main_arg3)))
          (m ((c : Thread nD τ).loc main_arg4)) :=
  (hF2 m (D3 m) c 2).symm.trans <| (Cert.KernelIdeal.Blocks.final2 (X2 m) c).trans <|
    (congrArg₂ Cert.KernelIdeal.Blocks.product2 ((X2_eq m (D3 m) c main_v45).trans (hidden_at6 m c))
      ((X2_eq m (D3 m) c main_arg4).trans (arg4_at6 m c))).trans
      (Cert.KernelIdeal.Meet.dense2_eq _ _)

/-! ## After the second round of message passing -/

/-- A buffer that nothing between the first region's entry and the fourth stretch writes. -/
theorem at7_of3 (c : Dev nD) (r : Ref sig .tc) (h7 : r ∉ ([main_v46] : List (Ref sig .tc)))
    (h6 : r ∉ ([main_v45] : List (Ref sig .tc))) (h5 : r ∉ hostOps1_W) (h4 : r ∉ ([main_v30] : List (Ref sig .tc))) :
    Gen.V7 m (outsAll m) c r = Gen.V3 m c r :=
  (Gen.V7_of m (outsAll m) c r h7).trans <| (Gen.V6_of m (outsAll m) c r h6).trans <|
    (Gen.V5_of m (outsAll m) c r h5).trans (Gen.V4_of m (outsAll m) c r h4)

/-- The stretch after the third region leaves the network's second round, before its bias, -/
theorem logits_at8 (c : Dev nD) :
    Gen.V8 m (outsAll m) c (Proc.devRef .tc main_v59)
      = Cert.ReferenceIdeal.Spec.logits (F := Ideal) (m ((c : Thread nD τ).loc main_arg1))
          (m ((c : Thread nD τ).loc main_arg0)) (m ((c : Thread nD τ).loc main_arg2)) (m ((c : Thread nD τ).loc main_arg3))
          (m ((c : Thread nD τ).loc main_arg4)) := by
  refine (second_pass_read (Gen.V7 m (outsAll m) c)).trans ?_
  rw [at7_of3 m c main_v3 (by decide) (by decide) (by decide) (by decide),
    at7_of3 m c main_v6 (by decide) (by decide) (by decide) (by decide),
    at7_of3 m c main_v29 (by decide) (by decide) (by decide) (by decide),
    sources_read, targets_read, weights_read, dense2_at7]
  rfl

/-- and the second bias as a row. -/
theorem bias2_at8 (c : Dev nD) :
    Gen.V8 m (outsAll m) c (Proc.devRef .tc main_v60)
      = shapeCast S1x6 (m ((c : Thread nD τ).loc main_arg5)) shapeCasts_S6_S1x6 := by
  refine (second_bias_read (Gen.V7 m (outsAll m) c)).trans ?_
  rw [at7_of3 m c main_arg5 (by decide) (by decide) (by decide) (by decide), arg5_at3]

/-! ## After the fourth region: the mean -/

/-- The fourth region leaves the mean of the rows of that round plus the second bias. -/
theorem mean_at9 (c : Dev nD) :
    Gen.V9 m (outsAll m) c (Proc.devRef .tc main_v61)
      = Cert.KernelIdeal.Blocks3.rowMean
          (Cert.ReferenceIdeal.Spec.logits (F := Ideal) (m ((c : Thread nD τ).loc main_arg1))
            (m ((c : Thread nD τ).loc main_arg0)) (m ((c : Thread nD τ).loc main_arg2)) (m ((c : Thread nD τ).loc main_arg3))
            (m ((c : Thread nD τ).loc main_arg4)))
          (shapeCast S1x6 (m ((c : Thread nD τ).loc main_arg5)) shapeCasts_S6_S1x6) :=
  (hF3 m c 2).symm.trans <| (Cert.KernelIdeal.Blocks3.final3 (X3 m) c).trans
    (congrArg₂ Cert.KernelIdeal.Blocks3.rowMean ((X3_eq m (D3 m) c main_v59).trans (logits_at8 m c))
      ((X3_eq m (D3 m) c main_v60).trans (bias2_at8 m c)))

/-! ## The result -/

/-- Under the precondition, the kernel program's result is the shared network's of the six arguments: the last
    stretch lays the mean's [1, 6] row out as a vector of 6, and, the second bias being finite, the mean of the rows
    plus the bias is the quotient by 100000 of the sum of the rows with the bias added to each. -/
theorem kernel_value [hP : Cert.Pre_finite_inputs.Facts] (hpre : Cert.Pre_KernelIdeal m) (c : Dev nD) :
    Gen.V10 m (outsAll m) c (Proc.devRef .tc main_v62)
      = Cert.ReferenceIdeal.Spec.result (F := Ideal) (m ((c : Thread nD τ).loc main_arg1))
          (m ((c : Thread nD τ).loc main_arg0)) (m ((c : Thread nD τ).loc main_arg2)) (m ((c : Thread nD τ).loc main_arg3))
          (m ((c : Thread nD τ).loc main_arg4)) (m ((c : Thread nD τ).loc main_arg5)) := by
  refine (result_read (Gen.V9 m (outsAll m) c)).trans ?_
  rw [mean_at9]
  funext i
  obtain ⟨q, rfl⟩ : ∃ q : Fin 6, i = ix1 q := ⟨i 0, eq_ix1 i⟩
  refine (shapeCast_1a_a_apply _ shapeCasts_S1x6_S6 q).trans ?_
  exact Cert.KernelIdeal.Meet.rowMean_eq _ _ (fun q => bias_real m hpre c q) q

end Cert.KernelIdeal.Bridge

end
-- ==== Proof.lean ====
/-
  A two-layer graph convolution with a mean over the nodes, computed by four tiled kernels among host operations,
  against the same network written with whole-array operations.

  Both programs add a self-loop per node to the edge list, weigh an edge from `s` to `t` by
  `d(s)^(-1/2) · d(t)^(-1/2)` (`d` the number of edges arriving at a node), and run two rounds of message passing
  (gather the sources' rows, scale by the edge weights, sum at the targets) by the same host operations. They differ
  in four places, each equal on the extended reals:
  * the two dense layers — a block of 10000 rows times the whole weight matrix into a zero accumulator, per grid
    point, against one product of the whole arrays: entry `(n, q)` is `Σ_k a(n,k) · w(k,q)` either way, and a row
    block of the result depends on the same row block of the left factor only;
  * the first bias and rectifier — blockwise `max(msg + b1, 0)` against the same expression on whole arrays;
  * the mean — the kernel keeps a 1 × 6 accumulator, zeroed at the first of ten grid points, adds the column sums of
    each block of 10000 rows, and at the last point stores `acc · (1/100000) + b2`; the reference adds `b2` to every
    row, sums the 100000 rows from zero and divides by 100000. A sum over 100000 rows is the sum over ten blocks of
    the blocks' sums, `Σ_n (a_n + b) = Σ_n a_n + 100000 · b` in any commutative monoid, and
    `(S + 100000 · b) / 100000 = S · (1/100000) + b` for every extended real `S` once `b` is a real number — which the
    precondition gives for `b2`, and is the only use of it: `S` itself may be infinite;
  * the constant `1/100000` — a float literal in the kernel, named in its idealization, so that at the ideal instance
    it is the rational and not the float nearest to it.

  The frames: each kernel region is run point by point (its body's loads, its arithmetic as one value, its store), the
  regions and the host stretches are chained from the launch to the return, and every final memory holds, in each
  unscoped buffer, the launch contents pushed through the host stretches with each region's result at what its
  write-backs leave; no stretch and no region writes an argument array. The reference has no kernel: its run is its
  host operations in order.
-/
import proofs.«115260_j9131100472028_1_alg».proof.Defs
import proofs.«115260_j9131100472028_1_alg».proof.Proof.Gen.Kernel
import proofs.«115260_j9131100472028_1_alg».proof.Proof.Gen.KernelIdeal
import proofs.«115260_j9131100472028_1_alg».proof.Proof.Gen.ReferenceIdeal
import proofs.«115260_j9131100472028_1_alg».proof.Proof.Gen.Pre_finite_inputs
import proofs.«115260_j9131100472028_1_alg».proof.Proof.WordWholeRun
import proofs.«115260_j9131100472028_1_alg».proof.Proof.WholeRun
import proofs.«115260_j9131100472028_1_alg».proof.Proof.RefRun
import proofs.«115260_j9131100472028_1_alg».proof.Proof.RefIsNetwork
import proofs.«115260_j9131100472028_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_kernel : Cert.frame_Kernel := fun m ρ _ => Cert.Kernel.Hand.frame m ρ

/-- So does its idealization. -/
theorem frame_ideal : Cert.frame_KernelIdeal := fun m ρ _ => Cert.KernelIdeal.Hand.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The one rewrite of the idealization: the literal nearest to `1/100000` is named, and the name denotes the rational. -/
theorem preserves : Cert.preserves_Kernel_KernelIdeal :=
  IdealRules.named_const.statement Cert.KernelIdeal.κ "inv_100000" .f32 0x3727C5AC#32 ((1 / 100000 : ℝ) : EReal) rfl

/-- From memories agreeing on the arguments both idealized programs end with the shared network's result of those
    arguments: the kernel program by its run and the value of its last boundary, the reference by its run. -/
theorem algebraic : Cert.algebraic_KernelIdeal_ReferenceIdeal := by
  intro m ρ m' ρ' hpre hagree
  refine ⟨fun c => Cert.ReferenceIdeal.Spec.result (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v62 (by decide))).trans (Cert.KernelIdeal.Bridge.kernel_value m hpre c),
      (h c _ (Cert.KernelIdeal.Hand.mem_uc Cert.KernelIdeal.main_arg0 (by decide))).trans (Cert.KernelIdeal.Gen.V10_main_arg0 m (Cert.KernelIdeal.Hand.outsAll m) c),
      (h c _ (Cert.KernelIdeal.Hand.mem_uc Cert.KernelIdeal.main_arg1 (by decide))).trans (Cert.KernelIdeal.Gen.V10_main_arg1 m (Cert.KernelIdeal.Hand.outsAll m) c),
      (h c _ (Cert.KernelIdeal.Hand.mem_uc Cert.KernelIdeal.main_arg2 (by decide))).trans (Cert.KernelIdeal.Gen.V10_main_arg2 m (Cert.KernelIdeal.Hand.outsAll m) c),
      (h c _ (Cert.KernelIdeal.Hand.mem_uc Cert.KernelIdeal.main_arg3 (by decide))).trans (Cert.KernelIdeal.Gen.V10_main_arg3 m (Cert.KernelIdeal.Hand.outsAll m) c),
      (h c _ (Cert.KernelIdeal.Hand.mem_uc Cert.KernelIdeal.main_arg4 (by decide))).trans (Cert.KernelIdeal.Gen.V10_main_arg4 m (Cert.KernelIdeal.Hand.outsAll m) c),
      (h c _ (Cert.KernelIdeal.Hand.mem_uc Cert.KernelIdeal.main_arg5 (by decide))).trans (Cert.KernelIdeal.Gen.V10_main_arg5 m (Cert.KernelIdeal.Hand.outsAll m) c)⟩
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.result_is_network, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
